-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S64x1 : Shape := ⟨2, ![64, 1]⟩
abbrev S128x256 : Shape := ⟨2, ![128, 256]⟩
abbrev S256 : Shape := ⟨1, ![256]⟩
abbrev S256x256 : Shape := ⟨2, ![256, 256]⟩
abbrev S258x256 : Shape := ⟨2, ![258, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x1 : S_.BroadcastsInDim S64x1 (![] : Fin 0 → Fin S64x1.rank)
  reducesTo_S64x1_S_d0_1 : S64x1.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S258x256 : S_.BroadcastsInDim S258x256 (![] : Fin 0 → Fin S258x256.rank)
  reducesTo_S258x256_S_d0_1 : S258x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S256x128 .f32) (main_arg14 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x128 .f32 := Host.absf main_arg13
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S256x256 .f32) (main_arg10 : FVec F S256 .f32) (main_arg11 : FVec F S258x256 .f32) (main_arg12 : FVec F S256 .f32) (main_arg13 : FVec F S256x128 .f32) (main_arg14 : FVec F S128 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S258x256 .f32 := Host.absf main_arg11
  let main_cst_16 : FVec F S_ .f32 := constant S_ .f32 0x7F800000#32
  let main_v45 : FVec F S258x256 .f32 := broadcastInDim S258x256 ![] bcast_S_S258x256 main_cst_16
  let main_v46 : IVec S258x256 1 := cmpf .olt main_v44 main_v45
  let main_c_17 : IVec S_ 1 := constantI S_ 1 1#1
  let main_v47 : IVec S_ 1 := (fun x v => Host.reduce IntOp.andi x v reducesTo_S258x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_v48 main_v49 main_v50

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_arg11 : FVec F S258x256 .f32) (main_arg12 : FVec F S256 .f32) (main_arg13 : FVec F S256x128 .f32) (main_arg14 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x800000 32) (main_arg2 : IVec S50000 32) (main_arg3 : FVec F S64x1 .f32) (main_arg4 : FVec F S64x1 .f32) (main_arg5 : FVec F S128x256 .f32) (main_arg6 : FVec F S256 .f32) (main_arg7 : FVec F S256x256 .f32) (main_arg8 : FVec F S256 .f32) (main_arg9 : FVec F S256x256 .f32) (main_arg10 : FVec F S256 .f32) (main_arg11 : FVec F S258x256 .f32) (main_arg12 : FVec F S256 .f32) (main_arg13 : FVec F S256x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S64x1 .f32 := Host.absf main_arg3
  let main_cst_0 : FVec F S_ .f32 := constant S_ .f32 0x7F800000#32
  let main_v5 : FVec F S64x1 .f32 := broadcastInDim S64x1 ![] bcast_S_S64x1 main_cst_0
  let main_v6 : IVec S64x1 1 := cmpf .olt main_v4 main_v5
  let main_c_1 : IVec S_ 1 := constantI S_ 1 1#1
  let main_v7 : IVec S_ 1 := (fun x v => Host.reduce IntOp.andi x v reducesTo_S64x1_S_d0_1 h_S_) main_v6 main_c_1
  let main_v8 : IVec S_ 1 := andi main_v3 main_v7
  let main_v9 : FVec F S64x1 .f32 := Host.absf main_arg4
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S64x1 : Shape := ⟨2, ![64, 1]⟩
abbrev S128x256 : Shape := ⟨2, ![128, 256]⟩
abbrev S256 : Shape := ⟨1, ![256]⟩
abbrev S256x256 : Shape := ⟨2, ![256, 256]⟩
abbrev S258x256 : Shape := ⟨2, ![258, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x256 : Shape := ⟨2, ![1, 256]⟩
abbrev S2000x1 : Shape := ⟨2, ![2000, 1]⟩
abbrev S64 : Shape := ⟨1, ![64]⟩
abbrev S64x256 : Shape := ⟨2, ![64, 256]⟩
abbrev S64x258 : Shape := ⟨2, ![64, 258]⟩
abbrev S1x128 : Shape := ⟨2, ![1, 128]⟩
abbrev S64x128 : Shape := ⟨2, ![64, 128]⟩

abbrev nBuf : Space → Nat
  | .hbm => 125
  | .vmem => 48
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S64x1, .f32⟩
  | .hbm, ⟨4, _⟩ => ⟨S64x1, .f32⟩
  | .hbm, ⟨5, _⟩ => ⟨S128x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S258x256, .f32⟩
  | .hbm, ⟨12, _⟩ => ⟨S256, .f32⟩
  | .hbm, ⟨13, _⟩ => ⟨S256x128, .f32⟩
  | .hbm, ⟨14, _⟩ => ⟨S128, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000, .f32⟩
  | .hbm, ⟨49, _⟩ => ⟨S800000, .f32⟩
  | .hbm, ⟨50, _⟩ => ⟨S800000x1, .f32⟩
  | .hbm, ⟨51, _⟩ => ⟨S50000x256, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x256, .f32⟩
  | .hbm, ⟨61, _⟩ => ⟨S800000x256, .f32⟩
  | .hbm, ⟨62, _⟩ => ⟨S800000x256, .f32⟩
  | .hbm, ⟨63, _⟩ => ⟨S_, .f32⟩
  | .hbm, ⟨64, _⟩ => ⟨S50000x256, .f32⟩
  | .hbm, ⟨65, _⟩ => ⟨S800000x1, .i32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x256, .f32⟩
  | .hbm, ⟨79, _⟩ => ⟨S800000x256, .f32⟩
  | .hbm, ⟨80, _⟩ => ⟨S800000x256, .f32⟩
  | .hbm, ⟨81, _⟩ => ⟨S_, .f32⟩
  | .hbm, ⟨82, _⟩ => ⟨S50000x256, .f32⟩
  | .hbm, ⟨83, _⟩ => ⟨S800000x1, .i32⟩
  | .hbm, ⟨84, _⟩ => ⟨S50000x256, .f32⟩
  | .hbm, ⟨85, _⟩ => ⟨S1x256, .f32⟩
  | .hbm, ⟨86, _⟩ => ⟨S50000x256, .f32⟩
  | .hbm, ⟨87, _⟩ => ⟨S50000x256, .f32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S800000x256, .f32⟩
  | .hbm, ⟨97, _⟩ => ⟨S800000x256, .f32⟩
  | .hbm, ⟨98, _⟩ => ⟨S800000x256, .f32⟩
  | .hbm, ⟨99, _⟩ => ⟨S_, .f32⟩
  | .hbm, ⟨100, _⟩ => ⟨S50000x256, .f32⟩
  | .hbm, ⟨101, _⟩ => ⟨S800000x1, .i32⟩
  | .hbm, ⟨102, _⟩ => ⟨S50000x256, .f32⟩
  | .hbm, ⟨103, _⟩ => ⟨S1x256, .f32⟩
  | .hbm, ⟨104, _⟩ => ⟨S50000x256, .f32⟩
  | .hbm, ⟨105, _⟩ => ⟨S_, .f32⟩
  | .hbm, ⟨106, _⟩ => ⟨S50000, .f32⟩
  | .hbm, ⟨107, _⟩ => ⟨S_, .f32⟩
  | .hbm, ⟨108, _⟩ => ⟨S64, .f32⟩
  | .hbm, ⟨109, _⟩ => ⟨S50000x1, .i32⟩
  | .hbm, ⟨110, _⟩ => ⟨S64, .f32⟩
  | .hbm, ⟨111, _⟩ => ⟨S_, .f32⟩
  | .hbm, ⟨112, _⟩ => ⟨S64x256, .f32⟩
  | .hbm, ⟨113, _⟩ => ⟨S50000x1, .i32⟩
  | .hbm, ⟨114, _⟩ => ⟨S64x256, .f32⟩
  | .hbm, ⟨115, _⟩ => ⟨S_, .f32⟩
  | .hbm, ⟨116, _⟩ => ⟨S64, .f32⟩
  | .hbm, ⟨117, _⟩ => ⟨S64, .f32⟩
  | .hbm, ⟨118, _⟩ => ⟨S64x1, .f32⟩
  | .hbm, ⟨119, _⟩ => ⟨S64x256, .f32⟩
  | .hbm, ⟨120, _⟩ => ⟨S64x256, .f32⟩
  | .hbm, ⟨121, _⟩ => ⟨S64x258, .f32⟩
  | .hbm, ⟨122, _⟩ => ⟨S1x256, .f32⟩
  | .hbm, ⟨123, _⟩ => ⟨S1x128, .f32⟩
  | .hbm, ⟨124, _⟩ => ⟨S64x128, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x1, .f32⟩
  | .local _ .vmem, ⟨24, _⟩ => ⟨S2000x1, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x1, .f32⟩
  | .local _ .vmem, ⟨38, _⟩ => ⟨S2000x1, .f32⟩
  | .local _ .vmem, ⟨39, _⟩ => ⟨S1x256, .f32⟩
  | .local _ .vmem, ⟨40, _⟩ => ⟨S2000x256, .f32⟩
  | .local _ .vmem, ⟨41, _⟩ => ⟨S2000x256, .f32⟩
  | .local _ .vmem, ⟨42, _⟩ => ⟨S64x258, .f32⟩
  | .local _ .vmem, ⟨43, _⟩ => ⟨S258x256, .f32⟩
  | .local _ .vmem, ⟨44, _⟩ => ⟨S1x256, .f32⟩
  | .local _ .vmem, ⟨45, _⟩ => ⟨S256x128, .f32⟩
  | .local _ .vmem, ⟨46, _⟩ => ⟨S1x128, .f32⟩
  | .local _ .vmem, ⟨47, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_8 : Ref sig .tc := ⟨.hbm, 70, rfl⟩
abbrev main_v45 : Ref sig .tc := ⟨.hbm, 71, rfl⟩
abbrev main_v46 : Ref sig .tc := ⟨.hbm, 72, rfl⟩
abbrev main_c_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_11 : Ref sig .tc := ⟨.hbm, 88, rfl⟩
abbrev main_v60 : Ref sig .tc := ⟨.hbm, 89, rfl⟩
abbrev main_v61 : Ref sig .tc := ⟨.hbm, 90, rfl⟩
abbrev main_c_12 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_14 : Ref sig .tc := ⟨.hbm, 105, rfl⟩
abbrev main_v74 : Ref sig .tc := ⟨.hbm, 106, rfl⟩
abbrev main_cst_15 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_16 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S64x258 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S258x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S800000_S800000x1 : S800000.ShapeCasts S800000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  bcast_S_S64 : S_.BroadcastsInDim S64 (![] : Fin 0 → Fin S64.rank)
  bcast_S50000_S50000x1_0 : S50000.BroadcastsInDim S50000x1 (![0] : Fin 1 → Fin S50000x1.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  concatenates_S64x256_S64x1_S64x1_S64x258_d1 : Shape.Concatenates [S64x256, S64x1, S64x1] S64x258 1
  shapeCasts_S128_S1x128 : S128.ShapeCasts S1x128
  inb_S64x258_S64x258_0_0 : ∀ a, (![0, 0] : Fin 2 → Nat) a + S64x258.size a ≤ S64x258.size a
  h_S64x258 : 0 < S64x258.numel
  shapeCasts_S64x258_S64x258 : S64x258.ShapeCasts S64x258
  inb_S258x256_S258x256_0_0 : ∀ a, (![0, 0] : Fin 2 → Nat) a + S258x256.size a ≤ S258x256.size a
  h_S258x256 : 0 < S258x256.numel
  broadcasts_S1x256_S64x256 : S1x256.Broadcasts S64x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S64x128_S64x128_0_0 : ∀ a, (![0, 0] : Fin 2 → Nat) a + S64x128.size a ≤ S64x128.size a
  h_S64x128 : 0 < S64x128.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  scatter_S64_S50000x1_S50000_n_0_0_1_wf : ScatterDims.WF S64 S50000x1 S50000 [] [0] [0] 1
  scatter_S64x256_S50000x1_S50000x256_1_0_0_1_wf : ScatterDims.WF S64x256 S50000x1 S50000x256 [1] [0] [0] 1
  dot_S64x258_S258x256_S64x256_1_0_0_1_n_n_wf : DotDims.WF S64x258 S258x256 S64x256 [1] [0] [0] [1] [] []
  dot_S64x256_S256x128_S64x128_1_0_0_1_n_n_wf : DotDims.WF S64x256 S256x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S50000x256.size a
  hwx4_2 : ∀ i : grid4.Coords, EltTy.bits .f32 = 32 ∨ (Rect.block (s := S50000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S50000x256.size a
  hwx5_1 : ∀ i : grid5.Coords, EltTy.bits .f32 = 32 ∨ (Rect.block (s := S50000x256) S2000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x256.size a ≤ S50000x256.size a
  hwx5_4 : ∀ i : grid5.Coords, EltTy.bits .f32 = 32 ∨ (Rect.block (s := S50000x256) S2000x256.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S64x258.size a ≤ S64x258.size a
  hwx6_0 : ∀ i : grid6.Coords, EltTy.bits .f32 = 32 ∨ (Rect.block (s := S64x258) S64x258.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S258x256.size a ≤ S258x256.size a
  hwx6_1 : ∀ i : grid6.Coords, EltTy.bits .f32 = 32 ∨ (Rect.block (s := S258x256) S258x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x128.size a ≤ S256x128.size a
  hwx6_3 : ∀ i : grid6.Coords, EltTy.bits .f32 = 32 ∨ (Rect.block (s := S256x128) S256x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x128.size a ≤ S64x128.size a
  hwx6_5 : ∀ i : grid6.Coords, EltTy.bits .f32 = 32 ∨ (Rect.block (s := S64x128) S64x128.size (cc6_transform_5 i) (hinb6_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def dot_S64x258_S258x256_S64x256_1_0_0_1_n_n : DotDims S64x258 S258x256 S64x256 where
  lhsContracting := [1]
  rhsContracting := [0]
  lhsNonContracting := [0]
  rhsNonContracting := [1]
  lhsBatch := []
  rhsBatch := []
  wf := dot_S64x258_S258x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v58) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v71) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v72) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v73) S2000x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v86) S64x258.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S258x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg13) S256x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v88) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v89) S64x128.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S64x1 : Shape := ⟨2, ![64, 1]⟩
abbrev S128x256 : Shape := ⟨2, ![128, 256]⟩
abbrev S256 : Shape := ⟨1, ![256]⟩
abbrev S256x256 : Shape := ⟨2, ![256, 256]⟩
abbrev S258x256 : Shape := ⟨2, ![258, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x256 : Shape := ⟨2, ![50000, 256]⟩
abbrev S800000x256 : Shape := ⟨2, ![800000, 256]⟩
abbrev S50000x1 : Shape := ⟨2, ![50000, 1]⟩
abbrev S1x256 : Shape := ⟨2, ![1, 256]⟩
abbrev S64 : Shape := ⟨1, ![64]⟩
abbrev S64x256 : Shape := ⟨2, ![64, 256]⟩
abbrev S64x258 : Shape := ⟨2, ![64, 258]⟩
abbrev S64x128 : Shape := ⟨2, ![64, 128]⟩
abbrev S1x128 : Shape := ⟨2, ![1, 128]⟩

abbrev nBuf : Space → Nat
  | .hbm => 198
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S64x1, .f32⟩
  | 4 => ⟨S64x1, .f32⟩
  | 5 => ⟨S128x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S258x256, .f32⟩
  | 12 => ⟨S256, .f32⟩
  | 13 => ⟨S256x128, .f32⟩
  | 14 => ⟨S128, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S50000x256, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x256, .f32⟩
  | 58 => ⟨S800000x1, .f32⟩
  | 59 => ⟨S800000x256, .f32⟩
  | 60 => ⟨S800000x256, .f32⟩
  | 61 => ⟨S_, .f32⟩
  | 62 => ⟨S50000x256, .f32⟩
  | 63 => ⟨S800000x1, .i32⟩
  | 64 => ⟨S50000x256, .f32⟩
  | 65 => ⟨S50000, .f32⟩
  | 66 => ⟨S50000x1, .f32⟩
  | 67 => ⟨S50000x256, .f32⟩
  | 68 => ⟨S50000x256, .f32⟩
  | 69 => ⟨S50000x256, .f32⟩
  | 70 => ⟨S1x256, .f32⟩
  | 71 => ⟨S50000x256, .f32⟩
  | 72 => ⟨S50000x256, .f32⟩
  | 73 => ⟨S_, .f32⟩
  | 74 => ⟨S50000x256, .f32⟩
  | 75 => ⟨S50000x256, .f32⟩
  | 76 => ⟨S50000x256, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000, .f32⟩
  | 95 => ⟨S800000, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x256, .f32⟩
  | 105 => ⟨S800000x1, .f32⟩
  | 106 => ⟨S800000x256, .f32⟩
  | 107 => ⟨S800000x256, .f32⟩
  | 108 => ⟨S_, .f32⟩
  | 109 => ⟨S50000x256, .f32⟩
  | 110 => ⟨S800000x1, .i32⟩
  | 111 => ⟨S50000x256, .f32⟩
  | 112 => ⟨S50000, .f32⟩
  | 113 => ⟨S50000x1, .f32⟩
  | 114 => ⟨S50000x256, .f32⟩
  | 115 => ⟨S50000x256, .f32⟩
  | 116 => ⟨S50000x256, .f32⟩
  | 117 => ⟨S1x256, .f32⟩
  | 118 => ⟨S50000x256, .f32⟩
  | 119 => ⟨S50000x256, .f32⟩
  | 120 => ⟨S_, .f32⟩
  | 121 => ⟨S50000x256, .f32⟩
  | 122 => ⟨S50000x256, .f32⟩
  | 123 => ⟨S50000x256, .f32⟩
  | 124 => ⟨S_, .i32⟩
  | 125 => ⟨S800000, .i32⟩
  | 126 => ⟨S800000, .i1⟩
  | 127 => ⟨S_, .i32⟩
  | _ => ⟨S50000x128, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000, .f32⟩
  | 14 => ⟨S800000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x256, .f32⟩
  | 24 => ⟨S800000x1, .f32⟩
  | 25 => ⟨S800000x256, .f32⟩
  | 26 => ⟨S800000x256, .f32⟩
  | 27 => ⟨S_, .f32⟩
  | 28 => ⟨S50000x256, .f32⟩
  | 29 => ⟨S800000x1, .i32⟩
  | 30 => ⟨S50000x256, .f32⟩
  | 31 => ⟨S50000, .f32⟩
  | 32 => ⟨S50000x1, .f32⟩
  | 33 => ⟨S50000x256, .f32⟩
  | 34 => ⟨S50000x256, .f32⟩
  | 35 => ⟨S50000x256, .f32⟩
  | 36 => ⟨S1x256, .f32⟩
  | 37 => ⟨S50000x256, .f32⟩
  | 38 => ⟨S50000x256, .f32⟩
  | 39 => ⟨S_, .f32⟩
  | 40 => ⟨S50000x256, .f32⟩
  | 41 => ⟨S50000x256, .f32⟩
  | 42 => ⟨S_, .f32⟩
  | 43 => ⟨S50000, .f32⟩
  | 44 => ⟨S_, .f32⟩
  | 45 => ⟨S64, .f32⟩
  | 46 => ⟨S50000x1, .i32⟩
  | 47 => ⟨S64, .f32⟩
  | 48 => ⟨S_, .f32⟩
  | 49 => ⟨S64x256, .f32⟩
  | 50 => ⟨S50000x1, .i32⟩
  | 51 => ⟨S64x256, .f32⟩
  | 52 => ⟨S_, .f32⟩
  | 53 => ⟨S64, .f32⟩
  | 54 => ⟨S64, .f32⟩
  | 55 => ⟨S64x1, .f32⟩
  | 56 => ⟨S64x256, .f32⟩
  | 57 => ⟨S64x256, .f32⟩
  | 58 => ⟨S64x258, .f32⟩
  | 59 => ⟨S64x256, .f32⟩
  | 60 => ⟨S1x256, .f32⟩
  | 61 => ⟨S64x256, .f32⟩
  | 62 => ⟨S64x256, .f32⟩
  | 63 => ⟨S_, .f32⟩
  | 64 => ⟨S64x256, .f32⟩
  | 65 => ⟨S64x256, .f32⟩
  | 66 => ⟨S64x128, .f32⟩
  | 67 => ⟨S1x128, .f32⟩
  | 68 => ⟨S64x128, .f32⟩
  | 69 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call0_cst : Ref sig .tc := ⟨.hbm, 73, rfl⟩
abbrev main_call0_v0 : Ref sig .tc := ⟨.hbm, 74, rfl⟩
abbrev main_v48 : Ref sig .tc := ⟨.hbm, 75, rfl⟩
abbrev main_v49 : Ref sig .tc := ⟨.hbm, 76, rfl⟩
abbrev main_c_8 : Ref sig .tc := ⟨.hbm, 77, rfl⟩
abbrev main_v50 : Ref sig .tc := ⟨.hbm, 78, rfl⟩
abbrev main_v51 : Ref sig .tc := ⟨.hbm, 79, rfl⟩
abbrev main_c_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_10 : Ref sig .tc := ⟨.hbm, 86, rfl⟩
abbrev main_v57 : Ref sig .tc := ⟨.hbm, 87, rfl⟩
abbrev main_v58 : Ref sig .tc := ⟨.hbm, 88, rfl⟩
abbrev main_c_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_12 : Ref sig .tc := ⟨.hbm, 96, rfl⟩
abbrev main_v65 : Ref sig .tc := ⟨.hbm, 97, rfl⟩
abbrev main_v66 : Ref sig .tc := ⟨.hbm, 98, rfl⟩
abbrev main_c_13 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_14 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_call1_cst : Ref sig .tc := ⟨.hbm, 120, rfl⟩
abbrev main_call1_v0 : Ref sig .tc := ⟨.hbm, 121, rfl⟩
abbrev main_v86 : Ref sig .tc := ⟨.hbm, 122, rfl⟩
abbrev main_v87 : Ref sig .tc := ⟨.hbm, 123, rfl⟩
abbrev main_c_15 : Ref sig .tc := ⟨.hbm, 124, rfl⟩
abbrev main_v88 : Ref sig .tc := ⟨.hbm, 125, rfl⟩
abbrev main_v89 : Ref sig .tc := ⟨.hbm, 126, rfl⟩
abbrev main_c_16 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_c_17 : Ref sig .tc := ⟨.hbm, 133, rfl⟩
abbrev main_v95 : Ref sig .tc := ⟨.hbm, 134, rfl⟩
abbrev main_v96 : Ref sig .tc := ⟨.hbm, 135, rfl⟩
abbrev main_c_18 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_c_19 : Ref sig .tc := ⟨.hbm, 143, rfl⟩
abbrev main_v103 : Ref sig .tc := ⟨.hbm, 144, rfl⟩
abbrev main_v104 : Ref sig .tc := ⟨.hbm, 145, rfl⟩
abbrev main_c_20 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_21 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_call2_cst : Ref sig .tc := ⟨.hbm, 167, rfl⟩
abbrev main_call2_v0 : Ref sig .tc := ⟨.hbm, 168, rfl⟩
abbrev main_v124 : Ref sig .tc := ⟨.hbm, 169, rfl⟩
abbrev main_cst_22 : Ref sig .tc := ⟨.hbm, 170, rfl⟩
abbrev main_v125 : Ref sig .tc := ⟨.hbm, 171, rfl⟩
abbrev main_cst_23 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_24 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_cst_25 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_call3_cst : Ref sig .tc := ⟨.hbm, 191, rfl⟩
abbrev main_call3_v0 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64 : S_.BroadcastsInDim S64 (![] : Fin 0 → Fin S64.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  concatenates_S64x256_S64x1_S64x1_S64x258_d1 : Shape.Concatenates [S64x256, S64x1, S64x1] S64x258 1
  bcast_S1x256_S64x256_0_1 : S1x256.BroadcastsInDim S64x256 (![0, 1] : Fin 2 → Fin S64x256.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S64_S50000x1_S50000_n_0_0_1_wf : ScatterDims.WF S64 S50000x1 S50000 [] [0] [0] 1
  scatter_S64x256_S50000x1_S50000x256_1_0_0_1_wf : ScatterDims.WF S64x256 S50000x1 S50000x256 [1] [0] [0] 1
  dot_S64x258_S258x256_S64x256_1_0_0_1_n_n_wf : DotDims.WF S64x258 S258x256 S64x256 [1] [0] [0] [1] [] []
  dot_S64x256_S256x128_S64x128_1_0_0_1_n_n_wf : DotDims.WF S64x256 S256x128 S64x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def dot_S64x258_S258x256_S64x256_1_0_0_1_n_n : DotDims S64x258 S258x256 S64x256 where
  lhsContracting := [1]
  rhsContracting := [0]
  lhsNonContracting := [0]
  rhsNonContracting := [1]
  lhsBatch := []
  rhsBatch := []
  wf := dot_S64x258_S258x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf

class Facts : Prop extends Facts₀ where

variable [Facts]
-- ==== Proof.K.Reg0.lean ====
/- REGION 0 of @main, the projection `cc0__proj_kernel`: a row block of the left operand times the whole right operand.
   Stated at a parameter `V`, the TensorCore's buffer contents when the region is entered: each window's block at a
   point (`iblk0`), what the body leaves in the output window's staging buffer (`out0_2`: the product of the two
   input blocks, each narrowed to bf16, accumulated from zero in f32), the body's triple (`sound_kernel0`), the
   pipeline's proof data (`dat0`) and the body obligation at every point (`body_obligation0`). -/
import proofs.«131909_j56581899158174_1_alg».proof.Proof.Gen.Kernel.Launch
import proofs.«131909_j56581899158174_1_alg».proof.Proof.Gen.Kernel.Skeleton
import proofs.«131909_j56581899158174_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the structural recursion runs once per coordinate of the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the left operand's rows 2000·t … 2000·t+1999, fetched at every point): its current staging buffer
    holds its block at every point, for any proof data whose array is `V`'s (`hA`) and whose body leaves the block in
    place (`hafter`). The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole right operand, one block under a constant index map, fetched at point 0 only): its
    current staging buffer holds that block at every point — at a point where it is not fetched the block index has
    not moved, so the buffer still holds the previous point's block, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_0 : Rect S2000x128 := Rect.unit (s := S2000x128) ![0, 0] S2000x128.size inb_S2000x128_S2000x128_0_0
abbrev r0_1 : Rect S128x256 := Rect.unit (s := S128x256) ![0, 0] S128x256.size inb_S128x256_S128x256_0_0
abbrev r0_2 : Rect S2000x256 := Rect.unit (s := S2000x256) ![0, 0] S2000x256.size inb_S2000x256_S2000x256_0_0

/-! ## What the body leaves in the output window's buffer -/

/-- Window 2's staging buffer after the body, from the two input blocks: the one whole-buffer store, whose payload is
    the product of the loaded blocks (narrowed to bf16, accumulated from zero in f32). -/
def out0_2 (x0 : Vec F S2000x128 .f32) (x1 : Vec F S128x256 .f32) : Vec F S2000x256 .f32 :=
  View.canon [⟨r0_2, k0_pay1 (View.ld x0 r0_0) (View.ld x1 r0_1)⟩]

/-- The store is of the whole buffer, so it covers it. -/
theorem cover0_2 (p0 : Vec F S2000x256 .f32) (y : S2000x256.Idx) :
    ∃ pc ∈ ([⟨r0_2, p0⟩] : List (View.Piece (Elt F) S2000x256 .f32)), y ∈ pc.1.set :=
  View.cover_of_tiled [⟨r0_2, p0⟩] S2000x256.size (by rfl) y

/-! ## The body's triple -/

set_option maxHeartbeats 1000000 in
/-- The kernel body on whole staging memrefs, the inputs' at read contents `x0`, `x1` and the output's at anything, runs
    to the continuation holding the inputs' as they were and the output's at `out0_2 x0 x1`: it loads the two input
    buffers and the output buffer whole, then stores the product over the whole output buffer. -/
theorem sound_kernel0 (c : Dev nD) (E : Set ℕ) (i : grid0.Coords) (arg1 : Memref sig .tc .vmem S2000x128 .f32) (harg1 : arg1.IsWhole) (arg2 : Memref sig .tc .vmem S128x256 .f32) (harg2 : arg2.IsWhole) (arg3 : Memref sig .tc .vmem S2000x256 .f32) (harg3 : arg3.IsWhole)
    (x0 : Vec F S2000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen
-- ==== Proof.K.Reg1.lean ====
import proofs.«131909_j56581899158174_1_alg».proof.Proof.Gen.Kernel.Launch
import proofs.«131909_j56581899158174_1_alg».proof.Proof.Gen.Kernel.Skeleton
import proofs.«131909_j56581899158174_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the elementwise combine, as a pipeline of 25 points over row blocks

The region computes, on each block of 2000 rows, `max((a + h · d) + b, 0)` elementwise: `a` and `h` are
2000×256 blocks, `d` a 2000×1 column spread along the rows, `b` a 1×256 row spread down the columns. This file
is the region's half of the frame argument, stated at an arbitrary entry contents `V` of the core's buffers:
each window's block at a point, what the body leaves in the output window's staging buffer as a function of the
input blocks, the body's separation-logic triple, and the pipeline's proof data with its body obligation. -/

-- membership of an index in a rectangle of 2000 rows is decided by a structural recursion along the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the pipeline fetched it
    there (a point that does not fetch has the block index of the point before it), for any proof data whose array
    is the entry contents (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not the pipeline fetched it
    there (a point that does not fetch has the block index of the point before it), for any proof data whose array
    is the entry contents (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not the pipeline fetched it
    there (a point that does not fetch has the block index of the point before it), for any proof data whose array
    is the entry contents (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether or not the pipeline fetched it
    there (a point that does not fetch has the block index of the point before it), for any proof data whose array
    is the entry contents (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each memref is read, and the output written, as one whole block -/

abbrev r1_0 : Rect S2000x256 := Rect.unit (s := S2000x256) ![0, 0] S2000x256.size inb_S2000x256_S2000x256_0_0
abbrev r1_1 : Rect S2000x1 := Rect.unit (s := S2000x1) ![0, 0] S2000x1.size inb_S2000x1_S2000x1_0_0
abbrev r1_2 : Rect S1x256 := Rect.unit (s := S1x256) ![0, 0] S1x256.size inb_S1x256_S1x256_0_0

/-! ## What the body leaves in the output window's buffer -/

/-- Window 4's staging buffer after the body, from the input windows' blocks: the one whole-block store of the
    combine of the four loaded blocks. -/
def out1_4 (x0 : Vec F S2000x256 .f32) (x1 : Vec F S2000x256 .f32) (x2 : Vec F S2000x1 .f32) (x3 : Vec F S1x256 .f32) : Vec F S2000x256 .f32 :=
  View.canon [⟨r1_0, k1_pay1 (View.ld x0 r1_0) (View.ld x1 r1_0) (View.ld x2 r1_1) (View.ld x3 r1_2)⟩]

/-- The one store's rectangle is the whole buffer, so it covers every index. -/
theorem cover1_4 (p0 : Vec F S2000x256 .f32) (y : S2000x256.Idx) :
    ∃ pc ∈ ([⟨r1_0, p0⟩] : List (View.Piece (Elt F) S2000x256 .f32)), y ∈ pc.1.set :=
  View.cover_of_tiled [⟨r1_0, p0⟩] S2000x256.size (by rfl) y

/-! ## The body's triple -/

set_option maxHeartbeats 1000000 in
/-- The body on whole staging memrefs, the inputs' at contents `x0 … x3` and the output's at anything, runs to the
    continuation holding the inputs' as they were and the output's at `out1_4` of the inputs. -/
theorem sound_kernel1 (c : Dev nD) (E : Set ℕ) (i : grid1.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole)
    (x0 : Vec F S2000x256 .f32) (x1 : Vec F S2000x256 .f32) (x2 : Vec F S2000x1 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point
    `t` each input's buffer at its block and the output's at `out1_4` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.K.Reg2.lean ====
/- REGION 2 of @main, the projection `cc2__proj_kernel`: a row block of the left operand times the whole right operand.
   Stated at a parameter `V`, the TensorCore's buffer contents when the region is entered: each window's block at a
   point (`iblk2`), what the body leaves in the output window's staging buffer (`out2_2`: the product of the two
   input blocks, each narrowed to bf16, accumulated from zero in f32), the body's triple (`sound_kernel2`), the
   pipeline's proof data (`dat2`) and the body obligation at every point (`body_obligation2`). -/
import proofs.«131909_j56581899158174_1_alg».proof.Proof.Gen.Kernel.Launch
import proofs.«131909_j56581899158174_1_alg».proof.Proof.Gen.Kernel.Skeleton
import proofs.«131909_j56581899158174_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the structural recursion runs once per coordinate of the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the left operand's rows 2000·t … 2000·t+1999, fetched at every point): its current staging buffer
    holds its block at every point, for any proof data whose array is `V`'s (`hA`) and whose body leaves the block in
    place (`hafter`). The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole right operand, one block under a constant index map, fetched at point 0 only): its
    current staging buffer holds that block at every point — at a point where it is not fetched the block index has
    not moved, so the buffer still holds the previous point's block, which is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole -/

abbrev r2_0 : Rect S2000x256 := Rect.unit (s := S2000x256) ![0, 0] S2000x256.size inb_S2000x256_S2000x256_0_0
abbrev r2_1 : Rect S256x256 := Rect.unit (s := S256x256) ![0, 0] S256x256.size inb_S256x256_S256x256_0_0

/-! ## What the body leaves in the output window's buffer -/

/-- Window 2's staging buffer after the body, from the two input blocks: the one whole-buffer store, whose payload is
    the product of the loaded blocks (narrowed to bf16, accumulated from zero in f32). -/
def out2_2 (x0 : Vec F S2000x256 .f32) (x1 : Vec F S256x256 .f32) : Vec F S2000x256 .f32 :=
  View.canon [⟨r2_0, k2_pay1 (View.ld x0 r2_0) (View.ld x1 r2_1)⟩]

/-- The store is of the whole buffer, so it covers it. -/
theorem cover2_2 (p0 : Vec F S2000x256 .f32) (y : S2000x256.Idx) :
    ∃ pc ∈ ([⟨r2_0, p0⟩] : List (View.Piece (Elt F) S2000x256 .f32)), y ∈ pc.1.set :=
  View.cover_of_tiled [⟨r2_0, p0⟩] S2000x256.size (by rfl) y

/-! ## The body's triple -/

set_option maxHeartbeats 1000000 in
/-- The kernel body on whole staging memrefs, the inputs' at read contents `x0`, `x1` and the output's at anything, runs
    to the continuation holding the inputs' as they were and the output's at `out2_2 x0 x1`: it loads the two input
    buffers and the output buffer whole, then stores the product over the whole output buffer. -/
theorem sound_kernel2 (c : Dev nD) (E : Set ℕ) (i : grid2.Coords) (arg1 : Memref sig .tc .vmem S2000x256 .f32) (harg1 : arg1.IsWhole) (arg2 : Memref sig .tc .vmem S256x256 .f32) (harg2 : arg2.IsWhole) (arg3 : Memref sig .tc .vmem S2000x256 .f32) (harg3 : arg3.IsWhole)
    (x0 : Vec F S2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__proj_kernel i arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point `t`
    each input's buffer at its block and the output's at `out2_2` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_0`, `before2_1`), so `sound_kernel2`
    applies; the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Gen
-- ==== Proof.K.Reg3.lean ====
import proofs.«131909_j56581899158174_1_alg».proof.Proof.Gen.Kernel.Launch
import proofs.«131909_j56581899158174_1_alg».proof.Proof.Gen.Kernel.Skeleton
import proofs.«131909_j56581899158174_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the elementwise combine, as a pipeline of 25 points over row blocks

The region computes, on each block of 2000 rows, `max((a + h · d) + b, 0)` elementwise: `a` and `h` are
2000×256 blocks, `d` a 2000×1 column spread along the rows, `b` a 1×256 row spread down the columns. This file
is the region's half of the frame argument, stated at an arbitrary entry contents `V` of the core's buffers:
each window's block at a point, what the body leaves in the output window's staging buffer as a function of the
input blocks, the body's separation-logic triple, and the pipeline's proof data with its body obligation. -/

-- membership of an index in a rectangle of 2000 rows is decided by a structural recursion along the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not the pipeline fetched it
    there (a point that does not fetch has the block index of the point before it), for any proof data whose array
    is the entry contents (`hA`) and whose body leaves the block in place (`hafter`). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether or not the pipeline fetched it
    there (a point that does not fetch has the block index of the point before it), for any proof data whose array
    is the entry contents (`hA`) and whose body leaves the block in place (`hafter`). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, whether or not the pipeline fetched it
    there (a point that does not fetch has the block index of the point before it), for any proof data whose array
    is the entry contents (`hA`) and whose body leaves the block in place (`hafter`). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, whether or not the pipeline fetched it
    there (a point that does not fetch has the block index of the point before it), for any proof data whose array
    is the entry contents (`hA`) and whose body leaves the block in place (`hafter`). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each memref is read, and the output written, as one whole block -/

abbrev r3_0 : Rect S2000x256 := Rect.unit (s := S2000x256) ![0, 0] S2000x256.size inb_S2000x256_S2000x256_0_0
abbrev r3_1 : Rect S2000x1 := Rect.unit (s := S2000x1) ![0, 0] S2000x1.size inb_S2000x1_S2000x1_0_0
abbrev r3_2 : Rect S1x256 := Rect.unit (s := S1x256) ![0, 0] S1x256.size inb_S1x256_S1x256_0_0

/-! ## What the body leaves in the output window's buffer -/

/-- Window 4's staging buffer after the body, from the input windows' blocks: the one whole-block store of the
    combine of the four loaded blocks. -/
def out3_4 (x0 : Vec F S2000x256 .f32) (x1 : Vec F S2000x256 .f32) (x2 : Vec F S2000x1 .f32) (x3 : Vec F S1x256 .f32) : Vec F S2000x256 .f32 :=
  View.canon [⟨r3_0, k3_pay1 (View.ld x0 r3_0) (View.ld x1 r3_0) (View.ld x2 r3_1) (View.ld x3 r3_2)⟩]

/-- The one store's rectangle is the whole buffer, so it covers every index. -/
theorem cover3_4 (p0 : Vec F S2000x256 .f32) (y : S2000x256.Idx) :
    ∃ pc ∈ ([⟨r3_0, p0⟩] : List (View.Piece (Elt F) S2000x256 .f32)), y ∈ pc.1.set :=
  View.cover_of_tiled [⟨r3_0, p0⟩] S2000x256.size (by rfl) y

/-! ## The body's triple -/

set_option maxHeartbeats 1000000 in
/-- The body on whole staging memrefs, the inputs' at contents `x0 … x3` and the output's at anything, runs to the
    continuation holding the inputs' as they were and the output's at `out3_4` of the inputs. -/
theorem sound_kernel3 (c : Dev nD) (E : Set ℕ) (i : grid3.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole)
    (x0 : Vec F S2000x256 .f32) (x1 : Vec F S2000x256 .f32) (x2 : Vec F S2000x1 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core `c`: the arrays as the region finds them (`V`); after the body at point
    `t` each input's buffer at its block and the output's at `out3_4` of the input blocks; the invariant is the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and
    the core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.K.Reg4.lean ====
/- REGION 4 of @main, the projection `cc4__proj_kernel`: a row block of the left operand times the whole right operand.
   Stated at a parameter `V`, the TensorCore's buffer contents when the region is entered: each window's block at a
   point (`iblk4`), what the body leaves in the output window's staging buffer (`out4_2`: the product of the two
   input blocks, each narrowed to bf16, accumulated from zero in f32), the body's triple (`sound_kernel4`), the
   pipeline's proof data (`dat4`) and the body obligation at every point (`body_obligation4`). -/
import proofs.«131909_j56581899158174_1_alg».proof.Proof.Gen.Kernel.Launch
import proofs.«131909_j56581899158174_1_alg».proof.Proof.Gen.Kernel.Skeleton
import proofs.«131909_j56581899158174_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the structural recursion runs once per coordinate of the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the left operand's rows 2000·t … 2000·t+1999, fetched at every point): its current staging buffer
    holds its block at every point, for any proof data whose array is `V`'s (`hA`) and whose body leaves the block in
    place (`hafter`). The window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the whole right operand, one block under a constant index map, fetched at point 0 only): its
    current staging buffer holds that block at every point — at a point where it is not fetched the block index has
    not moved, so the buffer still holds the previous point's block, which is this point's. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each staging buffer whole -/

abbrev r4_0 : Rect S2000x256 := Rect.unit (s := S2000x256) ![0, 0] S2000x256.size inb_S2000x256_S2000x256_0_0
abbrev r4_1 : Rect S256x256 := Rect.unit (s := S256x256) ![0, 0] S256x256.size inb_S256x256_S256x256_0_0

/-! ## What the body leaves in the output window's buffer -/

/-- Window 2's staging buffer after the body, from the two input blocks: the one whole-buffer store, whose payload is
    the product of the loaded blocks (narrowed to bf16, accumulated from zero in f32). -/
def out4_2 (x0 : Vec F S2000x256 .f32) (x1 : Vec F S256x256 .f32) : Vec F S2000x256 .f32 :=
  View.canon [⟨r4_0, k4_pay1 (View.ld x0 r4_0) (View.ld x1 r4_1)⟩]

/-- The store is of the whole buffer, so it covers it. -/
theorem cover4_2 (p0 : Vec F S2000x256 .f32) (y : S2000x256.Idx) :
    ∃ pc ∈ ([⟨r4_0, p0⟩] : List (View.Piece (Elt F) S2000x256 .f32)), y ∈ pc.1.set :=
  View.cover_of_tiled [⟨r4_0, p0⟩] S2000x256.size (by rfl) y

/-! ## The body's triple -/

set_option maxHeartbeats 1000000 in
/-- The kernel body on whole staging memrefs, the inputs' at read contents `x0`, `x1` and the output's at anything, runs
    to the continuation holding the inputs' as they were and the output's at `out4_2 x0 x1`: it loads the two input
    buffers and the output buffer whole, then stores the product over the whole output buffer. -/
theorem sound_kernel4 (c : Dev nD) (E : Set ℕ) (i : grid4.Coords) (arg1 : Memref sig .tc .vmem S2000x256 .f32) (harg1 : arg1.IsWhole) (arg2 : Memref sig .tc .vmem S256x256 .f32) (harg2 : arg2.IsWhole) (arg3 : Memref sig .tc .vmem S2000x256 .f32) (harg3 : arg3.IsWhole)
    (x0 : Vec F S2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__proj_kernel i arg1 harg1 arg2 harg2 arg3 harg3) K := by
  simp only [cc4__proj_kernel_eq_skeleton]; unfold cc4__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at point `t`
    each input's buffer at its block and the output's at `out4_2` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks (`before4_0`, `before4_1`), so `sound_kernel4`
    applies; the invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Gen
-- ==== Proof.K.Reg5.lean ====
import proofs.«131909_j56581899158174_1_alg».proof.Proof.Gen.Kernel.Launch
import proofs.«131909_j56581899158174_1_alg».proof.Proof.Gen.Kernel.Skeleton
import proofs.«131909_j56581899158174_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5: the elementwise combine, as a pipeline of 25 points over row blocks

The region computes, on each block of 2000 rows, `max((a + h · d) + b, 0)` elementwise: `a` and `h` are
2000×256 blocks, `d` a 2000×1 column spread along the rows, `b` a 1×256 row spread down the columns. This file
is the region's half of the frame argument, stated at an arbitrary entry contents `V` of the core's buffers:
each window's block at a point, what the body leaves in the output window's staging buffer as a function of the
input blocks, the body's separation-logic triple, and the pipeline's proof data with its body obligation. -/

-- membership of an index in a rectangle of 2000 rows is decided by a structural recursion along the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether or not the pipeline fetched it
    there (a point that does not fetch has the block index of the point before it), for any proof data whose array
    is the entry contents (`hA`) and whose body leaves the block in place (`hafter`). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, whether or not the pipeline fetched it
    there (a point that does not fetch has the block index of the point before it), for any proof data whose array
    is the entry contents (`hA`) and whose body leaves the block in place (`hafter`). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, whether or not the pipeline fetched it
    there (a point that does not fetch has the block index of the point before it), for any proof data whose array
    is the entry contents (`hA`) and whose body leaves the block in place (`hafter`). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, whether or not the pipeline fetched it
    there (a point that does not fetch has the block index of the point before it), for any proof data whose array
    is the entry contents (`hA`) and whose body leaves the block in place (`hafter`). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each memref is read, and the output written, as one whole block -/

abbrev r5_0 : Rect S2000x256 := Rect.unit (s := S2000x256) ![0, 0] S2000x256.size inb_S2000x256_S2000x256_0_0
abbrev r5_1 : Rect S2000x1 := Rect.unit (s := S2000x1) ![0, 0] S2000x1.size inb_S2000x1_S2000x1_0_0
abbrev r5_2 : Rect S1x256 := Rect.unit (s := S1x256) ![0, 0] S1x256.size inb_S1x256_S1x256_0_0

/-! ## What the body leaves in the output window's buffer -/

/-- Window 4's staging buffer after the body, from the input windows' blocks: the one whole-block store of the
    combine of the four loaded blocks. -/
def out5_4 (x0 : Vec F S2000x256 .f32) (x1 : Vec F S2000x256 .f32) (x2 : Vec F S2000x1 .f32) (x3 : Vec F S1x256 .f32) : Vec F S2000x256 .f32 :=
  View.canon [⟨r5_0, k5_pay1 (View.ld x0 r5_0) (View.ld x1 r5_0) (View.ld x2 r5_1) (View.ld x3 r5_2)⟩]

/-- The one store's rectangle is the whole buffer, so it covers every index. -/
theorem cover5_4 (p0 : Vec F S2000x256 .f32) (y : S2000x256.Idx) :
    ∃ pc ∈ ([⟨r5_0, p0⟩] : List (View.Piece (Elt F) S2000x256 .f32)), y ∈ pc.1.set :=
  View.cover_of_tiled [⟨r5_0, p0⟩] S2000x256.size (by rfl) y

/-! ## The body's triple -/

set_option maxHeartbeats 1000000 in
/-- The body on whole staging memrefs, the inputs' at contents `x0 … x3` and the output's at anything, runs to the
    continuation holding the inputs' as they were and the output's at `out5_4` of the inputs. -/
theorem sound_kernel5 (c : Dev nD) (E : Set ℕ) (i : grid5.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole)
    (x0 : Vec F S2000x256 .f32) (x1 : Vec F S2000x256 .f32) (x2 : Vec F S2000x1 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__combine_kernel i arg1 harg1 arg2 harg2 arg3 harg3 arg4 harg4 arg5 harg5) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The proof data of pipeline 5 on core `c`: the arrays as the region finds them (`V`); after the body at point
    `t` each input's buffer at its block and the output's at `out5_4` of the input blocks; the invariant is the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks, so the body's triple applies; the invariant and
    the core's obligations pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Gen

end
-- ==== Proof.K.Reg6.lean ====
/- The body half of the frame proof of REGION 6 (the two-layer fully connected head, one grid point, six
   windows), stated at a PARAMETER `V` — the TensorCore's buffer contents when the region is entered: each window's
   block at the point, what the body leaves in the output window's staging buffer (the one whole-block store of the
   payload of the five whole-block loads), the body's triple, the pipeline's proof data and the body obligation. -/
import proofs.«131909_j56581899158174_1_alg».proof.Proof.Gen.Kernel.Launch
import proofs.«131909_j56581899158174_1_alg».proof.Proof.Gen.Kernel.Skeleton
import proofs.«131909_j56581899158174_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents: the structural recursion runs once per coordinate of the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
-- the TensorCore's buffer contents when the region is entered: the parameter the region's half is stated at
variable (V : (c : Dev nD) → (b : Ref sig .tc) → Buf (Elt F) ((c : Thread nD τ).loc b))

/-! # REGION 6: the fully connected head `cc6__fc_kernel` (pipeline 6), at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, for ANY proof data whose array is
    `V`'s (`hA`) and whose body leaves the block in place (`hafter`); the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, for ANY proof data whose array is
    `V`'s (`hA`) and whose body leaves the block in place (`hafter`); the window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, for ANY proof data whose array is
    `V`'s (`hA`) and whose body leaves the block in place (`hafter`); the window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, for ANY proof data whose array is
    `V`'s (`hA`) and whose body leaves the block in place (`hafter`); the window is uncut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's current staging buffer holds its block at every point, for ANY proof data whose array is
    `V`'s (`hA`) and whose body leaves the block in place (`hafter`); the window is uncut and never idle. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each window's buffer whole -/

abbrev r6_0 : Rect S64x258 := Rect.unit (s := S64x258) ![0, 0] S64x258.size inb_S64x258_S64x258_0_0
abbrev r6_1 : Rect S258x256 := Rect.unit (s := S258x256) ![0, 0] S258x256.size inb_S258x256_S258x256_0_0
abbrev r6_2 : Rect S1x256 := Rect.unit (s := S1x256) ![0, 0] S1x256.size inb_S1x256_S1x256_0_0
abbrev r6_3 : Rect S256x128 := Rect.unit (s := S256x128) ![0, 0] S256x128.size inb_S256x128_S256x128_0_0
abbrev r6_4 : Rect S1x128 := Rect.unit (s := S1x128) ![0, 0] S1x128.size inb_S1x128_S1x128_0_0
abbrev r6_5 : Rect S64x128 := Rect.unit (s := S64x128) ![0, 0] S64x128.size inb_S64x128_S64x128_0_0

/-! ## What the body leaves in the output window's buffer -/

/-- Window 5's staging buffer after the body, from the input windows' blocks: its one store as a piece — the whole
    buffer at the payload of the five whole-buffer loads. -/
def out6_5 (x0 : Vec F S64x258 .f32) (x1 : Vec F S258x256 .f32) (x2 : Vec F S1x256 .f32) (x3 : Vec F S256x128 .f32) (x4 : Vec F S1x128 .f32) : Vec F S64x128 .f32 :=
  View.canon [⟨r6_5, k6_pay1 (View.ld x0 r6_0) (View.ld x1 r6_1) (View.ld x2 r6_2) (View.ld x3 r6_3) (View.ld x4 r6_4)⟩]

/-- The store's rectangle is the whole buffer (checked by evaluation), so it covers it. -/
theorem cover6_5 (p0 : Vec F S64x128 .f32) (y : S64x128.Idx) :
    ∃ pc ∈ ([⟨r6_5, p0⟩] : List (View.Piece (Elt F) S64x128 .f32)), y ∈ pc.1.set :=
  View.cover_of_tiled [⟨r6_5, p0⟩] S64x128.size (by rfl) y

/-! ## The body's triple -/

set_option maxHeartbeats 1000000 in
/-- The kernel body on whole staging memrefs, the inputs' at read contents `xW` and the output's at anything, runs to
    the continuation holding the inputs' as they were and the output's at `out6_5` of the inputs'. -/
theorem sound_kernel6 (c : Dev nD) (E : Set ℕ) (i : grid6.Coords) (arg1 : Memref sig .tc .vmem S64x258 .f32) (harg1 : arg1.IsWhole) (arg2 : Memref sig .tc .vmem S258x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S64x128 .f32) (harg6 : arg6.IsWhole)
    (x0 : Vec F S64x258 .f32) (x1 : Vec F S258x256 .f32) (x2 : Vec F S1x256 .f32) (x3 : Vec F S256x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__fc_kernel i arg1 harg1 arg2 harg2 arg3 harg3 arg4 harg4 arg5 harg5 arg6 harg6) K := by
  simp only [cc6__fc_kernel_eq_skeleton]; unfold cc6__fc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them (`V`); after the body at the
    point each input's buffer at its block and the output's at `out6_5` of the input blocks; the scoped rest and
    the generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents (the proof data's definition projected). -/
theorem A_eq6 (c : Dev nD) (w : Fin cfg6.W) : (dat6 V c).A w = V c (Pipeline.arrRef spec6 w) := by
  dsimp only [dat6]

/-- What the body leaves, window by window (the proof data's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Region6

end Cert.Kernel.Gen

end
-- ==== Proof.K.Run.lean ====
/-
  The run of the program's @main as twelve segments — five stretches of host operations and seven kernel regions —
  over the thread state "every unscoped buffer of the core at the boundary's contents, the generator register at some
  state, nothing owed".  The contents at each boundary are a fold from the launch memory: a host stretch applies its
  operations; a region leaves each of its arrays at what its pipeline's write-backs leave (an input array as entered,
  the output array at the fold of the blocks written back) and every other buffer as entered.  From the run: every
  final memory holds each unscoped buffer at the last boundary's contents; read at the arguments that is the frame
  (no host operation and no region writes an argument), read at the result it is the last region's output array.
-/
import proofs.«131909_j56581899158174_1_alg».proof.Proof.Gen.Kernel.Launch
import proofs.«131909_j56581899158174_1_alg».proof.Proof.Gen.Kernel.Skeleton
import proofs.«131909_j56581899158174_1_alg».proof.Proof.Gen.Kernel.Points
import proofs.«131909_j56581899158174_1_alg».proof.Proof.K.Reg0
import proofs.«131909_j56581899158174_1_alg».proof.Proof.K.Reg1
import proofs.«131909_j56581899158174_1_alg».proof.Proof.K.Reg2
import proofs.«131909_j56581899158174_1_alg».proof.Proof.K.Reg3
import proofs.«131909_j56581899158174_1_alg».proof.Proof.K.Reg4
import proofs.«131909_j56581899158174_1_alg».proof.Proof.K.Reg5
import proofs.«131909_j56581899158174_1_alg».proof.Proof.K.Reg6
import proofs.«131909_j56581899158174_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- A reference the stretch does not write keeps its contents. -/
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h

/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- An input window's array leaves the region as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hin _).trans (A_eq0 (U1 m ρ) c w))

/-- After the host stretch `hostOps1`. -/
abbrev W3 : Dev nD → Valuation τ sig (Elt F) := fun c => StableHlo.after hostOps1 (W2 m ρ c)
/-- The same read at the TensorCore's references. -/
abbrev U3 : (c : Dev nD) → (b : Ref sig .tc) → Buf (Elt F) ((c : Thread nD τ).loc b) := fun c b => W3 m ρ c b
/-- A reference the stretch does not write keeps its contents. -/
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h

/-- At region 1's exit: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
/-- An input window's array leaves the region as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (U3 m ρ) c).arrAt_in w hin _).trans (A_eq1 (U3 m ρ) c w))

/-- At region 2's exit: its arrays at what the pipeline leaves, every other buffer as entered. -/
def W5 (c : Dev nD) : Valuation τ sig (Elt F) :=
  Pipeline.withArrays spec2 c (W4 m ρ c) fun w => (dat2 (U4 m ρ) c).arrAt w cfg2.N
theorem W5_arr (c : Dev nD) (w : Fin cfg2.W) :
    W5 m ρ c (Proc.devRef .tc (Pipeline.arrRef spec2 w)) = (dat2 (U4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev U5 : (c : Dev nD) → (b : Ref sig .tc) → Buf (Elt F) ((c : Thread nD τ).loc b) := fun c b => W5 m ρ c b
theorem hF2 (c : Dev nD) (w : Fin cfg2.W) : (dat2 (U4 m ρ) c).arrAt w cfg2.N = U5 m ρ c (Pipeline.arrRef spec2 w) :=
  (W5_arr m ρ c w).symm
theorem hrest2 (c : Dev nD) : ∀ b, b ∉ Finset.univ.image (Pipeline.arrRef spec2) → U5 m ρ c b = U4 m ρ c b :=
  fun b hb => W5_of_ne m ρ c b fun w e => hb (Finset.mem_image.mpr ⟨w, Finset.mem_univ _, e⟩)
/-- An input window's array leaves the region as it entered. -/
theorem W5_in (c : Dev nD) (w : Fin cfg2.W) (hin : (cfg2.win w).isOut = false) :
    W5 m ρ c (Proc.devRef .tc (Pipeline.arrRef spec2 w)) = W4 m ρ c (Proc.devRef .tc (Pipeline.arrRef spec2 w)) :=
  (W5_arr m ρ c w).trans (((dat2 (U4 m ρ) c).arrAt_in w hin _).trans (A_eq2 (U4 m ρ) c w))

/-- After the host stretch `hostOps3`. -/
abbrev W6 : Dev nD → Valuation τ sig (Elt F) := fun c => StableHlo.after hostOps3 (W5 m ρ c)
/-- The same read at the TensorCore's references. -/
abbrev U6 : (c : Dev nD) → (b : Ref sig .tc) → Buf (Elt F) ((c : Thread nD τ).loc b) := fun c b => W6 m ρ c b
/-- A reference the stretch does not write keeps its contents. -/
theorem W6_keep (c : Dev nD) (r : Ref sig .tc) (h : r ∉ hostOps3_W) : W6 m ρ c (Proc.devRef .tc r) = W5 m ρ c (Proc.devRef .tc r) :=
  StableHlo.after_of_writes_sub hostOps3 _ hostOps3_writes h

/-- At region 3's exit: its arrays at what the pipeline leaves, every other buffer as entered. -/
def W7 (c : Dev nD) : Valuation τ sig (Elt F) :=
  Pipeline.withArrays spec3 c (W6 m ρ c) fun w => (dat3 (U6 m ρ) c).arrAt w cfg3.N
theorem W7_arr (c : Dev nD) (w : Fin cfg3.W) :
    W7 m ρ c (Proc.devRef .tc (Pipeline.arrRef spec3 w)) = (dat3 (U6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev U7 : (c : Dev nD) → (b : Ref sig .tc) → Buf (Elt F) ((c : Thread nD τ).loc b) := fun c b => W7 m ρ c b
theorem hF3 (c : Dev nD) (w : Fin cfg3.W) : (dat3 (U6 m ρ) c).arrAt w cfg3.N = U7 m ρ c (Pipeline.arrRef spec3 w) :=
  (W7_arr m ρ c w).symm
theorem hrest3 (c : Dev nD) : ∀ b, b ∉ Finset.univ.image (Pipeline.arrRef spec3) → U7 m ρ c b = U6 m ρ c b :=
  fun b hb => W7_of_ne m ρ c b fun w e => hb (Finset.mem_image.mpr ⟨w, Finset.mem_univ _, e⟩)
/-- An input window's array leaves the region as it entered. -/
theorem W7_in (c : Dev nD) (w : Fin cfg3.W) (hin : (cfg3.win w).isOut = false) :
    W7 m ρ c (Proc.devRef .tc (Pipeline.arrRef spec3 w)) = W6 m ρ c (Proc.devRef .tc (Pipeline.arrRef spec3 w)) :=
  (W7_arr m ρ c w).trans (((dat3 (U6 m ρ) c).arrAt_in w hin _).trans (A_eq3 (U6 m ρ) c w))

/-- At region 4's exit: its arrays at what the pipeline leaves, every other buffer as entered. -/
def W8 (c : Dev nD) : Valuation τ sig (Elt F) :=
  Pipeline.withArrays spec4 c (W7 m ρ c) fun w => (dat4 (U7 m ρ) c).arrAt w cfg4.N
theorem W8_arr (c : Dev nD) (w : Fin cfg4.W) :
    W8 m ρ c (Proc.devRef .tc (Pipeline.arrRef spec4 w)) = (dat4 (U7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- The same read at the TensorCore's references. -/
abbrev U8 : (c : Dev nD) → (b : Ref sig .tc) → Buf (Elt F) ((c : Thread nD τ).loc b) := fun c b => W8 m ρ c b
theorem hF4 (c : Dev nD) (w : Fin cfg4.W) : (dat4 (U7 m ρ) c).arrAt w cfg4.N = U8 m ρ c (Pipeline.arrRef spec4 w) :=
  (W8_arr m ρ c w).symm
theorem hrest4 (c : Dev nD) : ∀ b, b ∉ Finset.univ.image (Pipeline.arrRef spec4) → U8 m ρ c b = U7 m ρ c b :=
  fun b hb => W8_of_ne m ρ c b fun w e => hb (Finset.mem_image.mpr ⟨w, Finset.mem_univ _, e⟩)
/-- An input window's array leaves the region as it entered. -/
theorem W8_in (c : Dev nD) (w : Fin cfg4.W) (hin : (cfg4.win w).isOut = false) :
    W8 m ρ c (Proc.devRef .tc (Pipeline.arrRef spec4 w)) = W7 m ρ c (Proc.devRef .tc (Pipeline.arrRef spec4 w)) :=
  (W8_arr m ρ c w).trans (((dat4 (U7 m ρ) c).arrAt_in w hin _).trans (A_eq4 (U7 m ρ) c w))

/-- After the host stretch `hostOps5`. -/
abbrev W9 : Dev nD → Valuation τ sig (Elt F) := fun c => StableHlo.after hostOps5 (W8 m ρ c)
/-- The same read at the TensorCore's references. -/
abbrev U9 : (c : Dev nD) → (b : Ref sig .tc) → Buf (Elt F) ((c : Thread nD τ).loc b) := fun c b => W9 m ρ c b
/-- A reference the stretch does not write keeps its contents. -/
theorem W9_keep (c : Dev nD) (r : Ref sig .tc) (h : r ∉ hostOps5_W) : W9 m ρ c (Proc.devRef .tc r) = W8 m ρ c (Proc.devRef .tc r) :=
  StableHlo.after_of_writes_sub hostOps5 _ hostOps5_writes h

/-- At region 5's exit: its arrays at what the pipeline leaves, every other buffer as entered. -/
def W10 (c : Dev nD) : Valuation τ sig (Elt F) :=
  Pipeline.withArrays spec5 c (W9 m ρ c) fun w => (dat5 (U9 m ρ) c).arrAt w cfg5.N
theorem W10_arr (c : Dev nD) (w : Fin cfg5.W) :
    W10 m ρ c (Proc.devRef .tc (Pipeline.arrRef spec5 w)) = (dat5 (U9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
/-- The same read at the TensorCore's references. -/
abbrev U10 : (c : Dev nD) → (b : Ref sig .tc) → Buf (Elt F) ((c : Thread nD τ).loc b) := fun c b => W10 m ρ c b
theorem hF5 (c : Dev nD) (w : Fin cfg5.W) : (dat5 (U9 m ρ) c).arrAt w cfg5.N = U10 m ρ c (Pipeline.arrRef spec5 w) :=
  (W10_arr m ρ c w).symm
theorem hrest5 (c : Dev nD) : ∀ b, b ∉ Finset.univ.image (Pipeline.arrRef spec5) → U10 m ρ c b = U9 m ρ c b :=
  fun b hb => W10_of_ne m ρ c b fun w e => hb (Finset.mem_image.mpr ⟨w, Finset.mem_univ _, e⟩)
/-- An input window's array leaves the region as it entered. -/
theorem W10_in (c : Dev nD) (w : Fin cfg5.W) (hin : (cfg5.win w).isOut = false) :
    W10 m ρ c (Proc.devRef .tc (Pipeline.arrRef spec5 w)) = W9 m ρ c (Proc.devRef .tc (Pipeline.arrRef spec5 w)) :=
  (W10_arr m ρ c w).trans (((dat5 (U9 m ρ) c).arrAt_in w hin _).trans (A_eq5 (U9 m ρ) c w))

/-- After the host stretch `hostOps6`. -/
abbrev W11 : Dev nD → Valuation τ sig (Elt F) := fun c => StableHlo.after hostOps6 (W10 m ρ c)
/-- The same read at the TensorCore's references. -/
abbrev U11 : (c : Dev nD) → (b : Ref sig .tc) → Buf (Elt F) ((c : Thread nD τ).loc b) := fun c b => W11 m ρ c b
/-- A reference the stretch does not write keeps its contents. -/
theorem W11_keep (c : Dev nD) (r : Ref sig .tc) (h : r ∉ hostOps6_W) : W11 m ρ c (Proc.devRef .tc r) = W10 m ρ c (Proc.devRef .tc r) :=
  StableHlo.after_of_writes_sub hostOps6 _ hostOps6_writes h

/-- At region 6's exit: its arrays at what the pipeline leaves, every other buffer as entered. -/
def W12 (c : Dev nD) : Valuation τ sig (Elt F) :=
  Pipeline.withArrays spec6 c (W11 m ρ c) fun w => (dat6 (U11 m ρ) c).arrAt w cfg6.N
theorem W12_arr (c : Dev nD) (w : Fin cfg6.W) :
    W12 m ρ c (Proc.devRef .tc (Pipeline.arrRef spec6 w)) = (dat6 (U11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
/-- The same read at the TensorCore's references. -/
abbrev U12 : (c : Dev nD) → (b : Ref sig .tc) → Buf (Elt F) ((c : Thread nD τ).loc b) := fun c b => W12 m ρ c b
theorem hF6 (c : Dev nD) (w : Fin cfg6.W) : (dat6 (U11 m ρ) c).arrAt w cfg6.N = U12 m ρ c (Pipeline.arrRef spec6 w) :=
  (W12_arr m ρ c w).symm
theorem hrest6 (c : Dev nD) : ∀ b, b ∉ Finset.univ.image (Pipeline.arrRef spec6) → U12 m ρ c b = U11 m ρ c b :=
  fun b hb => W12_of_ne m ρ c b fun w e => hb (Finset.mem_image.mpr ⟨w, Finset.mem_univ _, e⟩)
/-- An input window's array leaves the region as it entered. -/
theorem W12_in (c : Dev nD) (w : Fin cfg6.W) (hin : (cfg6.win w).isOut = false) :
    W12 m ρ c (Proc.devRef .tc (Pipeline.arrRef spec6 w)) = W11 m ρ c (Proc.devRef .tc (Pipeline.arrRef spec6 w)) :=
  (W12_arr m ρ c w).trans (((dat6 (U11 m ρ) c).arrAt_in w hin _).trans (A_eq6 (U11 m ρ) c w))

/-! ## The arguments end as launched: no host stretch writes one, and a region either stages it through an input window or
    does not touch it -/

theorem W12_main_arg0 (c : Dev nD) : W12 m ρ c (Proc.devRef .tc main_arg0) = m ((c : Thread nD τ).loc main_arg0) :=
  (W12_of_ne m ρ c main_arg0 (by decide)).trans <|
  (W11_keep m ρ c main_arg0 (by decide)).trans <|
  (W10_of_ne m ρ c main_arg0 (by decide)).trans <|
  (W9_keep m ρ c main_arg0 (by decide)).trans <|
  (W8_of_ne m ρ c main_arg0 (by decide)).trans <|
  (W7_of_ne m ρ c main_arg0 (by decide)).trans <|
  (W6_keep m ρ c main_arg0 (by decide)).trans <|
  (W5_of_ne m ρ c main_arg0 (by decide)).trans <|
  (W4_of_ne m ρ c main_arg0 (by decide)).trans <|
  (W3_keep m ρ c main_arg0 (by decide)).trans <|
  (W2_in m ρ c 0 rfl).trans <|
  (W1_keep m ρ c main_arg0 (by decide)).trans rfl
theorem W12_main_arg1 (c : Dev nD) : W12 m ρ c (Proc.devRef .tc main_arg1) = m ((c : Thread nD τ).loc main_arg1) :=
  (W12_of_ne m ρ c main_arg1 (by decide)).trans <|
  (W11_keep m ρ c main_arg1 (by decide)).trans <|
  (W10_of_ne m ρ c main_arg1 (by decide)).trans <|
  (W9_keep m ρ c main_arg1 (by decide)).trans <|
  (W8_of_ne m ρ c main_arg1 (by decide)).trans <|
  (W7_of_ne m ρ c main_arg1 (by decide)).trans <|
  (W6_keep m ρ c main_arg1 (by decide)).trans <|
  (W5_of_ne m ρ c main_arg1 (by decide)).trans <|
  (W4_of_ne m ρ c main_arg1 (by decide)).trans <|
  (W3_keep m ρ c main_arg1 (by decide)).trans <|
  (W2_of_ne m ρ c main_arg1 (by decide)).trans <|
  (W1_keep m ρ c main_arg1 (by decide)).trans rfl
theorem W12_main_arg2 (c : Dev nD) : W12 m ρ c (Proc.devRef .tc main_arg2) = m ((c : Thread nD τ).loc main_arg2) :=
  (W12_of_ne m ρ c main_arg2 (by decide)).trans <|
  (W11_keep m ρ c main_arg2 (by decide)).trans <|
  (W10_of_ne m ρ c main_arg2 (by decide)).trans <|
  (W9_keep m ρ c main_arg2 (by decide)).trans <|
  (W8_of_ne m ρ c main_arg2 (by decide)).trans <|
  (W7_of_ne m ρ c main_arg2 (by decide)).trans <|
  (W6_keep m ρ c main_arg2 (by decide)).trans <|
  (W5_of_ne m ρ c main_arg2 (by decide)).trans <|
  (W4_of_ne m ρ c main_arg2 (by decide)).trans <|
  (W3_keep m ρ c main_arg2 (by decide)).trans <|
  (W2_of_ne m ρ c main_arg2 (by decide)).trans <|
  (W1_keep m ρ c main_arg2 (by decide)).trans rfl
theorem W12_main_arg3 (c : Dev nD) : W12 m ρ c (Proc.devRef .tc main_arg3) = m ((c : Thread nD τ).loc main_arg3) :=
  (W12_of_ne m ρ c main_arg3 (by decide)).trans <|
  (W11_keep m ρ c main_arg3 (by decide)).trans <|
  (W10_of_ne m ρ c main_arg3 (by decide)).trans <|
  (W9_keep m ρ c main_arg3 (by decide)).trans <|
  (W8_of_ne m ρ c main_arg3 (by decide)).trans <|
  (W7_of_ne m ρ c main_arg3 (by decide)).trans <|
  (W6_keep m ρ c main_arg3 (by decide)).trans <|
  (W5_of_ne m ρ c main_arg3 (by decide)).trans <|
  (W4_of_ne m ρ c main_arg3 (by decide)).trans <|
  (W3_keep m ρ c main_arg3 (by decide)).trans <|
  (W2_of_ne m ρ c main_arg3 (by decide)).trans <|
  (W1_keep m ρ c main_arg3 (by decide)).trans rfl
theorem W12_main_arg4 (c : Dev nD) : W12 m ρ c (Proc.devRef .tc main_arg4) = m ((c : Thread nD τ).loc main_arg4) :=
  (W12_of_ne m ρ c main_arg4 (by decide)).trans <|
  (W11_keep m ρ c main_arg4 (by decide)).trans <|
  (W10_of_ne m ρ c main_arg4 (by decide)).trans <|
  (W9_keep m ρ c main_arg4 (by decide)).trans <|
  (W8_of_ne m ρ c main_arg4 (by decide)).trans <|
  (W7_of_ne m ρ c main_arg4 (by decide)).trans <|
  (W6_keep m ρ c main_arg4 (by decide)).trans <|
  (W5_of_ne m ρ c main_arg4 (by decide)).trans <|
  (W4_of_ne m ρ c main_arg4 (by decide)).trans <|
  (W3_keep m ρ c main_arg4 (by decide)).trans <|
  (W2_of_ne m ρ c main_arg4 (by decide)).trans <|
  (W1_keep m ρ c main_arg4 (by decide)).trans rfl
theorem W12_main_arg5 (c : Dev nD) : W12 m ρ c (Proc.devRef .tc main_arg5) = m ((c : Thread nD τ).loc main_arg5) :=
  (W12_of_ne m ρ c main_arg5 (by decide)).trans <|
  (W11_keep m ρ c main_arg5 (by decide)).trans <|
  (W10_of_ne m ρ c main_arg5 (by decide)).trans <|
  (W9_keep m ρ c main_arg5 (by decide)).trans <|
  (W8_of_ne m ρ c main_arg5 (by decide)).trans <|
  (W7_of_ne m ρ c main_arg5 (by decide)).trans <|
  (W6_keep m ρ c main_arg5 (by decide)).trans <|
  (W5_of_ne m ρ c main_arg5 (by decide)).trans <|
  (W4_of_ne m ρ c main_arg5 (by decide)).trans <|
  (W3_keep m ρ c main_arg5 (by decide)).trans <|
  (W2_in m ρ c 1 rfl).trans <|
  (W1_keep m ρ c main_arg5 (by decide)).trans rfl
theorem W12_main_arg6 (c : Dev nD) : W12 m ρ c (Proc.devRef .tc main_arg6) = m ((c : Thread nD τ).loc main_arg6) :=
  (W12_of_ne m ρ c main_arg6 (by decide)).trans <|
  (W11_keep m ρ c main_arg6 (by decide)).trans <|
  (W10_of_ne m ρ c main_arg6 (by decide)).trans <|
  (W9_keep m ρ c main_arg6 (by decide)).trans <|
  (W8_of_ne m ρ c main_arg6 (by decide)).trans <|
  (W7_of_ne m ρ c main_arg6 (by decide)).trans <|
  (W6_keep m ρ c main_arg6 (by decide)).trans <|
  (W5_of_ne m ρ c main_arg6 (by decide)).trans <|
  (W4_of_ne m ρ c main_arg6 (by decide)).trans <|
  (W3_keep m ρ c main_arg6 (by decide)).trans <|
  (W2_of_ne m ρ c main_arg6 (by decide)).trans <|
  (W1_keep m ρ c main_arg6 (by decide)).trans rfl
theorem W12_main_arg7 (c : Dev nD) : W12 m ρ c (Proc.devRef .tc main_arg7) = m ((c : Thread nD τ).loc main_arg7) :=
  (W12_of_ne m ρ c main_arg7 (by decide)).trans <|
  (W11_keep m ρ c main_arg7 (by decide)).trans <|
  (W10_of_ne m ρ c main_arg7 (by decide)).trans <|
  (W9_keep m ρ c main_arg7 (by decide)).trans <|
  (W8_of_ne m ρ c main_arg7 (by decide)).trans <|
  (W7_of_ne m ρ c main_arg7 (by decide)).trans <|
  (W6_keep m ρ c main_arg7 (by decide)).trans <|
  (W5_in m ρ c 1 rfl).trans <|
  (W4_of_ne m ρ c main_arg7 (by decide)).trans <|
  (W3_keep m ρ c main_arg7 (by decide)).trans <|
  (W2_of_ne m ρ c main_arg7 (by decide)).trans <|
  (W1_keep m ρ c main_arg7 (by decide)).trans rfl
theorem W12_main_arg8 (c : Dev nD) : W12 m ρ c (Proc.devRef .tc main_arg8) = m ((c : Thread nD τ).loc main_arg8) :=
  (W12_of_ne m ρ c main_arg8 (by decide)).trans <|
  (W11_keep m ρ c main_arg8 (by decide)).trans <|
  (W10_of_ne m ρ c main_arg8 (by decide)).trans <|
  (W9_keep m ρ c main_arg8 (by decide)).trans <|
  (W8_of_ne m ρ c main_arg8 (by decide)).trans <|
  (W7_of_ne m ρ c main_arg8 (by decide)).trans <|
  (W6_keep m ρ c main_arg8 (by decide)).trans <|
  (W5_of_ne m ρ c main_arg8 (by decide)).trans <|
  (W4_of_ne m ρ c main_arg8 (by decide)).trans <|
  (W3_keep m ρ c main_arg8 (by decide)).trans <|
  (W2_of_ne m ρ c main_arg8 (by decide)).trans <|
  (W1_keep m ρ c main_arg8 (by decide)).trans rfl
theorem W12_main_arg9 (c : Dev nD) : W12 m ρ c (Proc.devRef .tc main_arg9) = m ((c : Thread nD τ).loc main_arg9) :=
  (W12_of_ne m ρ c main_arg9 (by decide)).trans <|
  (W11_keep m ρ c main_arg9 (by decide)).trans <|
  (W10_of_ne m ρ c main_arg9 (by decide)).trans <|
  (W9_keep m ρ c main_arg9 (by decide)).trans <|
  (W8_in m ρ c 1 rfl).trans <|
  (W7_of_ne m ρ c main_arg9 (by decide)).trans <|
  (W6_keep m ρ c main_arg9 (by decide)).trans <|
  (W5_of_ne m ρ c main_arg9 (by decide)).trans <|
  (W4_of_ne m ρ c main_arg9 (by decide)).trans <|
  (W3_keep m ρ c main_arg9 (by decide)).trans <|
  (W2_of_ne m ρ c main_arg9 (by decide)).trans <|
  (W1_keep m ρ c main_arg9 (by decide)).trans rfl
theorem W12_main_arg10 (c : Dev nD) : W12 m ρ c (Proc.devRef .tc main_arg10) = m ((c : Thread nD τ).loc main_arg10) :=
  (W12_of_ne m ρ c main_arg10 (by decide)).trans <|
  (W11_keep m ρ c main_arg10 (by decide)).trans <|
  (W10_of_ne m ρ c main_arg10 (by decide)).trans <|
  (W9_keep m ρ c main_arg10 (by decide)).trans <|
  (W8_of_ne m ρ c main_arg10 (by decide)).trans <|
  (W7_of_ne m ρ c main_arg10 (by decide)).trans <|
  (W6_keep m ρ c main_arg10 (by decide)).trans <|
  (W5_of_ne m ρ c main_arg10 (by decide)).trans <|
  (W4_of_ne m ρ c main_arg10 (by decide)).trans <|
  (W3_keep m ρ c main_arg10 (by decide)).trans <|
  (W2_of_ne m ρ c main_arg10 (by decide)).trans <|
  (W1_keep m ρ c main_arg10 (by decide)).trans rfl
theorem W12_main_arg11 (c : Dev nD) : W12 m ρ c (Proc.devRef .tc main_arg11) = m ((c : Thread nD τ).loc main_arg11) :=
  (W12_in m ρ c 1 rfl).trans <|
  (W11_keep m ρ c main_arg11 (by decide)).trans <|
  (W10_of_ne m ρ c main_arg11 (by decide)).trans <|
  (W9_keep m ρ c main_arg11 (by decide)).trans <|
  (W8_of_ne m ρ c main_arg11 (by decide)).trans <|
  (W7_of_ne m ρ c main_arg11 (by decide)).trans <|
  (W6_keep m ρ c main_arg11 (by decide)).trans <|
  (W5_of_ne m ρ c main_arg11 (by decide)).trans <|
  (W4_of_ne m ρ c main_arg11 (by decide)).trans <|
  (W3_keep m ρ c main_arg11 (by decide)).trans <|
  (W2_of_ne m ρ c main_arg11 (by decide)).trans <|
  (W1_keep m ρ c main_arg11 (by decide)).trans rfl
theorem W12_main_arg12 (c : Dev nD) : W12 m ρ c (Proc.devRef .tc main_arg12) = m ((c : Thread nD τ).loc main_arg12) :=
  (W12_of_ne m ρ c main_arg12 (by decide)).trans <|
  (W11_keep m ρ c main_arg12 (by decide)).trans <|
  (W10_of_ne m ρ c main_arg12 (by decide)).trans <|
  (W9_keep m ρ c main_arg12 (by decide)).trans <|
  (W8_of_ne m ρ c main_arg12 (by decide)).trans <|
  (W7_of_ne m ρ c main_arg12 (by decide)).trans <|
  (W6_keep m ρ c main_arg12 (by decide)).trans <|
  (W5_of_ne m ρ c main_arg12 (by decide)).trans <|
  (W4_of_ne m ρ c main_arg12 (by decide)).trans <|
  (W3_keep m ρ c main_arg12 (by decide)).trans <|
  (W2_of_ne m ρ c main_arg12 (by decide)).trans <|
  (W1_keep m ρ c main_arg12 (by decide)).trans rfl
theorem W12_main_arg13 (c : Dev nD) : W12 m ρ c (Proc.devRef .tc main_arg13) = m ((c : Thread nD τ).loc main_arg13) :=
  (W12_in m ρ c 3 rfl).trans <|
  (W11_keep m ρ c main_arg13 (by decide)).trans <|
  (W10_of_ne m ρ c main_arg13 (by decide)).trans <|
  (W9_keep m ρ c main_arg13 (by decide)).trans <|
  (W8_of_ne m ρ c main_arg13 (by decide)).trans <|
  (W7_of_ne m ρ c main_arg13 (by decide)).trans <|
  (W6_keep m ρ c main_arg13 (by decide)).trans <|
  (W5_of_ne m ρ c main_arg13 (by decide)).trans <|
  (W4_of_ne m ρ c main_arg13 (by decide)).trans <|
  (W3_keep m ρ c main_arg13 (by decide)).trans <|
  (W2_of_ne m ρ c main_arg13 (by decide)).trans <|
  (W1_keep m ρ c main_arg13 (by decide)).trans rfl
theorem W12_main_arg14 (c : Dev nD) : W12 m ρ c (Proc.devRef .tc main_arg14) = m ((c : Thread nD τ).loc main_arg14) :=
  (W12_of_ne m ρ c main_arg14 (by decide)).trans <|
  (W11_keep m ρ c main_arg14 (by decide)).trans <|
  (W10_of_ne m ρ c main_arg14 (by decide)).trans <|
  (W9_keep m ρ c main_arg14 (by decide)).trans <|
  (W8_of_ne m ρ c main_arg14 (by decide)).trans <|
  (W7_of_ne m ρ c main_arg14 (by decide)).trans <|
  (W6_keep m ρ c main_arg14 (by decide)).trans <|
  (W5_of_ne m ρ c main_arg14 (by decide)).trans <|
  (W4_of_ne m ρ c main_arg14 (by decide)).trans <|
  (W3_keep m ρ c main_arg14 (by decide)).trans <|
  (W2_of_ne m ρ c main_arg14 (by decide)).trans <|
  (W1_keep m ρ c main_arg14 (by decide)).trans rfl

/-! ## The proof data family and the thread state -/

/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U4 m ρ) c
  | ⟨3, _⟩ => fun c => dat3 (U6 m ρ) c
  | ⟨4, _⟩ => fun c => dat4 (U7 m ρ) c
  | ⟨5, _⟩ => fun c => dat5 (U9 m ρ) c
  | ⟨6, _⟩ => fun c => dat6 (U11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- Region 0: entered from every unscoped buffer at `W1`, left at `W2`.  Its arrays are split out of the unscoped
    buffers at entry and put back at the exit contents; the generator register goes into the pipeline's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`.  Its arrays are split out of the unscoped
    buffers at entry and put back at the exit contents; the generator register goes into the pipeline's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W4`, left at `W5`.  Its arrays are split out of the unscoped
    buffers at entry and put back at the exit contents; the generator register goes into the pipeline's invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U4 m ρ c) (U5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W6`, left at `W7`.  Its arrays are split out of the unscoped
    buffers at entry and put back at the exit contents; the generator register goes into the pipeline's invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (U6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U6 m ρ c) (U7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W7`, left at `W8`.  Its arrays are split out of the unscoped
    buffers at entry and put back at the exit contents; the generator register goes into the pipeline's invariant and
    comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (U7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (U7 m ρ c) (U8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W9`, left at `W10`.  Its arrays are split out of the unscoped
    buffers at entry and put back at the exit contents; the generator register goes into the pipeline's invariant and
    comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec5 c (U9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (U9 m ρ c) (U10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at `W11`, left at `W12`.  Its arrays are split out of the unscoped
    buffers at entry and put back at the exit contents; the generator register goes into the pipeline's invariant and
    comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (U11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (U11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (U11 m ρ c) (U12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's twelve segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .host (hseg hostOps6 hostOps6_sub hostOps6_fresh (W10 m ρ)),
    .region (reg6 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and in
    every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl,
      fun c => by
        show iprop(StableHlo.held (c : Thread nD τ) (Pipeline.ucRefs τ sig) (W12 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- The frame: every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c),
     (h c _ (mem_uc main_arg12 (by decide))).trans (W12_main_arg12 m ρ c),
     (h c _ (mem_uc main_arg13 (by decide))).trans (W12_main_arg13 m ρ c),
     (h c _ (mem_uc main_arg14 (by decide))).trans (W12_main_arg14 m ρ c)⟩) (run_all m ρ)

end Cert.Kernel.Run

end
-- ==== Proof.KI.Reg0.lean ====
/- REGION 0 of @main, the projection `cc0__proj_kernel`: a row block of the left operand times the whole right operand.
   Stated at a parameter `V`, the TensorCore's buffer contents when the region is entered: each window's block at a
   point (`iblk0`), what the body leaves in the output window's staging buffer (`out0_2`: the product of the two
   input blocks, each narrowed to bf16, accumulated from zero in f32), the body's triple (`sound_kernel0`), the
   pipeline's proof data (`dat0`) and the body obligation at every point (`body_obligation0`). -/
import proofs.«131909_j56581899158174_1_alg».proof.Proof.Gen.KernelIdeal.Launch
import proofs.«131909_j56581899158174_1_alg».proof.Proof.Gen.KernelIdeal.Skeleton
import proofs.«131909_j56581899158174_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the structural recursion runs once per coordinate of the long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the left operand's rows 2000·t … 2000·t+1999, fetched at every point): its current staging buffer
    holds its block at every point, for any proof data whose array is `V`'s (`hA`) and whose body leaves the block in
    place (`hafter`). The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole right operand, one block under a constant index map, fetched at point 0 only): its
    current staging buffer holds that block at every point — at a point where it is not fetched the block index has
    not moved, so the buffer still holds the previous point's block, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_0 : Rect S2000x128 := Rect.unit (s := S2000x128) ![0, 0] S2000x128.size inb_S2000x128_S2000x128_0_0
abbrev r0_1 : Rect S128x256 := Rect.unit (s := S128x256) ![0, 0] S128x256.size inb_S128x256_S128x256_0_0
abbrev r0_2 : Rect S2000x256 := Rect.unit (s := S2000x256) ![0, 0] S2000x256.size inb_S2000x256_S2000x256_0_0

/-! ## What the body leaves in the output window's buffer -/

/-- Window 2's staging buffer after the body, from the two input blocks: the one whole-buffer store, whose payload is
    the product of the loaded blocks (narrowed to bf16, accumulated from zero in f32). -/
def out0_2 (x0 : Vec F S2000x128 .f32) (x1 : Vec F S128x256 .f32) : Vec F S2000x256 .f32 :=
  View.canon [⟨r0_2, k0_pay1 (View.ld x0 r0_0) (View.ld x1 r0_1)⟩]

/-- The store is of the whole buffer, so it covers it. -/
theorem cover0_2 (p0 : Vec F S2000x256 .f32) (y : S2000x256.Idx) :
    ∃ pc ∈ ([⟨r0_2, p0⟩] : List (View.Piece (Elt F) S2000x256 .f32)), y ∈ pc.1.set :=
  View.cover_of_tiled [⟨r0_2, p0⟩] S2000x256.size (by rfl) y

/-! ## The body's triple -/

set_option maxHeartbeats 1000000 in
/-- The kernel body on whole staging memrefs, the inputs' at read contents `x0`, `x1` and the output's at anything, runs
    to the continuation holding the inputs' as they were and the output's at `out0_2 x0 x1`: it loads the two input
    buffers and the output buffer whole, then stores the product over the whole output buffer. -/
theorem sound_kernel0 (c : Dev nD) (E : Set ℕ) (i : grid0.Coords) (arg1 : Memref sig .tc .vmem S2000x128 .f32) (harg1 : arg1.IsWhole) (arg2 : Memref sig .tc .vmem S128x256 .f32) (harg2 : arg2.IsWhole) (arg3 : Memref sig .tc .vmem S2000x256 .f32) (harg3 : arg3.IsWhole)
    (x0 : Vec F S2000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen
-- ==== Proof.KI.Reg1.lean ====
import proofs.«131909_j56581899158174_1_alg».proof.Proof.Gen.KernelIdeal.Launch
import proofs.«131909_j56581899158174_1_alg».proof.Proof.Gen.KernelIdeal.Skeleton
import proofs.«131909_j56581899158174_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the elementwise combine, as a pipeline of 25 points over row blocks

The region computes, on each block of 2000 rows, `max((a + h · d) + b, 0)` elementwise: `a` and `h` are
2000×256 blocks, `d` a 2000×1 column spread along the rows, `b` a 1×256 row spread down the columns. This file
is the region's half of the frame argument, stated at an arbitrary entry contents `V` of the core's buffers:
each window's block at a point, what the body leaves in the output window's staging buffer as a function of the
input blocks, the body's separation-logic triple, and the pipeline's proof data with its body obligation. -/

-- membership of an index in a rectangle of 2000 rows is decided by a structural recursion along the long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the pipeline fetched it
    there (a point that does not fetch has the block index of the point before it), for any proof data whose array
    is the entry contents (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not the pipeline fetched it
    there (a point that does not fetch has the block index of the point before it), for any proof data whose array
    is the entry contents (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not the pipeline fetched it
    there (a point that does not fetch has the block index of the point before it), for any proof data whose array
    is the entry contents (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether or not the pipeline fetched it
    there (a point that does not fetch has the block index of the point before it), for any proof data whose array
    is the entry contents (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each memref is read, and the output written, as one whole block -/

abbrev r1_0 : Rect S2000x256 := Rect.unit (s := S2000x256) ![0, 0] S2000x256.size inb_S2000x256_S2000x256_0_0
abbrev r1_1 : Rect S2000x1 := Rect.unit (s := S2000x1) ![0, 0] S2000x1.size inb_S2000x1_S2000x1_0_0
abbrev r1_2 : Rect S1x256 := Rect.unit (s := S1x256) ![0, 0] S1x256.size inb_S1x256_S1x256_0_0

/-! ## What the body leaves in the output window's buffer -/

/-- Window 4's staging buffer after the body, from the input windows' blocks: the one whole-block store of the
    combine of the four loaded blocks. -/
def out1_4 (x0 : Vec F S2000x256 .f32) (x1 : Vec F S2000x256 .f32) (x2 : Vec F S2000x1 .f32) (x3 : Vec F S1x256 .f32) : Vec F S2000x256 .f32 :=
  View.canon [⟨r1_0, k1_pay1 (View.ld x0 r1_0) (View.ld x1 r1_0) (View.ld x2 r1_1) (View.ld x3 r1_2)⟩]

/-- The one store's rectangle is the whole buffer, so it covers every index. -/
theorem cover1_4 (p0 : Vec F S2000x256 .f32) (y : S2000x256.Idx) :
    ∃ pc ∈ ([⟨r1_0, p0⟩] : List (View.Piece (Elt F) S2000x256 .f32)), y ∈ pc.1.set :=
  View.cover_of_tiled [⟨r1_0, p0⟩] S2000x256.size (by rfl) y

/-! ## The body's triple -/

set_option maxHeartbeats 1000000 in
/-- The body on whole staging memrefs, the inputs' at contents `x0 … x3` and the output's at anything, runs to the
    continuation holding the inputs' as they were and the output's at `out1_4` of the inputs. -/
theorem sound_kernel1 (c : Dev nD) (E : Set ℕ) (i : grid1.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole)
    (x0 : Vec F S2000x256 .f32) (x1 : Vec F S2000x256 .f32) (x2 : Vec F S2000x1 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point
    `t` each input's buffer at its block and the output's at `out1_4` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.Reg2.lean ====
/- REGION 2 of @main, the projection `cc2__proj_kernel`: a row block of the left operand times the whole right operand.
   Stated at a parameter `V`, the TensorCore's buffer contents when the region is entered: each window's block at a
   point (`iblk2`), what the body leaves in the output window's staging buffer (`out2_2`: the product of the two
   input blocks, each narrowed to bf16, accumulated from zero in f32), the body's triple (`sound_kernel2`), the
   pipeline's proof data (`dat2`) and the body obligation at every point (`body_obligation2`). -/
import proofs.«131909_j56581899158174_1_alg».proof.Proof.Gen.KernelIdeal.Launch
import proofs.«131909_j56581899158174_1_alg».proof.Proof.Gen.KernelIdeal.Skeleton
import proofs.«131909_j56581899158174_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the structural recursion runs once per coordinate of the long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the left operand's rows 2000·t … 2000·t+1999, fetched at every point): its current staging buffer
    holds its block at every point, for any proof data whose array is `V`'s (`hA`) and whose body leaves the block in
    place (`hafter`). The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole right operand, one block under a constant index map, fetched at point 0 only): its
    current staging buffer holds that block at every point — at a point where it is not fetched the block index has
    not moved, so the buffer still holds the previous point's block, which is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole -/

abbrev r2_0 : Rect S2000x256 := Rect.unit (s := S2000x256) ![0, 0] S2000x256.size inb_S2000x256_S2000x256_0_0
abbrev r2_1 : Rect S256x256 := Rect.unit (s := S256x256) ![0, 0] S256x256.size inb_S256x256_S256x256_0_0

/-! ## What the body leaves in the output window's buffer -/

/-- Window 2's staging buffer after the body, from the two input blocks: the one whole-buffer store, whose payload is
    the product of the loaded blocks (narrowed to bf16, accumulated from zero in f32). -/
def out2_2 (x0 : Vec F S2000x256 .f32) (x1 : Vec F S256x256 .f32) : Vec F S2000x256 .f32 :=
  View.canon [⟨r2_0, k2_pay1 (View.ld x0 r2_0) (View.ld x1 r2_1)⟩]

/-- The store is of the whole buffer, so it covers it. -/
theorem cover2_2 (p0 : Vec F S2000x256 .f32) (y : S2000x256.Idx) :
    ∃ pc ∈ ([⟨r2_0, p0⟩] : List (View.Piece (Elt F) S2000x256 .f32)), y ∈ pc.1.set :=
  View.cover_of_tiled [⟨r2_0, p0⟩] S2000x256.size (by rfl) y

/-! ## The body's triple -/

set_option maxHeartbeats 1000000 in
/-- The kernel body on whole staging memrefs, the inputs' at read contents `x0`, `x1` and the output's at anything, runs
    to the continuation holding the inputs' as they were and the output's at `out2_2 x0 x1`: it loads the two input
    buffers and the output buffer whole, then stores the product over the whole output buffer. -/
theorem sound_kernel2 (c : Dev nD) (E : Set ℕ) (i : grid2.Coords) (arg1 : Memref sig .tc .vmem S2000x256 .f32) (harg1 : arg1.IsWhole) (arg2 : Memref sig .tc .vmem S256x256 .f32) (harg2 : arg2.IsWhole) (arg3 : Memref sig .tc .vmem S2000x256 .f32) (harg3 : arg3.IsWhole)
    (x0 : Vec F S2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__proj_kernel i arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point `t`
    each input's buffer at its block and the output's at `out2_2` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_0`, `before2_1`), so `sound_kernel2`
    applies; the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Gen
-- ==== Proof.KI.Reg3.lean ====
import proofs.«131909_j56581899158174_1_alg».proof.Proof.Gen.KernelIdeal.Launch
import proofs.«131909_j56581899158174_1_alg».proof.Proof.Gen.KernelIdeal.Skeleton
import proofs.«131909_j56581899158174_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the elementwise combine, as a pipeline of 25 points over row blocks

The region computes, on each block of 2000 rows, `max((a + h · d) + b, 0)` elementwise: `a` and `h` are
2000×256 blocks, `d` a 2000×1 column spread along the rows, `b` a 1×256 row spread down the columns. This file
is the region's half of the frame argument, stated at an arbitrary entry contents `V` of the core's buffers:
each window's block at a point, what the body leaves in the output window's staging buffer as a function of the
input blocks, the body's separation-logic triple, and the pipeline's proof data with its body obligation. -/

-- membership of an index in a rectangle of 2000 rows is decided by a structural recursion along the long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not the pipeline fetched it
    there (a point that does not fetch has the block index of the point before it), for any proof data whose array
    is the entry contents (`hA`) and whose body leaves the block in place (`hafter`). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether or not the pipeline fetched it
    there (a point that does not fetch has the block index of the point before it), for any proof data whose array
    is the entry contents (`hA`) and whose body leaves the block in place (`hafter`). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, whether or not the pipeline fetched it
    there (a point that does not fetch has the block index of the point before it), for any proof data whose array
    is the entry contents (`hA`) and whose body leaves the block in place (`hafter`). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, whether or not the pipeline fetched it
    there (a point that does not fetch has the block index of the point before it), for any proof data whose array
    is the entry contents (`hA`) and whose body leaves the block in place (`hafter`). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each memref is read, and the output written, as one whole block -/

abbrev r3_0 : Rect S2000x256 := Rect.unit (s := S2000x256) ![0, 0] S2000x256.size inb_S2000x256_S2000x256_0_0
abbrev r3_1 : Rect S2000x1 := Rect.unit (s := S2000x1) ![0, 0] S2000x1.size inb_S2000x1_S2000x1_0_0
abbrev r3_2 : Rect S1x256 := Rect.unit (s := S1x256) ![0, 0] S1x256.size inb_S1x256_S1x256_0_0

/-! ## What the body leaves in the output window's buffer -/

/-- Window 4's staging buffer after the body, from the input windows' blocks: the one whole-block store of the
    combine of the four loaded blocks. -/
def out3_4 (x0 : Vec F S2000x256 .f32) (x1 : Vec F S2000x256 .f32) (x2 : Vec F S2000x1 .f32) (x3 : Vec F S1x256 .f32) : Vec F S2000x256 .f32 :=
  View.canon [⟨r3_0, k3_pay1 (View.ld x0 r3_0) (View.ld x1 r3_0) (View.ld x2 r3_1) (View.ld x3 r3_2)⟩]

/-- The one store's rectangle is the whole buffer, so it covers every index. -/
theorem cover3_4 (p0 : Vec F S2000x256 .f32) (y : S2000x256.Idx) :
    ∃ pc ∈ ([⟨r3_0, p0⟩] : List (View.Piece (Elt F) S2000x256 .f32)), y ∈ pc.1.set :=
  View.cover_of_tiled [⟨r3_0, p0⟩] S2000x256.size (by rfl) y

/-! ## The body's triple -/

set_option maxHeartbeats 1000000 in
/-- The body on whole staging memrefs, the inputs' at contents `x0 … x3` and the output's at anything, runs to the
    continuation holding the inputs' as they were and the output's at `out3_4` of the inputs. -/
theorem sound_kernel3 (c : Dev nD) (E : Set ℕ) (i : grid3.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole)
    (x0 : Vec F S2000x256 .f32) (x1 : Vec F S2000x256 .f32) (x2 : Vec F S2000x1 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core `c`: the arrays as the region finds them (`V`); after the body at point
    `t` each input's buffer at its block and the output's at `out3_4` of the input blocks; the invariant is the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and
    the core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.KI.Reg4.lean ====
/- REGION 4 of @main, the projection `cc4__proj_kernel`: a row block of the left operand times the whole right operand.
   Stated at a parameter `V`, the TensorCore's buffer contents when the region is entered: each window's block at a
   point (`iblk4`), what the body leaves in the output window's staging buffer (`out4_2`: the product of the two
   input blocks, each narrowed to bf16, accumulated from zero in f32), the body's triple (`sound_kernel4`), the
   pipeline's proof data (`dat4`) and the body obligation at every point (`body_obligation4`). -/
import proofs.«131909_j56581899158174_1_alg».proof.Proof.Gen.KernelIdeal.Launch
import proofs.«131909_j56581899158174_1_alg».proof.Proof.Gen.KernelIdeal.Skeleton
import proofs.«131909_j56581899158174_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the structural recursion runs once per coordinate of the long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the left operand's rows 2000·t … 2000·t+1999, fetched at every point): its current staging buffer
    holds its block at every point, for any proof data whose array is `V`'s (`hA`) and whose body leaves the block in
    place (`hafter`). The window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the whole right operand, one block under a constant index map, fetched at point 0 only): its
    current staging buffer holds that block at every point — at a point where it is not fetched the block index has
    not moved, so the buffer still holds the previous point's block, which is this point's. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each staging buffer whole -/

abbrev r4_0 : Rect S2000x256 := Rect.unit (s := S2000x256) ![0, 0] S2000x256.size inb_S2000x256_S2000x256_0_0
abbrev r4_1 : Rect S256x256 := Rect.unit (s := S256x256) ![0, 0] S256x256.size inb_S256x256_S256x256_0_0

/-! ## What the body leaves in the output window's buffer -/

/-- Window 2's staging buffer after the body, from the two input blocks: the one whole-buffer store, whose payload is
    the product of the loaded blocks (narrowed to bf16, accumulated from zero in f32). -/
def out4_2 (x0 : Vec F S2000x256 .f32) (x1 : Vec F S256x256 .f32) : Vec F S2000x256 .f32 :=
  View.canon [⟨r4_0, k4_pay1 (View.ld x0 r4_0) (View.ld x1 r4_1)⟩]

/-- The store is of the whole buffer, so it covers it. -/
theorem cover4_2 (p0 : Vec F S2000x256 .f32) (y : S2000x256.Idx) :
    ∃ pc ∈ ([⟨r4_0, p0⟩] : List (View.Piece (Elt F) S2000x256 .f32)), y ∈ pc.1.set :=
  View.cover_of_tiled [⟨r4_0, p0⟩] S2000x256.size (by rfl) y

/-! ## The body's triple -/

set_option maxHeartbeats 1000000 in
/-- The kernel body on whole staging memrefs, the inputs' at read contents `x0`, `x1` and the output's at anything, runs
    to the continuation holding the inputs' as they were and the output's at `out4_2 x0 x1`: it loads the two input
    buffers and the output buffer whole, then stores the product over the whole output buffer. -/
theorem sound_kernel4 (c : Dev nD) (E : Set ℕ) (i : grid4.Coords) (arg1 : Memref sig .tc .vmem S2000x256 .f32) (harg1 : arg1.IsWhole) (arg2 : Memref sig .tc .vmem S256x256 .f32) (harg2 : arg2.IsWhole) (arg3 : Memref sig .tc .vmem S2000x256 .f32) (harg3 : arg3.IsWhole)
    (x0 : Vec F S2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__proj_kernel i arg1 harg1 arg2 harg2 arg3 harg3) K := by
  simp only [cc4__proj_kernel_eq_skeleton]; unfold cc4__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at point `t`
    each input's buffer at its block and the output's at `out4_2` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks (`before4_0`, `before4_1`), so `sound_kernel4`
    applies; the invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Gen
-- ==== Proof.KI.Reg5.lean ====
import proofs.«131909_j56581899158174_1_alg».proof.Proof.Gen.KernelIdeal.Launch
import proofs.«131909_j56581899158174_1_alg».proof.Proof.Gen.KernelIdeal.Skeleton
import proofs.«131909_j56581899158174_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5: the elementwise combine, as a pipeline of 25 points over row blocks

The region computes, on each block of 2000 rows, `max((a + h · d) + b, 0)` elementwise: `a` and `h` are
2000×256 blocks, `d` a 2000×1 column spread along the rows, `b` a 1×256 row spread down the columns. This file
is the region's half of the frame argument, stated at an arbitrary entry contents `V` of the core's buffers:
each window's block at a point, what the body leaves in the output window's staging buffer as a function of the
input blocks, the body's separation-logic triple, and the pipeline's proof data with its body obligation. -/

-- membership of an index in a rectangle of 2000 rows is decided by a structural recursion along the long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether or not the pipeline fetched it
    there (a point that does not fetch has the block index of the point before it), for any proof data whose array
    is the entry contents (`hA`) and whose body leaves the block in place (`hafter`). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, whether or not the pipeline fetched it
    there (a point that does not fetch has the block index of the point before it), for any proof data whose array
    is the entry contents (`hA`) and whose body leaves the block in place (`hafter`). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, whether or not the pipeline fetched it
    there (a point that does not fetch has the block index of the point before it), for any proof data whose array
    is the entry contents (`hA`) and whose body leaves the block in place (`hafter`). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, whether or not the pipeline fetched it
    there (a point that does not fetch has the block index of the point before it), for any proof data whose array
    is the entry contents (`hA`) and whose body leaves the block in place (`hafter`). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each memref is read, and the output written, as one whole block -/

abbrev r5_0 : Rect S2000x256 := Rect.unit (s := S2000x256) ![0, 0] S2000x256.size inb_S2000x256_S2000x256_0_0
abbrev r5_1 : Rect S2000x1 := Rect.unit (s := S2000x1) ![0, 0] S2000x1.size inb_S2000x1_S2000x1_0_0
abbrev r5_2 : Rect S1x256 := Rect.unit (s := S1x256) ![0, 0] S1x256.size inb_S1x256_S1x256_0_0

/-! ## What the body leaves in the output window's buffer -/

/-- Window 4's staging buffer after the body, from the input windows' blocks: the one whole-block store of the
    combine of the four loaded blocks. -/
def out5_4 (x0 : Vec F S2000x256 .f32) (x1 : Vec F S2000x256 .f32) (x2 : Vec F S2000x1 .f32) (x3 : Vec F S1x256 .f32) : Vec F S2000x256 .f32 :=
  View.canon [⟨r5_0, k5_pay1 (View.ld x0 r5_0) (View.ld x1 r5_0) (View.ld x2 r5_1) (View.ld x3 r5_2)⟩]

/-- The one store's rectangle is the whole buffer, so it covers every index. -/
theorem cover5_4 (p0 : Vec F S2000x256 .f32) (y : S2000x256.Idx) :
    ∃ pc ∈ ([⟨r5_0, p0⟩] : List (View.Piece (Elt F) S2000x256 .f32)), y ∈ pc.1.set :=
  View.cover_of_tiled [⟨r5_0, p0⟩] S2000x256.size (by rfl) y

/-! ## The body's triple -/

set_option maxHeartbeats 1000000 in
/-- The body on whole staging memrefs, the inputs' at contents `x0 … x3` and the output's at anything, runs to the
    continuation holding the inputs' as they were and the output's at `out5_4` of the inputs. -/
theorem sound_kernel5 (c : Dev nD) (E : Set ℕ) (i : grid5.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole)
    (x0 : Vec F S2000x256 .f32) (x1 : Vec F S2000x256 .f32) (x2 : Vec F S2000x1 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__combine_kernel i arg1 harg1 arg2 harg2 arg3 harg3 arg4 harg4 arg5 harg5) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The proof data of pipeline 5 on core `c`: the arrays as the region finds them (`V`); after the body at point
    `t` each input's buffer at its block and the output's at `out5_4` of the input blocks; the invariant is the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks, so the body's triple applies; the invariant and
    the core's obligations pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Gen

end
-- ==== Proof.KI.Reg6.lean ====
/- The body half of the frame proof of REGION 6 (the two-layer fully connected head, one grid point, six
   windows), stated at a PARAMETER `V` — the TensorCore's buffer contents when the region is entered: each window's
   block at the point, what the body leaves in the output window's staging buffer (the one whole-block store of the
   payload of the five whole-block loads), the body's triple, the pipeline's proof data and the body obligation. -/
import proofs.«131909_j56581899158174_1_alg».proof.Proof.Gen.KernelIdeal.Launch
import proofs.«131909_j56581899158174_1_alg».proof.Proof.Gen.KernelIdeal.Skeleton
import proofs.«131909_j56581899158174_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents: the structural recursion runs once per coordinate of the long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
-- the TensorCore's buffer contents when the region is entered: the parameter the region's half is stated at
variable (V : (c : Dev nD) → (b : Ref sig .tc) → Buf (Elt F) ((c : Thread nD τ).loc b))

/-! # REGION 6: the fully connected head `cc6__fc_kernel` (pipeline 6), at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, for ANY proof data whose array is
    `V`'s (`hA`) and whose body leaves the block in place (`hafter`); the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, for ANY proof data whose array is
    `V`'s (`hA`) and whose body leaves the block in place (`hafter`); the window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, for ANY proof data whose array is
    `V`'s (`hA`) and whose body leaves the block in place (`hafter`); the window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, for ANY proof data whose array is
    `V`'s (`hA`) and whose body leaves the block in place (`hafter`); the window is uncut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's current staging buffer holds its block at every point, for ANY proof data whose array is
    `V`'s (`hA`) and whose body leaves the block in place (`hafter`); the window is uncut and never idle. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each window's buffer whole -/

abbrev r6_0 : Rect S64x258 := Rect.unit (s := S64x258) ![0, 0] S64x258.size inb_S64x258_S64x258_0_0
abbrev r6_1 : Rect S258x256 := Rect.unit (s := S258x256) ![0, 0] S258x256.size inb_S258x256_S258x256_0_0
abbrev r6_2 : Rect S1x256 := Rect.unit (s := S1x256) ![0, 0] S1x256.size inb_S1x256_S1x256_0_0
abbrev r6_3 : Rect S256x128 := Rect.unit (s := S256x128) ![0, 0] S256x128.size inb_S256x128_S256x128_0_0
abbrev r6_4 : Rect S1x128 := Rect.unit (s := S1x128) ![0, 0] S1x128.size inb_S1x128_S1x128_0_0
abbrev r6_5 : Rect S64x128 := Rect.unit (s := S64x128) ![0, 0] S64x128.size inb_S64x128_S64x128_0_0

/-! ## What the body leaves in the output window's buffer -/

/-- Window 5's staging buffer after the body, from the input windows' blocks: its one store as a piece — the whole
    buffer at the payload of the five whole-buffer loads. -/
def out6_5 (x0 : Vec F S64x258 .f32) (x1 : Vec F S258x256 .f32) (x2 : Vec F S1x256 .f32) (x3 : Vec F S256x128 .f32) (x4 : Vec F S1x128 .f32) : Vec F S64x128 .f32 :=
  View.canon [⟨r6_5, k6_pay1 (View.ld x0 r6_0) (View.ld x1 r6_1) (View.ld x2 r6_2) (View.ld x3 r6_3) (View.ld x4 r6_4)⟩]

/-- The store's rectangle is the whole buffer (checked by evaluation), so it covers it. -/
theorem cover6_5 (p0 : Vec F S64x128 .f32) (y : S64x128.Idx) :
    ∃ pc ∈ ([⟨r6_5, p0⟩] : List (View.Piece (Elt F) S64x128 .f32)), y ∈ pc.1.set :=
  View.cover_of_tiled [⟨r6_5, p0⟩] S64x128.size (by rfl) y

/-! ## The body's triple -/

set_option maxHeartbeats 1000000 in
/-- The kernel body on whole staging memrefs, the inputs' at read contents `xW` and the output's at anything, runs to
    the continuation holding the inputs' as they were and the output's at `out6_5` of the inputs'. -/
theorem sound_kernel6 (c : Dev nD) (E : Set ℕ) (i : grid6.Coords) (arg1 : Memref sig .tc .vmem S64x258 .f32) (harg1 : arg1.IsWhole) (arg2 : Memref sig .tc .vmem S258x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S64x128 .f32) (harg6 : arg6.IsWhole)
    (x0 : Vec F S64x258 .f32) (x1 : Vec F S258x256 .f32) (x2 : Vec F S1x256 .f32) (x3 : Vec F S256x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__fc_kernel i arg1 harg1 arg2 harg2 arg3 harg3 arg4 harg4 arg5 harg5 arg6 harg6) K := by
  simp only [cc6__fc_kernel_eq_skeleton]; unfold cc6__fc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them (`V`); after the body at the
    point each input's buffer at its block and the output's at `out6_5` of the input blocks; the scoped rest and
    the generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents (the proof data's definition projected). -/
theorem A_eq6 (c : Dev nD) (w : Fin cfg6.W) : (dat6 V c).A w = V c (Pipeline.arrRef spec6 w) := by
  dsimp only [dat6]

/-- What the body leaves, window by window (the proof data's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Region6

end Cert.KernelIdeal.Gen

end
-- ==== Proof.KI.Run.lean ====
/-
  The run of the program's @main as twelve segments — five stretches of host operations and seven kernel regions —
  over the thread state "every unscoped buffer of the core at the boundary's contents, the generator register at some
  state, nothing owed".  The contents at each boundary are a fold from the launch memory: a host stretch applies its
  operations; a region leaves each of its arrays at what its pipeline's write-backs leave (an input array as entered,
  the output array at the fold of the blocks written back) and every other buffer as entered.  From the run: every
  final memory holds each unscoped buffer at the last boundary's contents; read at the arguments that is the frame
  (no host operation and no region writes an argument), read at the result it is the last region's output array.
-/
import proofs.«131909_j56581899158174_1_alg».proof.Proof.Gen.KernelIdeal.Launch
import proofs.«131909_j56581899158174_1_alg».proof.Proof.Gen.KernelIdeal.Skeleton
import proofs.«131909_j56581899158174_1_alg».proof.Proof.Gen.KernelIdeal.Points
import proofs.«131909_j56581899158174_1_alg».proof.Proof.KI.Reg0
import proofs.«131909_j56581899158174_1_alg».proof.Proof.KI.Reg1
import proofs.«131909_j56581899158174_1_alg».proof.Proof.KI.Reg2
import proofs.«131909_j56581899158174_1_alg».proof.Proof.KI.Reg3
import proofs.«131909_j56581899158174_1_alg».proof.Proof.KI.Reg4
import proofs.«131909_j56581899158174_1_alg».proof.Proof.KI.Reg5
import proofs.«131909_j56581899158174_1_alg».proof.Proof.KI.Reg6
import proofs.«131909_j56581899158174_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- A reference the stretch does not write keeps its contents. -/
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h

/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- An input window's array leaves the region as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hin _).trans (A_eq0 (U1 m ρ) c w))

/-- After the host stretch `hostOps1`. -/
abbrev W3 : Dev nD → Valuation τ sig (Elt F) := fun c => StableHlo.after hostOps1 (W2 m ρ c)
/-- The same read at the TensorCore's references. -/
abbrev U3 : (c : Dev nD) → (b : Ref sig .tc) → Buf (Elt F) ((c : Thread nD τ).loc b) := fun c b => W3 m ρ c b
/-- A reference the stretch does not write keeps its contents. -/
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h

/-- At region 1's exit: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
/-- An input window's array leaves the region as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (U3 m ρ) c).arrAt_in w hin _).trans (A_eq1 (U3 m ρ) c w))

/-- At region 2's exit: its arrays at what the pipeline leaves, every other buffer as entered. -/
def W5 (c : Dev nD) : Valuation τ sig (Elt F) :=
  Pipeline.withArrays spec2 c (W4 m ρ c) fun w => (dat2 (U4 m ρ) c).arrAt w cfg2.N
theorem W5_arr (c : Dev nD) (w : Fin cfg2.W) :
    W5 m ρ c (Proc.devRef .tc (Pipeline.arrRef spec2 w)) = (dat2 (U4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev U5 : (c : Dev nD) → (b : Ref sig .tc) → Buf (Elt F) ((c : Thread nD τ).loc b) := fun c b => W5 m ρ c b
theorem hF2 (c : Dev nD) (w : Fin cfg2.W) : (dat2 (U4 m ρ) c).arrAt w cfg2.N = U5 m ρ c (Pipeline.arrRef spec2 w) :=
  (W5_arr m ρ c w).symm
theorem hrest2 (c : Dev nD) : ∀ b, b ∉ Finset.univ.image (Pipeline.arrRef spec2) → U5 m ρ c b = U4 m ρ c b :=
  fun b hb => W5_of_ne m ρ c b fun w e => hb (Finset.mem_image.mpr ⟨w, Finset.mem_univ _, e⟩)
/-- An input window's array leaves the region as it entered. -/
theorem W5_in (c : Dev nD) (w : Fin cfg2.W) (hin : (cfg2.win w).isOut = false) :
    W5 m ρ c (Proc.devRef .tc (Pipeline.arrRef spec2 w)) = W4 m ρ c (Proc.devRef .tc (Pipeline.arrRef spec2 w)) :=
  (W5_arr m ρ c w).trans (((dat2 (U4 m ρ) c).arrAt_in w hin _).trans (A_eq2 (U4 m ρ) c w))

/-- After the host stretch `hostOps3`. -/
abbrev W6 : Dev nD → Valuation τ sig (Elt F) := fun c => StableHlo.after hostOps3 (W5 m ρ c)
/-- The same read at the TensorCore's references. -/
abbrev U6 : (c : Dev nD) → (b : Ref sig .tc) → Buf (Elt F) ((c : Thread nD τ).loc b) := fun c b => W6 m ρ c b
/-- A reference the stretch does not write keeps its contents. -/
theorem W6_keep (c : Dev nD) (r : Ref sig .tc) (h : r ∉ hostOps3_W) : W6 m ρ c (Proc.devRef .tc r) = W5 m ρ c (Proc.devRef .tc r) :=
  StableHlo.after_of_writes_sub hostOps3 _ hostOps3_writes h

/-- At region 3's exit: its arrays at what the pipeline leaves, every other buffer as entered. -/
def W7 (c : Dev nD) : Valuation τ sig (Elt F) :=
  Pipeline.withArrays spec3 c (W6 m ρ c) fun w => (dat3 (U6 m ρ) c).arrAt w cfg3.N
theorem W7_arr (c : Dev nD) (w : Fin cfg3.W) :
    W7 m ρ c (Proc.devRef .tc (Pipeline.arrRef spec3 w)) = (dat3 (U6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev U7 : (c : Dev nD) → (b : Ref sig .tc) → Buf (Elt F) ((c : Thread nD τ).loc b) := fun c b => W7 m ρ c b
theorem hF3 (c : Dev nD) (w : Fin cfg3.W) : (dat3 (U6 m ρ) c).arrAt w cfg3.N = U7 m ρ c (Pipeline.arrRef spec3 w) :=
  (W7_arr m ρ c w).symm
theorem hrest3 (c : Dev nD) : ∀ b, b ∉ Finset.univ.image (Pipeline.arrRef spec3) → U7 m ρ c b = U6 m ρ c b :=
  fun b hb => W7_of_ne m ρ c b fun w e => hb (Finset.mem_image.mpr ⟨w, Finset.mem_univ _, e⟩)
/-- An input window's array leaves the region as it entered. -/
theorem W7_in (c : Dev nD) (w : Fin cfg3.W) (hin : (cfg3.win w).isOut = false) :
    W7 m ρ c (Proc.devRef .tc (Pipeline.arrRef spec3 w)) = W6 m ρ c (Proc.devRef .tc (Pipeline.arrRef spec3 w)) :=
  (W7_arr m ρ c w).trans (((dat3 (U6 m ρ) c).arrAt_in w hin _).trans (A_eq3 (U6 m ρ) c w))

/-- At region 4's exit: its arrays at what the pipeline leaves, every other buffer as entered. -/
def W8 (c : Dev nD) : Valuation τ sig (Elt F) :=
  Pipeline.withArrays spec4 c (W7 m ρ c) fun w => (dat4 (U7 m ρ) c).arrAt w cfg4.N
theorem W8_arr (c : Dev nD) (w : Fin cfg4.W) :
    W8 m ρ c (Proc.devRef .tc (Pipeline.arrRef spec4 w)) = (dat4 (U7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- The same read at the TensorCore's references. -/
abbrev U8 : (c : Dev nD) → (b : Ref sig .tc) → Buf (Elt F) ((c : Thread nD τ).loc b) := fun c b => W8 m ρ c b
theorem hF4 (c : Dev nD) (w : Fin cfg4.W) : (dat4 (U7 m ρ) c).arrAt w cfg4.N = U8 m ρ c (Pipeline.arrRef spec4 w) :=
  (W8_arr m ρ c w).symm
theorem hrest4 (c : Dev nD) : ∀ b, b ∉ Finset.univ.image (Pipeline.arrRef spec4) → U8 m ρ c b = U7 m ρ c b :=
  fun b hb => W8_of_ne m ρ c b fun w e => hb (Finset.mem_image.mpr ⟨w, Finset.mem_univ _, e⟩)
/-- An input window's array leaves the region as it entered. -/
theorem W8_in (c : Dev nD) (w : Fin cfg4.W) (hin : (cfg4.win w).isOut = false) :
    W8 m ρ c (Proc.devRef .tc (Pipeline.arrRef spec4 w)) = W7 m ρ c (Proc.devRef .tc (Pipeline.arrRef spec4 w)) :=
  (W8_arr m ρ c w).trans (((dat4 (U7 m ρ) c).arrAt_in w hin _).trans (A_eq4 (U7 m ρ) c w))

/-- After the host stretch `hostOps5`. -/
abbrev W9 : Dev nD → Valuation τ sig (Elt F) := fun c => StableHlo.after hostOps5 (W8 m ρ c)
/-- The same read at the TensorCore's references. -/
abbrev U9 : (c : Dev nD) → (b : Ref sig .tc) → Buf (Elt F) ((c : Thread nD τ).loc b) := fun c b => W9 m ρ c b
/-- A reference the stretch does not write keeps its contents. -/
theorem W9_keep (c : Dev nD) (r : Ref sig .tc) (h : r ∉ hostOps5_W) : W9 m ρ c (Proc.devRef .tc r) = W8 m ρ c (Proc.devRef .tc r) :=
  StableHlo.after_of_writes_sub hostOps5 _ hostOps5_writes h

/-- At region 5's exit: its arrays at what the pipeline leaves, every other buffer as entered. -/
def W10 (c : Dev nD) : Valuation τ sig (Elt F) :=
  Pipeline.withArrays spec5 c (W9 m ρ c) fun w => (dat5 (U9 m ρ) c).arrAt w cfg5.N
theorem W10_arr (c : Dev nD) (w : Fin cfg5.W) :
    W10 m ρ c (Proc.devRef .tc (Pipeline.arrRef spec5 w)) = (dat5 (U9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
/-- The same read at the TensorCore's references. -/
abbrev U10 : (c : Dev nD) → (b : Ref sig .tc) → Buf (Elt F) ((c : Thread nD τ).loc b) := fun c b => W10 m ρ c b
theorem hF5 (c : Dev nD) (w : Fin cfg5.W) : (dat5 (U9 m ρ) c).arrAt w cfg5.N = U10 m ρ c (Pipeline.arrRef spec5 w) :=
  (W10_arr m ρ c w).symm
theorem hrest5 (c : Dev nD) : ∀ b, b ∉ Finset.univ.image (Pipeline.arrRef spec5) → U10 m ρ c b = U9 m ρ c b :=
  fun b hb => W10_of_ne m ρ c b fun w e => hb (Finset.mem_image.mpr ⟨w, Finset.mem_univ _, e⟩)
/-- An input window's array leaves the region as it entered. -/
theorem W10_in (c : Dev nD) (w : Fin cfg5.W) (hin : (cfg5.win w).isOut = false) :
    W10 m ρ c (Proc.devRef .tc (Pipeline.arrRef spec5 w)) = W9 m ρ c (Proc.devRef .tc (Pipeline.arrRef spec5 w)) :=
  (W10_arr m ρ c w).trans (((dat5 (U9 m ρ) c).arrAt_in w hin _).trans (A_eq5 (U9 m ρ) c w))

/-- After the host stretch `hostOps6`. -/
abbrev W11 : Dev nD → Valuation τ sig (Elt F) := fun c => StableHlo.after hostOps6 (W10 m ρ c)
/-- The same read at the TensorCore's references. -/
abbrev U11 : (c : Dev nD) → (b : Ref sig .tc) → Buf (Elt F) ((c : Thread nD τ).loc b) := fun c b => W11 m ρ c b
/-- A reference the stretch does not write keeps its contents. -/
theorem W11_keep (c : Dev nD) (r : Ref sig .tc) (h : r ∉ hostOps6_W) : W11 m ρ c (Proc.devRef .tc r) = W10 m ρ c (Proc.devRef .tc r) :=
  StableHlo.after_of_writes_sub hostOps6 _ hostOps6_writes h

/-- At region 6's exit: its arrays at what the pipeline leaves, every other buffer as entered. -/
def W12 (c : Dev nD) : Valuation τ sig (Elt F) :=
  Pipeline.withArrays spec6 c (W11 m ρ c) fun w => (dat6 (U11 m ρ) c).arrAt w cfg6.N
theorem W12_arr (c : Dev nD) (w : Fin cfg6.W) :
    W12 m ρ c (Proc.devRef .tc (Pipeline.arrRef spec6 w)) = (dat6 (U11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
/-- The same read at the TensorCore's references. -/
abbrev U12 : (c : Dev nD) → (b : Ref sig .tc) → Buf (Elt F) ((c : Thread nD τ).loc b) := fun c b => W12 m ρ c b
theorem hF6 (c : Dev nD) (w : Fin cfg6.W) : (dat6 (U11 m ρ) c).arrAt w cfg6.N = U12 m ρ c (Pipeline.arrRef spec6 w) :=
  (W12_arr m ρ c w).symm
theorem hrest6 (c : Dev nD) : ∀ b, b ∉ Finset.univ.image (Pipeline.arrRef spec6) → U12 m ρ c b = U11 m ρ c b :=
  fun b hb => W12_of_ne m ρ c b fun w e => hb (Finset.mem_image.mpr ⟨w, Finset.mem_univ _, e⟩)
/-- An input window's array leaves the region as it entered. -/
theorem W12_in (c : Dev nD) (w : Fin cfg6.W) (hin : (cfg6.win w).isOut = false) :
    W12 m ρ c (Proc.devRef .tc (Pipeline.arrRef spec6 w)) = W11 m ρ c (Proc.devRef .tc (Pipeline.arrRef spec6 w)) :=
  (W12_arr m ρ c w).trans (((dat6 (U11 m ρ) c).arrAt_in w hin _).trans (A_eq6 (U11 m ρ) c w))

/-! ## The arguments end as launched: no host stretch writes one, and a region either stages it through an input window or
    does not touch it -/

theorem W12_main_arg0 (c : Dev nD) : W12 m ρ c (Proc.devRef .tc main_arg0) = m ((c : Thread nD τ).loc main_arg0) :=
  (W12_of_ne m ρ c main_arg0 (by decide)).trans <|
  (W11_keep m ρ c main_arg0 (by decide)).trans <|
  (W10_of_ne m ρ c main_arg0 (by decide)).trans <|
  (W9_keep m ρ c main_arg0 (by decide)).trans <|
  (W8_of_ne m ρ c main_arg0 (by decide)).trans <|
  (W7_of_ne m ρ c main_arg0 (by decide)).trans <|
  (W6_keep m ρ c main_arg0 (by decide)).trans <|
  (W5_of_ne m ρ c main_arg0 (by decide)).trans <|
  (W4_of_ne m ρ c main_arg0 (by decide)).trans <|
  (W3_keep m ρ c main_arg0 (by decide)).trans <|
  (W2_in m ρ c 0 rfl).trans <|
  (W1_keep m ρ c main_arg0 (by decide)).trans rfl
theorem W12_main_arg1 (c : Dev nD) : W12 m ρ c (Proc.devRef .tc main_arg1) = m ((c : Thread nD τ).loc main_arg1) :=
  (W12_of_ne m ρ c main_arg1 (by decide)).trans <|
  (W11_keep m ρ c main_arg1 (by decide)).trans <|
  (W10_of_ne m ρ c main_arg1 (by decide)).trans <|
  (W9_keep m ρ c main_arg1 (by decide)).trans <|
  (W8_of_ne m ρ c main_arg1 (by decide)).trans <|
  (W7_of_ne m ρ c main_arg1 (by decide)).trans <|
  (W6_keep m ρ c main_arg1 (by decide)).trans <|
  (W5_of_ne m ρ c main_arg1 (by decide)).trans <|
  (W4_of_ne m ρ c main_arg1 (by decide)).trans <|
  (W3_keep m ρ c main_arg1 (by decide)).trans <|
  (W2_of_ne m ρ c main_arg1 (by decide)).trans <|
  (W1_keep m ρ c main_arg1 (by decide)).trans rfl
theorem W12_main_arg2 (c : Dev nD) : W12 m ρ c (Proc.devRef .tc main_arg2) = m ((c : Thread nD τ).loc main_arg2) :=
  (W12_of_ne m ρ c main_arg2 (by decide)).trans <|
  (W11_keep m ρ c main_arg2 (by decide)).trans <|
  (W10_of_ne m ρ c main_arg2 (by decide)).trans <|
  (W9_keep m ρ c main_arg2 (by decide)).trans <|
  (W8_of_ne m ρ c main_arg2 (by decide)).trans <|
  (W7_of_ne m ρ c main_arg2 (by decide)).trans <|
  (W6_keep m ρ c main_arg2 (by decide)).trans <|
  (W5_of_ne m ρ c main_arg2 (by decide)).trans <|
  (W4_of_ne m ρ c main_arg2 (by decide)).trans <|
  (W3_keep m ρ c main_arg2 (by decide)).trans <|
  (W2_of_ne m ρ c main_arg2 (by decide)).trans <|
  (W1_keep m ρ c main_arg2 (by decide)).trans rfl
theorem W12_main_arg3 (c : Dev nD) : W12 m ρ c (Proc.devRef .tc main_arg3) = m ((c : Thread nD τ).loc main_arg3) :=
  (W12_of_ne m ρ c main_arg3 (by decide)).trans <|
  (W11_keep m ρ c main_arg3 (by decide)).trans <|
  (W10_of_ne m ρ c main_arg3 (by decide)).trans <|
  (W9_keep m ρ c main_arg3 (by decide)).trans <|
  (W8_of_ne m ρ c main_arg3 (by decide)).trans <|
  (W7_of_ne m ρ c main_arg3 (by decide)).trans <|
  (W6_keep m ρ c main_arg3 (by decide)).trans <|
  (W5_of_ne m ρ c main_arg3 (by decide)).trans <|
  (W4_of_ne m ρ c main_arg3 (by decide)).trans <|
  (W3_keep m ρ c main_arg3 (by decide)).trans <|
  (W2_of_ne m ρ c main_arg3 (by decide)).trans <|
  (W1_keep m ρ c main_arg3 (by decide)).trans rfl
theorem W12_main_arg4 (c : Dev nD) : W12 m ρ c (Proc.devRef .tc main_arg4) = m ((c : Thread nD τ).loc main_arg4) :=
  (W12_of_ne m ρ c main_arg4 (by decide)).trans <|
  (W11_keep m ρ c main_arg4 (by decide)).trans <|
  (W10_of_ne m ρ c main_arg4 (by decide)).trans <|
  (W9_keep m ρ c main_arg4 (by decide)).trans <|
  (W8_of_ne m ρ c main_arg4 (by decide)).trans <|
  (W7_of_ne m ρ c main_arg4 (by decide)).trans <|
  (W6_keep m ρ c main_arg4 (by decide)).trans <|
  (W5_of_ne m ρ c main_arg4 (by decide)).trans <|
  (W4_of_ne m ρ c main_arg4 (by decide)).trans <|
  (W3_keep m ρ c main_arg4 (by decide)).trans <|
  (W2_of_ne m ρ c main_arg4 (by decide)).trans <|
  (W1_keep m ρ c main_arg4 (by decide)).trans rfl
theorem W12_main_arg5 (c : Dev nD) : W12 m ρ c (Proc.devRef .tc main_arg5) = m ((c : Thread nD τ).loc main_arg5) :=
  (W12_of_ne m ρ c main_arg5 (by decide)).trans <|
  (W11_keep m ρ c main_arg5 (by decide)).trans <|
  (W10_of_ne m ρ c main_arg5 (by decide)).trans <|
  (W9_keep m ρ c main_arg5 (by decide)).trans <|
  (W8_of_ne m ρ c main_arg5 (by decide)).trans <|
  (W7_of_ne m ρ c main_arg5 (by decide)).trans <|
  (W6_keep m ρ c main_arg5 (by decide)).trans <|
  (W5_of_ne m ρ c main_arg5 (by decide)).trans <|
  (W4_of_ne m ρ c main_arg5 (by decide)).trans <|
  (W3_keep m ρ c main_arg5 (by decide)).trans <|
  (W2_in m ρ c 1 rfl).trans <|
  (W1_keep m ρ c main_arg5 (by decide)).trans rfl
theorem W12_main_arg6 (c : Dev nD) : W12 m ρ c (Proc.devRef .tc main_arg6) = m ((c : Thread nD τ).loc main_arg6) :=
  (W12_of_ne m ρ c main_arg6 (by decide)).trans <|
  (W11_keep m ρ c main_arg6 (by decide)).trans <|
  (W10_of_ne m ρ c main_arg6 (by decide)).trans <|
  (W9_keep m ρ c main_arg6 (by decide)).trans <|
  (W8_of_ne m ρ c main_arg6 (by decide)).trans <|
  (W7_of_ne m ρ c main_arg6 (by decide)).trans <|
  (W6_keep m ρ c main_arg6 (by decide)).trans <|
  (W5_of_ne m ρ c main_arg6 (by decide)).trans <|
  (W4_of_ne m ρ c main_arg6 (by decide)).trans <|
  (W3_keep m ρ c main_arg6 (by decide)).trans <|
  (W2_of_ne m ρ c main_arg6 (by decide)).trans <|
  (W1_keep m ρ c main_arg6 (by decide)).trans rfl
theorem W12_main_arg7 (c : Dev nD) : W12 m ρ c (Proc.devRef .tc main_arg7) = m ((c : Thread nD τ).loc main_arg7) :=
  (W12_of_ne m ρ c main_arg7 (by decide)).trans <|
  (W11_keep m ρ c main_arg7 (by decide)).trans <|
  (W10_of_ne m ρ c main_arg7 (by decide)).trans <|
  (W9_keep m ρ c main_arg7 (by decide)).trans <|
  (W8_of_ne m ρ c main_arg7 (by decide)).trans <|
  (W7_of_ne m ρ c main_arg7 (by decide)).trans <|
  (W6_keep m ρ c main_arg7 (by decide)).trans <|
  (W5_in m ρ c 1 rfl).trans <|
  (W4_of_ne m ρ c main_arg7 (by decide)).trans <|
  (W3_keep m ρ c main_arg7 (by decide)).trans <|
  (W2_of_ne m ρ c main_arg7 (by decide)).trans <|
  (W1_keep m ρ c main_arg7 (by decide)).trans rfl
theorem W12_main_arg8 (c : Dev nD) : W12 m ρ c (Proc.devRef .tc main_arg8) = m ((c : Thread nD τ).loc main_arg8) :=
  (W12_of_ne m ρ c main_arg8 (by decide)).trans <|
  (W11_keep m ρ c main_arg8 (by decide)).trans <|
  (W10_of_ne m ρ c main_arg8 (by decide)).trans <|
  (W9_keep m ρ c main_arg8 (by decide)).trans <|
  (W8_of_ne m ρ c main_arg8 (by decide)).trans <|
  (W7_of_ne m ρ c main_arg8 (by decide)).trans <|
  (W6_keep m ρ c main_arg8 (by decide)).trans <|
  (W5_of_ne m ρ c main_arg8 (by decide)).trans <|
  (W4_of_ne m ρ c main_arg8 (by decide)).trans <|
  (W3_keep m ρ c main_arg8 (by decide)).trans <|
  (W2_of_ne m ρ c main_arg8 (by decide)).trans <|
  (W1_keep m ρ c main_arg8 (by decide)).trans rfl
theorem W12_main_arg9 (c : Dev nD) : W12 m ρ c (Proc.devRef .tc main_arg9) = m ((c : Thread nD τ).loc main_arg9) :=
  (W12_of_ne m ρ c main_arg9 (by decide)).trans <|
  (W11_keep m ρ c main_arg9 (by decide)).trans <|
  (W10_of_ne m ρ c main_arg9 (by decide)).trans <|
  (W9_keep m ρ c main_arg9 (by decide)).trans <|
  (W8_in m ρ c 1 rfl).trans <|
  (W7_of_ne m ρ c main_arg9 (by decide)).trans <|
  (W6_keep m ρ c main_arg9 (by decide)).trans <|
  (W5_of_ne m ρ c main_arg9 (by decide)).trans <|
  (W4_of_ne m ρ c main_arg9 (by decide)).trans <|
  (W3_keep m ρ c main_arg9 (by decide)).trans <|
  (W2_of_ne m ρ c main_arg9 (by decide)).trans <|
  (W1_keep m ρ c main_arg9 (by decide)).trans rfl
theorem W12_main_arg10 (c : Dev nD) : W12 m ρ c (Proc.devRef .tc main_arg10) = m ((c : Thread nD τ).loc main_arg10) :=
  (W12_of_ne m ρ c main_arg10 (by decide)).trans <|
  (W11_keep m ρ c main_arg10 (by decide)).trans <|
  (W10_of_ne m ρ c main_arg10 (by decide)).trans <|
  (W9_keep m ρ c main_arg10 (by decide)).trans <|
  (W8_of_ne m ρ c main_arg10 (by decide)).trans <|
  (W7_of_ne m ρ c main_arg10 (by decide)).trans <|
  (W6_keep m ρ c main_arg10 (by decide)).trans <|
  (W5_of_ne m ρ c main_arg10 (by decide)).trans <|
  (W4_of_ne m ρ c main_arg10 (by decide)).trans <|
  (W3_keep m ρ c main_arg10 (by decide)).trans <|
  (W2_of_ne m ρ c main_arg10 (by decide)).trans <|
  (W1_keep m ρ c main_arg10 (by decide)).trans rfl
theorem W12_main_arg11 (c : Dev nD) : W12 m ρ c (Proc.devRef .tc main_arg11) = m ((c : Thread nD τ).loc main_arg11) :=
  (W12_in m ρ c 1 rfl).trans <|
  (W11_keep m ρ c main_arg11 (by decide)).trans <|
  (W10_of_ne m ρ c main_arg11 (by decide)).trans <|
  (W9_keep m ρ c main_arg11 (by decide)).trans <|
  (W8_of_ne m ρ c main_arg11 (by decide)).trans <|
  (W7_of_ne m ρ c main_arg11 (by decide)).trans <|
  (W6_keep m ρ c main_arg11 (by decide)).trans <|
  (W5_of_ne m ρ c main_arg11 (by decide)).trans <|
  (W4_of_ne m ρ c main_arg11 (by decide)).trans <|
  (W3_keep m ρ c main_arg11 (by decide)).trans <|
  (W2_of_ne m ρ c main_arg11 (by decide)).trans <|
  (W1_keep m ρ c main_arg11 (by decide)).trans rfl
theorem W12_main_arg12 (c : Dev nD) : W12 m ρ c (Proc.devRef .tc main_arg12) = m ((c : Thread nD τ).loc main_arg12) :=
  (W12_of_ne m ρ c main_arg12 (by decide)).trans <|
  (W11_keep m ρ c main_arg12 (by decide)).trans <|
  (W10_of_ne m ρ c main_arg12 (by decide)).trans <|
  (W9_keep m ρ c main_arg12 (by decide)).trans <|
  (W8_of_ne m ρ c main_arg12 (by decide)).trans <|
  (W7_of_ne m ρ c main_arg12 (by decide)).trans <|
  (W6_keep m ρ c main_arg12 (by decide)).trans <|
  (W5_of_ne m ρ c main_arg12 (by decide)).trans <|
  (W4_of_ne m ρ c main_arg12 (by decide)).trans <|
  (W3_keep m ρ c main_arg12 (by decide)).trans <|
  (W2_of_ne m ρ c main_arg12 (by decide)).trans <|
  (W1_keep m ρ c main_arg12 (by decide)).trans rfl
theorem W12_main_arg13 (c : Dev nD) : W12 m ρ c (Proc.devRef .tc main_arg13) = m ((c : Thread nD τ).loc main_arg13) :=
  (W12_in m ρ c 3 rfl).trans <|
  (W11_keep m ρ c main_arg13 (by decide)).trans <|
  (W10_of_ne m ρ c main_arg13 (by decide)).trans <|
  (W9_keep m ρ c main_arg13 (by decide)).trans <|
  (W8_of_ne m ρ c main_arg13 (by decide)).trans <|
  (W7_of_ne m ρ c main_arg13 (by decide)).trans <|
  (W6_keep m ρ c main_arg13 (by decide)).trans <|
  (W5_of_ne m ρ c main_arg13 (by decide)).trans <|
  (W4_of_ne m ρ c main_arg13 (by decide)).trans <|
  (W3_keep m ρ c main_arg13 (by decide)).trans <|
  (W2_of_ne m ρ c main_arg13 (by decide)).trans <|
  (W1_keep m ρ c main_arg13 (by decide)).trans rfl
theorem W12_main_arg14 (c : Dev nD) : W12 m ρ c (Proc.devRef .tc main_arg14) = m ((c : Thread nD τ).loc main_arg14) :=
  (W12_of_ne m ρ c main_arg14 (by decide)).trans <|
  (W11_keep m ρ c main_arg14 (by decide)).trans <|
  (W10_of_ne m ρ c main_arg14 (by decide)).trans <|
  (W9_keep m ρ c main_arg14 (by decide)).trans <|
  (W8_of_ne m ρ c main_arg14 (by decide)).trans <|
  (W7_of_ne m ρ c main_arg14 (by decide)).trans <|
  (W6_keep m ρ c main_arg14 (by decide)).trans <|
  (W5_of_ne m ρ c main_arg14 (by decide)).trans <|
  (W4_of_ne m ρ c main_arg14 (by decide)).trans <|
  (W3_keep m ρ c main_arg14 (by decide)).trans <|
  (W2_of_ne m ρ c main_arg14 (by decide)).trans <|
  (W1_keep m ρ c main_arg14 (by decide)).trans rfl

/-! ## The proof data family and the thread state -/

/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U4 m ρ) c
  | ⟨3, _⟩ => fun c => dat3 (U6 m ρ) c
  | ⟨4, _⟩ => fun c => dat4 (U7 m ρ) c
  | ⟨5, _⟩ => fun c => dat5 (U9 m ρ) c
  | ⟨6, _⟩ => fun c => dat6 (U11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- Region 0: entered from every unscoped buffer at `W1`, left at `W2`.  Its arrays are split out of the unscoped
    buffers at entry and put back at the exit contents; the generator register goes into the pipeline's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`.  Its arrays are split out of the unscoped
    buffers at entry and put back at the exit contents; the generator register goes into the pipeline's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W4`, left at `W5`.  Its arrays are split out of the unscoped
    buffers at entry and put back at the exit contents; the generator register goes into the pipeline's invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U4 m ρ c) (U5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W6`, left at `W7`.  Its arrays are split out of the unscoped
    buffers at entry and put back at the exit contents; the generator register goes into the pipeline's invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (U6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U6 m ρ c) (U7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W7`, left at `W8`.  Its arrays are split out of the unscoped
    buffers at entry and put back at the exit contents; the generator register goes into the pipeline's invariant and
    comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (U7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (U7 m ρ c) (U8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W9`, left at `W10`.  Its arrays are split out of the unscoped
    buffers at entry and put back at the exit contents; the generator register goes into the pipeline's invariant and
    comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec5 c (U9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (U9 m ρ c) (U10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at `W11`, left at `W12`.  Its arrays are split out of the unscoped
    buffers at entry and put back at the exit contents; the generator register goes into the pipeline's invariant and
    comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (U11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (U11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (U11 m ρ c) (U12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's twelve segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .host (hseg hostOps6 hostOps6_sub hostOps6_fresh (W10 m ρ)),
    .region (reg6 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and in
    every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl,
      fun c => by
        show iprop(StableHlo.held (c : Thread nD τ) (Pipeline.ucRefs τ sig) (W12 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- The frame: every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c),
     (h c _ (mem_uc main_arg12 (by decide))).trans (W12_main_arg12 m ρ c),
     (h c _ (mem_uc main_arg13 (by decide))).trans (W12_main_arg13 m ρ c),
     (h c _ (mem_uc main_arg14 (by decide))).trans (W12_main_arg14 m ρ c)⟩) (run_all m ρ)

end Cert.KernelIdeal.Run

end
-- ==== Proof.KI.Carry.lean ====
/-
  Buffers that keep their contents across later segments of the kernel's program.  An argument array is written by no
  host operation and by no region (a region that stages it through an input window leaves it as entered), so at every
  segment boundary it holds its launch contents.  The edge sources and targets, the column dis·dis and the column of
  per-edge factors are written once, in the first stretch of host operations; every later boundary holds them as that
  stretch left them.  Each fact is one step back to the boundary before, by the reason that applies to that segment.
-/
import proofs.«131909_j56581899158174_1_alg».proof.Proof.KI.Run

set_option maxRecDepth 16384

noncomputable section

namespace Cert.KernelIdeal.Run

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-! ## The arguments at every boundary -/

theorem W0_main_arg0 (c : Dev nD) : W0 m ρ c (Proc.devRef .tc main_arg0) = m ((c : Thread nD τ).loc main_arg0) := rfl
theorem W1_main_arg0 (c : Dev nD) : W1 m ρ c (Proc.devRef .tc main_arg0) = m ((c : Thread nD τ).loc main_arg0) :=
  (W1_keep m ρ c main_arg0 (by decide)).trans (W0_main_arg0 m ρ c)
theorem W2_main_arg0 (c : Dev nD) : W2 m ρ c (Proc.devRef .tc main_arg0) = m ((c : Thread nD τ).loc main_arg0) :=
  (W2_in m ρ c 0 rfl).trans (W1_main_arg0 m ρ c)
theorem W3_main_arg0 (c : Dev nD) : W3 m ρ c (Proc.devRef .tc main_arg0) = m ((c : Thread nD τ).loc main_arg0) :=
  (W3_keep m ρ c main_arg0 (by decide)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (W5_of_ne m ρ c main_arg0 (by decide)).trans (W4_main_arg0 m ρ c)
theorem W6_main_arg0 (c : Dev nD) : W6 m ρ c (Proc.devRef .tc main_arg0) = m ((c : Thread nD τ).loc main_arg0) :=
  (W6_keep m ρ c main_arg0 (by decide)).trans (W5_main_arg0 m ρ c)
theorem W7_main_arg0 (c : Dev nD) : W7 m ρ c (Proc.devRef .tc main_arg0) = m ((c : Thread nD τ).loc main_arg0) :=
  (W7_of_ne m ρ c main_arg0 (by decide)).trans (W6_main_arg0 m ρ c)
theorem W8_main_arg0 (c : Dev nD) : W8 m ρ c (Proc.devRef .tc main_arg0) = m ((c : Thread nD τ).loc main_arg0) :=
  (W8_of_ne m ρ c main_arg0 (by decide)).trans (W7_main_arg0 m ρ c)
theorem W9_main_arg0 (c : Dev nD) : W9 m ρ c (Proc.devRef .tc main_arg0) = m ((c : Thread nD τ).loc main_arg0) :=
  (W9_keep m ρ c main_arg0 (by decide)).trans (W8_main_arg0 m ρ c)
theorem W10_main_arg0 (c : Dev nD) : W10 m ρ c (Proc.devRef .tc main_arg0) = m ((c : Thread nD τ).loc main_arg0) :=
  (W10_of_ne m ρ c main_arg0 (by decide)).trans (W9_main_arg0 m ρ c)
theorem W11_main_arg0 (c : Dev nD) : W11 m ρ c (Proc.devRef .tc main_arg0) = m ((c : Thread nD τ).loc main_arg0) :=
  (W11_keep m ρ c main_arg0 (by decide)).trans (W10_main_arg0 m ρ c)

theorem W0_main_arg1 (c : Dev nD) : W0 m ρ c (Proc.devRef .tc main_arg1) = m ((c : Thread nD τ).loc main_arg1) := rfl
theorem W1_main_arg1 (c : Dev nD) : W1 m ρ c (Proc.devRef .tc main_arg1) = m ((c : Thread nD τ).loc main_arg1) :=
  (W1_keep m ρ c main_arg1 (by decide)).trans (W0_main_arg1 m ρ c)
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (W3_keep m ρ c main_arg1 (by decide)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (W5_of_ne m ρ c main_arg1 (by decide)).trans (W4_main_arg1 m ρ c)
theorem W6_main_arg1 (c : Dev nD) : W6 m ρ c (Proc.devRef .tc main_arg1) = m ((c : Thread nD τ).loc main_arg1) :=
  (W6_keep m ρ c main_arg1 (by decide)).trans (W5_main_arg1 m ρ c)
theorem W7_main_arg1 (c : Dev nD) : W7 m ρ c (Proc.devRef .tc main_arg1) = m ((c : Thread nD τ).loc main_arg1) :=
  (W7_of_ne m ρ c main_arg1 (by decide)).trans (W6_main_arg1 m ρ c)
theorem W8_main_arg1 (c : Dev nD) : W8 m ρ c (Proc.devRef .tc main_arg1) = m ((c : Thread nD τ).loc main_arg1) :=
  (W8_of_ne m ρ c main_arg1 (by decide)).trans (W7_main_arg1 m ρ c)
theorem W9_main_arg1 (c : Dev nD) : W9 m ρ c (Proc.devRef .tc main_arg1) = m ((c : Thread nD τ).loc main_arg1) :=
  (W9_keep m ρ c main_arg1 (by decide)).trans (W8_main_arg1 m ρ c)
theorem W10_main_arg1 (c : Dev nD) : W10 m ρ c (Proc.devRef .tc main_arg1) = m ((c : Thread nD τ).loc main_arg1) :=
  (W10_of_ne m ρ c main_arg1 (by decide)).trans (W9_main_arg1 m ρ c)
theorem W11_main_arg1 (c : Dev nD) : W11 m ρ c (Proc.devRef .tc main_arg1) = m ((c : Thread nD τ).loc main_arg1) :=
  (W11_keep m ρ c main_arg1 (by decide)).trans (W10_main_arg1 m ρ c)

theorem W0_main_arg2 (c : Dev nD) : W0 m ρ c (Proc.devRef .tc main_arg2) = m ((c : Thread nD τ).loc main_arg2) := rfl
theorem W1_main_arg2 (c : Dev nD) : W1 m ρ c (Proc.devRef .tc main_arg2) = m ((c : Thread nD τ).loc main_arg2) :=
  (W1_keep m ρ c main_arg2 (by decide)).trans (W0_main_arg2 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (W3_keep m ρ c main_arg2 (by decide)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (W5_of_ne m ρ c main_arg2 (by decide)).trans (W4_main_arg2 m ρ c)
theorem W6_main_arg2 (c : Dev nD) : W6 m ρ c (Proc.devRef .tc main_arg2) = m ((c : Thread nD τ).loc main_arg2) :=
  (W6_keep m ρ c main_arg2 (by decide)).trans (W5_main_arg2 m ρ c)
theorem W7_main_arg2 (c : Dev nD) : W7 m ρ c (Proc.devRef .tc main_arg2) = m ((c : Thread nD τ).loc main_arg2) :=
  (W7_of_ne m ρ c main_arg2 (by decide)).trans (W6_main_arg2 m ρ c)
theorem W8_main_arg2 (c : Dev nD) : W8 m ρ c (Proc.devRef .tc main_arg2) = m ((c : Thread nD τ).loc main_arg2) :=
  (W8_of_ne m ρ c main_arg2 (by decide)).trans (W7_main_arg2 m ρ c)
theorem W9_main_arg2 (c : Dev nD) : W9 m ρ c (Proc.devRef .tc main_arg2) = m ((c : Thread nD τ).loc main_arg2) :=
  (W9_keep m ρ c main_arg2 (by decide)).trans (W8_main_arg2 m ρ c)
theorem W10_main_arg2 (c : Dev nD) : W10 m ρ c (Proc.devRef .tc main_arg2) = m ((c : Thread nD τ).loc main_arg2) :=
  (W10_of_ne m ρ c main_arg2 (by decide)).trans (W9_main_arg2 m ρ c)
theorem W11_main_arg2 (c : Dev nD) : W11 m ρ c (Proc.devRef .tc main_arg2) = m ((c : Thread nD τ).loc main_arg2) :=
  (W11_keep m ρ c main_arg2 (by decide)).trans (W10_main_arg2 m ρ c)

theorem W0_main_arg3 (c : Dev nD) : W0 m ρ c (Proc.devRef .tc main_arg3) = m ((c : Thread nD τ).loc main_arg3) := rfl
theorem W1_main_arg3 (c : Dev nD) : W1 m ρ c (Proc.devRef .tc main_arg3) = m ((c : Thread nD τ).loc main_arg3) :=
  (W1_keep m ρ c main_arg3 (by decide)).trans (W0_main_arg3 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (W3_keep m ρ c main_arg3 (by decide)).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (W5_of_ne m ρ c main_arg3 (by decide)).trans (W4_main_arg3 m ρ c)
theorem W6_main_arg3 (c : Dev nD) : W6 m ρ c (Proc.devRef .tc main_arg3) = m ((c : Thread nD τ).loc main_arg3) :=
  (W6_keep m ρ c main_arg3 (by decide)).trans (W5_main_arg3 m ρ c)
theorem W7_main_arg3 (c : Dev nD) : W7 m ρ c (Proc.devRef .tc main_arg3) = m ((c : Thread nD τ).loc main_arg3) :=
  (W7_of_ne m ρ c main_arg3 (by decide)).trans (W6_main_arg3 m ρ c)
theorem W8_main_arg3 (c : Dev nD) : W8 m ρ c (Proc.devRef .tc main_arg3) = m ((c : Thread nD τ).loc main_arg3) :=
  (W8_of_ne m ρ c main_arg3 (by decide)).trans (W7_main_arg3 m ρ c)
theorem W9_main_arg3 (c : Dev nD) : W9 m ρ c (Proc.devRef .tc main_arg3) = m ((c : Thread nD τ).loc main_arg3) :=
  (W9_keep m ρ c main_arg3 (by decide)).trans (W8_main_arg3 m ρ c)
theorem W10_main_arg3 (c : Dev nD) : W10 m ρ c (Proc.devRef .tc main_arg3) = m ((c : Thread nD τ).loc main_arg3) :=
  (W10_of_ne m ρ c main_arg3 (by decide)).trans (W9_main_arg3 m ρ c)
theorem W11_main_arg3 (c : Dev nD) : W11 m ρ c (Proc.devRef .tc main_arg3) = m ((c : Thread nD τ).loc main_arg3) :=
  (W11_keep m ρ c main_arg3 (by decide)).trans (W10_main_arg3 m ρ c)

theorem W0_main_arg4 (c : Dev nD) : W0 m ρ c (Proc.devRef .tc main_arg4) = m ((c : Thread nD τ).loc main_arg4) := rfl
theorem W1_main_arg4 (c : Dev nD) : W1 m ρ c (Proc.devRef .tc main_arg4) = m ((c : Thread nD τ).loc main_arg4) :=
  (W1_keep m ρ c main_arg4 (by decide)).trans (W0_main_arg4 m ρ c)
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (W3_keep m ρ c main_arg4 (by decide)).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (W5_of_ne m ρ c main_arg4 (by decide)).trans (W4_main_arg4 m ρ c)
theorem W6_main_arg4 (c : Dev nD) : W6 m ρ c (Proc.devRef .tc main_arg4) = m ((c : Thread nD τ).loc main_arg4) :=
  (W6_keep m ρ c main_arg4 (by decide)).trans (W5_main_arg4 m ρ c)
theorem W7_main_arg4 (c : Dev nD) : W7 m ρ c (Proc.devRef .tc main_arg4) = m ((c : Thread nD τ).loc main_arg4) :=
  (W7_of_ne m ρ c main_arg4 (by decide)).trans (W6_main_arg4 m ρ c)
theorem W8_main_arg4 (c : Dev nD) : W8 m ρ c (Proc.devRef .tc main_arg4) = m ((c : Thread nD τ).loc main_arg4) :=
  (W8_of_ne m ρ c main_arg4 (by decide)).trans (W7_main_arg4 m ρ c)
theorem W9_main_arg4 (c : Dev nD) : W9 m ρ c (Proc.devRef .tc main_arg4) = m ((c : Thread nD τ).loc main_arg4) :=
  (W9_keep m ρ c main_arg4 (by decide)).trans (W8_main_arg4 m ρ c)
theorem W10_main_arg4 (c : Dev nD) : W10 m ρ c (Proc.devRef .tc main_arg4) = m ((c : Thread nD τ).loc main_arg4) :=
  (W10_of_ne m ρ c main_arg4 (by decide)).trans (W9_main_arg4 m ρ c)
theorem W11_main_arg4 (c : Dev nD) : W11 m ρ c (Proc.devRef .tc main_arg4) = m ((c : Thread nD τ).loc main_arg4) :=
  (W11_keep m ρ c main_arg4 (by decide)).trans (W10_main_arg4 m ρ c)

theorem W0_main_arg5 (c : Dev nD) : W0 m ρ c (Proc.devRef .tc main_arg5) = m ((c : Thread nD τ).loc main_arg5) := rfl
theorem W1_main_arg5 (c : Dev nD) : W1 m ρ c (Proc.devRef .tc main_arg5) = m ((c : Thread nD τ).loc main_arg5) :=
  (W1_keep m ρ c main_arg5 (by decide)).trans (W0_main_arg5 m ρ c)
theorem W2_main_arg5 (c : Dev nD) : W2 m ρ c (Proc.devRef .tc main_arg5) = m ((c : Thread nD τ).loc main_arg5) :=
  (W2_in m ρ c 1 rfl).trans (W1_main_arg5 m ρ c)
theorem W3_main_arg5 (c : Dev nD) : W3 m ρ c (Proc.devRef .tc main_arg5) = m ((c : Thread nD τ).loc main_arg5) :=
  (W3_keep m ρ c main_arg5 (by decide)).trans (W2_main_arg5 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W5_main_arg5 (c : Dev nD) : W5 m ρ c (Proc.devRef .tc main_arg5) = m ((c : Thread nD τ).loc main_arg5) :=
  (W5_of_ne m ρ c main_arg5 (by decide)).trans (W4_main_arg5 m ρ c)
theorem W6_main_arg5 (c : Dev nD) : W6 m ρ c (Proc.devRef .tc main_arg5) = m ((c : Thread nD τ).loc main_arg5) :=
  (W6_keep m ρ c main_arg5 (by decide)).trans (W5_main_arg5 m ρ c)
theorem W7_main_arg5 (c : Dev nD) : W7 m ρ c (Proc.devRef .tc main_arg5) = m ((c : Thread nD τ).loc main_arg5) :=
  (W7_of_ne m ρ c main_arg5 (by decide)).trans (W6_main_arg5 m ρ c)
theorem W8_main_arg5 (c : Dev nD) : W8 m ρ c (Proc.devRef .tc main_arg5) = m ((c : Thread nD τ).loc main_arg5) :=
  (W8_of_ne m ρ c main_arg5 (by decide)).trans (W7_main_arg5 m ρ c)
theorem W9_main_arg5 (c : Dev nD) : W9 m ρ c (Proc.devRef .tc main_arg5) = m ((c : Thread nD τ).loc main_arg5) :=
  (W9_keep m ρ c main_arg5 (by decide)).trans (W8_main_arg5 m ρ c)
theorem W10_main_arg5 (c : Dev nD) : W10 m ρ c (Proc.devRef .tc main_arg5) = m ((c : Thread nD τ).loc main_arg5) :=
  (W10_of_ne m ρ c main_arg5 (by decide)).trans (W9_main_arg5 m ρ c)
theorem W11_main_arg5 (c : Dev nD) : W11 m ρ c (Proc.devRef .tc main_arg5) = m ((c : Thread nD τ).loc main_arg5) :=
  (W11_keep m ρ c main_arg5 (by decide)).trans (W10_main_arg5 m ρ c)

theorem W0_main_arg6 (c : Dev nD) : W0 m ρ c (Proc.devRef .tc main_arg6) = m ((c : Thread nD τ).loc main_arg6) := rfl
theorem W1_main_arg6 (c : Dev nD) : W1 m ρ c (Proc.devRef .tc main_arg6) = m ((c : Thread nD τ).loc main_arg6) :=
  (W1_keep m ρ c main_arg6 (by decide)).trans (W0_main_arg6 m ρ c)
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (W3_keep m ρ c main_arg6 (by decide)).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (W5_of_ne m ρ c main_arg6 (by decide)).trans (W4_main_arg6 m ρ c)
theorem W6_main_arg6 (c : Dev nD) : W6 m ρ c (Proc.devRef .tc main_arg6) = m ((c : Thread nD τ).loc main_arg6) :=
  (W6_keep m ρ c main_arg6 (by decide)).trans (W5_main_arg6 m ρ c)
theorem W7_main_arg6 (c : Dev nD) : W7 m ρ c (Proc.devRef .tc main_arg6) = m ((c : Thread nD τ).loc main_arg6) :=
  (W7_of_ne m ρ c main_arg6 (by decide)).trans (W6_main_arg6 m ρ c)
theorem W8_main_arg6 (c : Dev nD) : W8 m ρ c (Proc.devRef .tc main_arg6) = m ((c : Thread nD τ).loc main_arg6) :=
  (W8_of_ne m ρ c main_arg6 (by decide)).trans (W7_main_arg6 m ρ c)
theorem W9_main_arg6 (c : Dev nD) : W9 m ρ c (Proc.devRef .tc main_arg6) = m ((c : Thread nD τ).loc main_arg6) :=
  (W9_keep m ρ c main_arg6 (by decide)).trans (W8_main_arg6 m ρ c)
theorem W10_main_arg6 (c : Dev nD) : W10 m ρ c (Proc.devRef .tc main_arg6) = m ((c : Thread nD τ).loc main_arg6) :=
  (W10_of_ne m ρ c main_arg6 (by decide)).trans (W9_main_arg6 m ρ c)
theorem W11_main_arg6 (c : Dev nD) : W11 m ρ c (Proc.devRef .tc main_arg6) = m ((c : Thread nD τ).loc main_arg6) :=
  (W11_keep m ρ c main_arg6 (by decide)).trans (W10_main_arg6 m ρ c)

theorem W0_main_arg7 (c : Dev nD) : W0 m ρ c (Proc.devRef .tc main_arg7) = m ((c : Thread nD τ).loc main_arg7) := rfl
theorem W1_main_arg7 (c : Dev nD) : W1 m ρ c (Proc.devRef .tc main_arg7) = m ((c : Thread nD τ).loc main_arg7) :=
  (W1_keep m ρ c main_arg7 (by decide)).trans (W0_main_arg7 m ρ c)
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  (W3_keep m ρ c main_arg7 (by decide)).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  (W5_in m ρ c 1 rfl).trans (W4_main_arg7 m ρ c)
theorem W6_main_arg7 (c : Dev nD) : W6 m ρ c (Proc.devRef .tc main_arg7) = m ((c : Thread nD τ).loc main_arg7) :=
  (W6_keep m ρ c main_arg7 (by decide)).trans (W5_main_arg7 m ρ c)
theorem W7_main_arg7 (c : Dev nD) : W7 m ρ c (Proc.devRef .tc main_arg7) = m ((c : Thread nD τ).loc main_arg7) :=
  (W7_of_ne m ρ c main_arg7 (by decide)).trans (W6_main_arg7 m ρ c)
theorem W8_main_arg7 (c : Dev nD) : W8 m ρ c (Proc.devRef .tc main_arg7) = m ((c : Thread nD τ).loc main_arg7) :=
  (W8_of_ne m ρ c main_arg7 (by decide)).trans (W7_main_arg7 m ρ c)
theorem W9_main_arg7 (c : Dev nD) : W9 m ρ c (Proc.devRef .tc main_arg7) = m ((c : Thread nD τ).loc main_arg7) :=
  (W9_keep m ρ c main_arg7 (by decide)).trans (W8_main_arg7 m ρ c)
theorem W10_main_arg7 (c : Dev nD) : W10 m ρ c (Proc.devRef .tc main_arg7) = m ((c : Thread nD τ).loc main_arg7) :=
  (W10_of_ne m ρ c main_arg7 (by decide)).trans (W9_main_arg7 m ρ c)
theorem W11_main_arg7 (c : Dev nD) : W11 m ρ c (Proc.devRef .tc main_arg7) = m ((c : Thread nD τ).loc main_arg7) :=
  (W11_keep m ρ c main_arg7 (by decide)).trans (W10_main_arg7 m ρ c)

theorem W0_main_arg8 (c : Dev nD) : W0 m ρ c (Proc.devRef .tc main_arg8) = m ((c : Thread nD τ).loc main_arg8) := rfl
theorem W1_main_arg8 (c : Dev nD) : W1 m ρ c (Proc.devRef .tc main_arg8) = m ((c : Thread nD τ).loc main_arg8) :=
  (W1_keep m ρ c main_arg8 (by decide)).trans (W0_main_arg8 m ρ c)
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) :=
  (W3_keep m ρ c main_arg8 (by decide)).trans (W2_main_arg8 m ρ c)
theorem W4_main_arg8 (c : Dev nD) : W4 m ρ c (Proc.devRef .tc main_arg8) = m ((c : Thread nD τ).loc main_arg8) :=
  (W4_of_ne m ρ c main_arg8 (by decide)).trans (W3_main_arg8 m ρ c)
theorem W5_main_arg8 (c : Dev nD) : W5 m ρ c (Proc.devRef .tc main_arg8) = m ((c : Thread nD τ).loc main_arg8) :=
  (W5_of_ne m ρ c main_arg8 (by decide)).trans (W4_main_arg8 m ρ c)
theorem W6_main_arg8 (c : Dev nD) : W6 m ρ c (Proc.devRef .tc main_arg8) = m ((c : Thread nD τ).loc main_arg8) :=
  (W6_keep m ρ c main_arg8 (by decide)).trans (W5_main_arg8 m ρ c)
theorem W7_main_arg8 (c : Dev nD) : W7 m ρ c (Proc.devRef .tc main_arg8) = m ((c : Thread nD τ).loc main_arg8) :=
  (W7_of_ne m ρ c main_arg8 (by decide)).trans (W6_main_arg8 m ρ c)
theorem W8_main_arg8 (c : Dev nD) : W8 m ρ c (Proc.devRef .tc main_arg8) = m ((c : Thread nD τ).loc main_arg8) :=
  (W8_of_ne m ρ c main_arg8 (by decide)).trans (W7_main_arg8 m ρ c)
theorem W9_main_arg8 (c : Dev nD) : W9 m ρ c (Proc.devRef .tc main_arg8) = m ((c : Thread nD τ).loc main_arg8) :=
  (W9_keep m ρ c main_arg8 (by decide)).trans (W8_main_arg8 m ρ c)
theorem W10_main_arg8 (c : Dev nD) : W10 m ρ c (Proc.devRef .tc main_arg8) = m ((c : Thread nD τ).loc main_arg8) :=
  (W10_of_ne m ρ c main_arg8 (by decide)).trans (W9_main_arg8 m ρ c)
theorem W11_main_arg8 (c : Dev nD) : W11 m ρ c (Proc.devRef .tc main_arg8) = m ((c : Thread nD τ).loc main_arg8) :=
  (W11_keep m ρ c main_arg8 (by decide)).trans (W10_main_arg8 m ρ c)

theorem W0_main_arg9 (c : Dev nD) : W0 m ρ c (Proc.devRef .tc main_arg9) = m ((c : Thread nD τ).loc main_arg9) := rfl
theorem W1_main_arg9 (c : Dev nD) : W1 m ρ c (Proc.devRef .tc main_arg9) = m ((c : Thread nD τ).loc main_arg9) :=
  (W1_keep m ρ c main_arg9 (by decide)).trans (W0_main_arg9 m ρ c)
theorem W2_main_arg9 (c : Dev nD) : W2 m ρ c (Proc.devRef .tc main_arg9) = m ((c : Thread nD τ).loc main_arg9) :=
  (W2_of_ne m ρ c main_arg9 (by decide)).trans (W1_main_arg9 m ρ c)
theorem W3_main_arg9 (c : Dev nD) : W3 m ρ c (Proc.devRef .tc main_arg9) = m ((c : Thread nD τ).loc main_arg9) :=
  (W3_keep m ρ c main_arg9 (by decide)).trans (W2_main_arg9 m ρ c)
theorem W4_main_arg9 (c : Dev nD) : W4 m ρ c (Proc.devRef .tc main_arg9) = m ((c : Thread nD τ).loc main_arg9) :=
  (W4_of_ne m ρ c main_arg9 (by decide)).trans (W3_main_arg9 m ρ c)
theorem W5_main_arg9 (c : Dev nD) : W5 m ρ c (Proc.devRef .tc main_arg9) = m ((c : Thread nD τ).loc main_arg9) :=
  (W5_of_ne m ρ c main_arg9 (by decide)).trans (W4_main_arg9 m ρ c)
theorem W6_main_arg9 (c : Dev nD) : W6 m ρ c (Proc.devRef .tc main_arg9) = m ((c : Thread nD τ).loc main_arg9) :=
  (W6_keep m ρ c main_arg9 (by decide)).trans (W5_main_arg9 m ρ c)
theorem W7_main_arg9 (c : Dev nD) : W7 m ρ c (Proc.devRef .tc main_arg9) = m ((c : Thread nD τ).loc main_arg9) :=
  (W7_of_ne m ρ c main_arg9 (by decide)).trans (W6_main_arg9 m ρ c)
theorem W8_main_arg9 (c : Dev nD) : W8 m ρ c (Proc.devRef .tc main_arg9) = m ((c : Thread nD τ).loc main_arg9) :=
  (W8_in m ρ c 1 rfl).trans (W7_main_arg9 m ρ c)
theorem W9_main_arg9 (c : Dev nD) : W9 m ρ c (Proc.devRef .tc main_arg9) = m ((c : Thread nD τ).loc main_arg9) :=
  (W9_keep m ρ c main_arg9 (by decide)).trans (W8_main_arg9 m ρ c)
theorem W10_main_arg9 (c : Dev nD) : W10 m ρ c (Proc.devRef .tc main_arg9) = m ((c : Thread nD τ).loc main_arg9) :=
  (W10_of_ne m ρ c main_arg9 (by decide)).trans (W9_main_arg9 m ρ c)
theorem W11_main_arg9 (c : Dev nD) : W11 m ρ c (Proc.devRef .tc main_arg9) = m ((c : Thread nD τ).loc main_arg9) :=
  (W11_keep m ρ c main_arg9 (by decide)).trans (W10_main_arg9 m ρ c)

theorem W0_main_arg10 (c : Dev nD) : W0 m ρ c (Proc.devRef .tc main_arg10) = m ((c : Thread nD τ).loc main_arg10) := rfl
theorem W1_main_arg10 (c : Dev nD) : W1 m ρ c (Proc.devRef .tc main_arg10) = m ((c : Thread nD τ).loc main_arg10) :=
  (W1_keep m ρ c main_arg10 (by decide)).trans (W0_main_arg10 m ρ c)
theorem W2_main_arg10 (c : Dev nD) : W2 m ρ c (Proc.devRef .tc main_arg10) = m ((c : Thread nD τ).loc main_arg10) :=
  (W2_of_ne m ρ c main_arg10 (by decide)).trans (W1_main_arg10 m ρ c)
theorem W3_main_arg10 (c : Dev nD) : W3 m ρ c (Proc.devRef .tc main_arg10) = m ((c : Thread nD τ).loc main_arg10) :=
  (W3_keep m ρ c main_arg10 (by decide)).trans (W2_main_arg10 m ρ c)
theorem W4_main_arg10 (c : Dev nD) : W4 m ρ c (Proc.devRef .tc main_arg10) = m ((c : Thread nD τ).loc main_arg10) :=
  (W4_of_ne m ρ c main_arg10 (by decide)).trans (W3_main_arg10 m ρ c)
theorem W5_main_arg10 (c : Dev nD) : W5 m ρ c (Proc.devRef .tc main_arg10) = m ((c : Thread nD τ).loc main_arg10) :=
  (W5_of_ne m ρ c main_arg10 (by decide)).trans (W4_main_arg10 m ρ c)
theorem W6_main_arg10 (c : Dev nD) : W6 m ρ c (Proc.devRef .tc main_arg10) = m ((c : Thread nD τ).loc main_arg10) :=
  (W6_keep m ρ c main_arg10 (by decide)).trans (W5_main_arg10 m ρ c)
theorem W7_main_arg10 (c : Dev nD) : W7 m ρ c (Proc.devRef .tc main_arg10) = m ((c : Thread nD τ).loc main_arg10) :=
  (W7_of_ne m ρ c main_arg10 (by decide)).trans (W6_main_arg10 m ρ c)
theorem W8_main_arg10 (c : Dev nD) : W8 m ρ c (Proc.devRef .tc main_arg10) = m ((c : Thread nD τ).loc main_arg10) :=
  (W8_of_ne m ρ c main_arg10 (by decide)).trans (W7_main_arg10 m ρ c)
theorem W9_main_arg10 (c : Dev nD) : W9 m ρ c (Proc.devRef .tc main_arg10) = m ((c : Thread nD τ).loc main_arg10) :=
  (W9_keep m ρ c main_arg10 (by decide)).trans (W8_main_arg10 m ρ c)
theorem W10_main_arg10 (c : Dev nD) : W10 m ρ c (Proc.devRef .tc main_arg10) = m ((c : Thread nD τ).loc main_arg10) :=
  (W10_of_ne m ρ c main_arg10 (by decide)).trans (W9_main_arg10 m ρ c)
theorem W11_main_arg10 (c : Dev nD) : W11 m ρ c (Proc.devRef .tc main_arg10) = m ((c : Thread nD τ).loc main_arg10) :=
  (W11_keep m ρ c main_arg10 (by decide)).trans (W10_main_arg10 m ρ c)

theorem W0_main_arg11 (c : Dev nD) : W0 m ρ c (Proc.devRef .tc main_arg11) = m ((c : Thread nD τ).loc main_arg11) := rfl
theorem W1_main_arg11 (c : Dev nD) : W1 m ρ c (Proc.devRef .tc main_arg11) = m ((c : Thread nD τ).loc main_arg11) :=
  (W1_keep m ρ c main_arg11 (by decide)).trans (W0_main_arg11 m ρ c)
theorem W2_main_arg11 (c : Dev nD) : W2 m ρ c (Proc.devRef .tc main_arg11) = m ((c : Thread nD τ).loc main_arg11) :=
  (W2_of_ne m ρ c main_arg11 (by decide)).trans (W1_main_arg11 m ρ c)
theorem W3_main_arg11 (c : Dev nD) : W3 m ρ c (Proc.devRef .tc main_arg11) = m ((c : Thread nD τ).loc main_arg11) :=
  (W3_keep m ρ c main_arg11 (by decide)).trans (W2_main_arg11 m ρ c)
theorem W4_main_arg11 (c : Dev nD) : W4 m ρ c (Proc.devRef .tc main_arg11) = m ((c : Thread nD τ).loc main_arg11) :=
  (W4_of_ne m ρ c main_arg11 (by decide)).trans (W3_main_arg11 m ρ c)
theorem W5_main_arg11 (c : Dev nD) : W5 m ρ c (Proc.devRef .tc main_arg11) = m ((c : Thread nD τ).loc main_arg11) :=
  (W5_of_ne m ρ c main_arg11 (by decide)).trans (W4_main_arg11 m ρ c)
theorem W6_main_arg11 (c : Dev nD) : W6 m ρ c (Proc.devRef .tc main_arg11) = m ((c : Thread nD τ).loc main_arg11) :=
  (W6_keep m ρ c main_arg11 (by decide)).trans (W5_main_arg11 m ρ c)
theorem W7_main_arg11 (c : Dev nD) : W7 m ρ c (Proc.devRef .tc main_arg11) = m ((c : Thread nD τ).loc main_arg11) :=
  (W7_of_ne m ρ c main_arg11 (by decide)).trans (W6_main_arg11 m ρ c)
theorem W8_main_arg11 (c : Dev nD) : W8 m ρ c (Proc.devRef .tc main_arg11) = m ((c : Thread nD τ).loc main_arg11) :=
  (W8_of_ne m ρ c main_arg11 (by decide)).trans (W7_main_arg11 m ρ c)
theorem W9_main_arg11 (c : Dev nD) : W9 m ρ c (Proc.devRef .tc main_arg11) = m ((c : Thread nD τ).loc main_arg11) :=
  (W9_keep m ρ c main_arg11 (by decide)).trans (W8_main_arg11 m ρ c)
theorem W10_main_arg11 (c : Dev nD) : W10 m ρ c (Proc.devRef .tc main_arg11) = m ((c : Thread nD τ).loc main_arg11) :=
  (W10_of_ne m ρ c main_arg11 (by decide)).trans (W9_main_arg11 m ρ c)
theorem W11_main_arg11 (c : Dev nD) : W11 m ρ c (Proc.devRef .tc main_arg11) = m ((c : Thread nD τ).loc main_arg11) :=
  (W11_keep m ρ c main_arg11 (by decide)).trans (W10_main_arg11 m ρ c)

theorem W0_main_arg12 (c : Dev nD) : W0 m ρ c (Proc.devRef .tc main_arg12) = m ((c : Thread nD τ).loc main_arg12) := rfl
theorem W1_main_arg12 (c : Dev nD) : W1 m ρ c (Proc.devRef .tc main_arg12) = m ((c : Thread nD τ).loc main_arg12) :=
  (W1_keep m ρ c main_arg12 (by decide)).trans (W0_main_arg12 m ρ c)
theorem W2_main_arg12 (c : Dev nD) : W2 m ρ c (Proc.devRef .tc main_arg12) = m ((c : Thread nD τ).loc main_arg12) :=
  (W2_of_ne m ρ c main_arg12 (by decide)).trans (W1_main_arg12 m ρ c)
theorem W3_main_arg12 (c : Dev nD) : W3 m ρ c (Proc.devRef .tc main_arg12) = m ((c : Thread nD τ).loc main_arg12) :=
  (W3_keep m ρ c main_arg12 (by decide)).trans (W2_main_arg12 m ρ c)
theorem W4_main_arg12 (c : Dev nD) : W4 m ρ c (Proc.devRef .tc main_arg12) = m ((c : Thread nD τ).loc main_arg12) :=
  (W4_of_ne m ρ c main_arg12 (by decide)).trans (W3_main_arg12 m ρ c)
theorem W5_main_arg12 (c : Dev nD) : W5 m ρ c (Proc.devRef .tc main_arg12) = m ((c : Thread nD τ).loc main_arg12) :=
  (W5_of_ne m ρ c main_arg12 (by decide)).trans (W4_main_arg12 m ρ c)
theorem W6_main_arg12 (c : Dev nD) : W6 m ρ c (Proc.devRef .tc main_arg12) = m ((c : Thread nD τ).loc main_arg12) :=
  (W6_keep m ρ c main_arg12 (by decide)).trans (W5_main_arg12 m ρ c)
theorem W7_main_arg12 (c : Dev nD) : W7 m ρ c (Proc.devRef .tc main_arg12) = m ((c : Thread nD τ).loc main_arg12) :=
  (W7_of_ne m ρ c main_arg12 (by decide)).trans (W6_main_arg12 m ρ c)
theorem W8_main_arg12 (c : Dev nD) : W8 m ρ c (Proc.devRef .tc main_arg12) = m ((c : Thread nD τ).loc main_arg12) :=
  (W8_of_ne m ρ c main_arg12 (by decide)).trans (W7_main_arg12 m ρ c)
theorem W9_main_arg12 (c : Dev nD) : W9 m ρ c (Proc.devRef .tc main_arg12) = m ((c : Thread nD τ).loc main_arg12) :=
  (W9_keep m ρ c main_arg12 (by decide)).trans (W8_main_arg12 m ρ c)
theorem W10_main_arg12 (c : Dev nD) : W10 m ρ c (Proc.devRef .tc main_arg12) = m ((c : Thread nD τ).loc main_arg12) :=
  (W10_of_ne m ρ c main_arg12 (by decide)).trans (W9_main_arg12 m ρ c)
theorem W11_main_arg12 (c : Dev nD) : W11 m ρ c (Proc.devRef .tc main_arg12) = m ((c : Thread nD τ).loc main_arg12) :=
  (W11_keep m ρ c main_arg12 (by decide)).trans (W10_main_arg12 m ρ c)

theorem W0_main_arg13 (c : Dev nD) : W0 m ρ c (Proc.devRef .tc main_arg13) = m ((c : Thread nD τ).loc main_arg13) := rfl
theorem W1_main_arg13 (c : Dev nD) : W1 m ρ c (Proc.devRef .tc main_arg13) = m ((c : Thread nD τ).loc main_arg13) :=
  (W1_keep m ρ c main_arg13 (by decide)).trans (W0_main_arg13 m ρ c)
theorem W2_main_arg13 (c : Dev nD) : W2 m ρ c (Proc.devRef .tc main_arg13) = m ((c : Thread nD τ).loc main_arg13) :=
  (W2_of_ne m ρ c main_arg13 (by decide)).trans (W1_main_arg13 m ρ c)
theorem W3_main_arg13 (c : Dev nD) : W3 m ρ c (Proc.devRef .tc main_arg13) = m ((c : Thread nD τ).loc main_arg13) :=
  (W3_keep m ρ c main_arg13 (by decide)).trans (W2_main_arg13 m ρ c)
theorem W4_main_arg13 (c : Dev nD) : W4 m ρ c (Proc.devRef .tc main_arg13) = m ((c : Thread nD τ).loc main_arg13) :=
  (W4_of_ne m ρ c main_arg13 (by decide)).trans (W3_main_arg13 m ρ c)
theorem W5_main_arg13 (c : Dev nD) : W5 m ρ c (Proc.devRef .tc main_arg13) = m ((c : Thread nD τ).loc main_arg13) :=
  (W5_of_ne m ρ c main_arg13 (by decide)).trans (W4_main_arg13 m ρ c)
theorem W6_main_arg13 (c : Dev nD) : W6 m ρ c (Proc.devRef .tc main_arg13) = m ((c : Thread nD τ).loc main_arg13) :=
  (W6_keep m ρ c main_arg13 (by decide)).trans (W5_main_arg13 m ρ c)
theorem W7_main_arg13 (c : Dev nD) : W7 m ρ c (Proc.devRef .tc main_arg13) = m ((c : Thread nD τ).loc main_arg13) :=
  (W7_of_ne m ρ c main_arg13 (by decide)).trans (W6_main_arg13 m ρ c)
theorem W8_main_arg13 (c : Dev nD) : W8 m ρ c (Proc.devRef .tc main_arg13) = m ((c : Thread nD τ).loc main_arg13) :=
  (W8_of_ne m ρ c main_arg13 (by decide)).trans (W7_main_arg13 m ρ c)
theorem W9_main_arg13 (c : Dev nD) : W9 m ρ c (Proc.devRef .tc main_arg13) = m ((c : Thread nD τ).loc main_arg13) :=
  (W9_keep m ρ c main_arg13 (by decide)).trans (W8_main_arg13 m ρ c)
theorem W10_main_arg13 (c : Dev nD) : W10 m ρ c (Proc.devRef .tc main_arg13) = m ((c : Thread nD τ).loc main_arg13) :=
  (W10_of_ne m ρ c main_arg13 (by decide)).trans (W9_main_arg13 m ρ c)
theorem W11_main_arg13 (c : Dev nD) : W11 m ρ c (Proc.devRef .tc main_arg13) = m ((c : Thread nD τ).loc main_arg13) :=
  (W11_keep m ρ c main_arg13 (by decide)).trans (W10_main_arg13 m ρ c)

theorem W0_main_arg14 (c : Dev nD) : W0 m ρ c (Proc.devRef .tc main_arg14) = m ((c : Thread nD τ).loc main_arg14) := rfl
theorem W1_main_arg14 (c : Dev nD) : W1 m ρ c (Proc.devRef .tc main_arg14) = m ((c : Thread nD τ).loc main_arg14) :=
  (W1_keep m ρ c main_arg14 (by decide)).trans (W0_main_arg14 m ρ c)
theorem W2_main_arg14 (c : Dev nD) : W2 m ρ c (Proc.devRef .tc main_arg14) = m ((c : Thread nD τ).loc main_arg14) :=
  (W2_of_ne m ρ c main_arg14 (by decide)).trans (W1_main_arg14 m ρ c)
theorem W3_main_arg14 (c : Dev nD) : W3 m ρ c (Proc.devRef .tc main_arg14) = m ((c : Thread nD τ).loc main_arg14) :=
  (W3_keep m ρ c main_arg14 (by decide)).trans (W2_main_arg14 m ρ c)
theorem W4_main_arg14 (c : Dev nD) : W4 m ρ c (Proc.devRef .tc main_arg14) = m ((c : Thread nD τ).loc main_arg14) :=
  (W4_of_ne m ρ c main_arg14 (by decide)).trans (W3_main_arg14 m ρ c)
theorem W5_main_arg14 (c : Dev nD) : W5 m ρ c (Proc.devRef .tc main_arg14) = m ((c : Thread nD τ).loc main_arg14) :=
  (W5_of_ne m ρ c main_arg14 (by decide)).trans (W4_main_arg14 m ρ c)
theorem W6_main_arg14 (c : Dev nD) : W6 m ρ c (Proc.devRef .tc main_arg14) = m ((c : Thread nD τ).loc main_arg14) :=
  (W6_keep m ρ c main_arg14 (by decide)).trans (W5_main_arg14 m ρ c)
theorem W7_main_arg14 (c : Dev nD) : W7 m ρ c (Proc.devRef .tc main_arg14) = m ((c : Thread nD τ).loc main_arg14) :=
  (W7_of_ne m ρ c main_arg14 (by decide)).trans (W6_main_arg14 m ρ c)
theorem W8_main_arg14 (c : Dev nD) : W8 m ρ c (Proc.devRef .tc main_arg14) = m ((c : Thread nD τ).loc main_arg14) :=
  (W8_of_ne m ρ c main_arg14 (by decide)).trans (W7_main_arg14 m ρ c)
theorem W9_main_arg14 (c : Dev nD) : W9 m ρ c (Proc.devRef .tc main_arg14) = m ((c : Thread nD τ).loc main_arg14) :=
  (W9_keep m ρ c main_arg14 (by decide)).trans (W8_main_arg14 m ρ c)
theorem W10_main_arg14 (c : Dev nD) : W10 m ρ c (Proc.devRef .tc main_arg14) = m ((c : Thread nD τ).loc main_arg14) :=
  (W10_of_ne m ρ c main_arg14 (by decide)).trans (W9_main_arg14 m ρ c)
theorem W11_main_arg14 (c : Dev nD) : W11 m ρ c (Proc.devRef .tc main_arg14) = m ((c : Thread nD τ).loc main_arg14) :=
  (W11_keep m ρ c main_arg14 (by decide)).trans (W10_main_arg14 m ρ c)

/-! ## What the first stretch of host operations writes once and for all -/

theorem W2_main_v1 (c : Dev nD) : W2 m ρ c (Proc.devRef .tc main_v1) = W1 m ρ c (Proc.devRef .tc main_v1) :=
  (W2_of_ne m ρ c main_v1 (by decide))
theorem W3_main_v1 (c : Dev nD) : W3 m ρ c (Proc.devRef .tc main_v1) = W1 m ρ c (Proc.devRef .tc main_v1) :=
  (W3_keep m ρ c main_v1 (by decide)).trans (W2_main_v1 m ρ c)
theorem W4_main_v1 (c : Dev nD) : W4 m ρ c (Proc.devRef .tc main_v1) = W1 m ρ c (Proc.devRef .tc main_v1) :=
  (W4_of_ne m ρ c main_v1 (by decide)).trans (W3_main_v1 m ρ c)
theorem W5_main_v1 (c : Dev nD) : W5 m ρ c (Proc.devRef .tc main_v1) = W1 m ρ c (Proc.devRef .tc main_v1) :=
  (W5_of_ne m ρ c main_v1 (by decide)).trans (W4_main_v1 m ρ c)
theorem W6_main_v1 (c : Dev nD) : W6 m ρ c (Proc.devRef .tc main_v1) = W1 m ρ c (Proc.devRef .tc main_v1) :=
  (W6_keep m ρ c main_v1 (by decide)).trans (W5_main_v1 m ρ c)
theorem W7_main_v1 (c : Dev nD) : W7 m ρ c (Proc.devRef .tc main_v1) = W1 m ρ c (Proc.devRef .tc main_v1) :=
  (W7_of_ne m ρ c main_v1 (by decide)).trans (W6_main_v1 m ρ c)
theorem W8_main_v1 (c : Dev nD) : W8 m ρ c (Proc.devRef .tc main_v1) = W1 m ρ c (Proc.devRef .tc main_v1) :=
  (W8_of_ne m ρ c main_v1 (by decide)).trans (W7_main_v1 m ρ c)
theorem W9_main_v1 (c : Dev nD) : W9 m ρ c (Proc.devRef .tc main_v1) = W1 m ρ c (Proc.devRef .tc main_v1) :=
  (W9_keep m ρ c main_v1 (by decide)).trans (W8_main_v1 m ρ c)
theorem W10_main_v1 (c : Dev nD) : W10 m ρ c (Proc.devRef .tc main_v1) = W1 m ρ c (Proc.devRef .tc main_v1) :=
  (W10_of_ne m ρ c main_v1 (by decide)).trans (W9_main_v1 m ρ c)
theorem W11_main_v1 (c : Dev nD) : W11 m ρ c (Proc.devRef .tc main_v1) = W1 m ρ c (Proc.devRef .tc main_v1) :=
  (W11_keep m ρ c main_v1 (by decide)).trans (W10_main_v1 m ρ c)

theorem W2_main_v3 (c : Dev nD) : W2 m ρ c (Proc.devRef .tc main_v3) = W1 m ρ c (Proc.devRef .tc main_v3) :=
  (W2_of_ne m ρ c main_v3 (by decide))
theorem W3_main_v3 (c : Dev nD) : W3 m ρ c (Proc.devRef .tc main_v3) = W1 m ρ c (Proc.devRef .tc main_v3) :=
  (W3_keep m ρ c main_v3 (by decide)).trans (W2_main_v3 m ρ c)
theorem W4_main_v3 (c : Dev nD) : W4 m ρ c (Proc.devRef .tc main_v3) = W1 m ρ c (Proc.devRef .tc main_v3) :=
  (W4_of_ne m ρ c main_v3 (by decide)).trans (W3_main_v3 m ρ c)
theorem W5_main_v3 (c : Dev nD) : W5 m ρ c (Proc.devRef .tc main_v3) = W1 m ρ c (Proc.devRef .tc main_v3) :=
  (W5_of_ne m ρ c main_v3 (by decide)).trans (W4_main_v3 m ρ c)
theorem W6_main_v3 (c : Dev nD) : W6 m ρ c (Proc.devRef .tc main_v3) = W1 m ρ c (Proc.devRef .tc main_v3) :=
  (W6_keep m ρ c main_v3 (by decide)).trans (W5_main_v3 m ρ c)
theorem W7_main_v3 (c : Dev nD) : W7 m ρ c (Proc.devRef .tc main_v3) = W1 m ρ c (Proc.devRef .tc main_v3) :=
  (W7_of_ne m ρ c main_v3 (by decide)).trans (W6_main_v3 m ρ c)
theorem W8_main_v3 (c : Dev nD) : W8 m ρ c (Proc.devRef .tc main_v3) = W1 m ρ c (Proc.devRef .tc main_v3) :=
  (W8_of_ne m ρ c main_v3 (by decide)).trans (W7_main_v3 m ρ c)
theorem W9_main_v3 (c : Dev nD) : W9 m ρ c (Proc.devRef .tc main_v3) = W1 m ρ c (Proc.devRef .tc main_v3) :=
  (W9_keep m ρ c main_v3 (by decide)).trans (W8_main_v3 m ρ c)
theorem W10_main_v3 (c : Dev nD) : W10 m ρ c (Proc.devRef .tc main_v3) = W1 m ρ c (Proc.devRef .tc main_v3) :=
  (W10_of_ne m ρ c main_v3 (by decide)).trans (W9_main_v3 m ρ c)
theorem W11_main_v3 (c : Dev nD) : W11 m ρ c (Proc.devRef .tc main_v3) = W1 m ρ c (Proc.devRef .tc main_v3) :=
  (W11_keep m ρ c main_v3 (by decide)).trans (W10_main_v3 m ρ c)

theorem W2_main_v12 (c : Dev nD) : W2 m ρ c (Proc.devRef .tc main_v12) = W1 m ρ c (Proc.devRef .tc main_v12) :=
  (W2_of_ne m ρ c main_v12 (by decide))
theorem W3_main_v12 (c : Dev nD) : W3 m ρ c (Proc.devRef .tc main_v12) = W1 m ρ c (Proc.devRef .tc main_v12) :=
  (W3_keep m ρ c main_v12 (by decide)).trans (W2_main_v12 m ρ c)
theorem W4_main_v12 (c : Dev nD) : W4 m ρ c (Proc.devRef .tc main_v12) = W1 m ρ c (Proc.devRef .tc main_v12) :=
  (W4_in m ρ c 2 rfl).trans (W3_main_v12 m ρ c)
theorem W5_main_v12 (c : Dev nD) : W5 m ρ c (Proc.devRef .tc main_v12) = W1 m ρ c (Proc.devRef .tc main_v12) :=
  (W5_of_ne m ρ c main_v12 (by decide)).trans (W4_main_v12 m ρ c)
theorem W6_main_v12 (c : Dev nD) : W6 m ρ c (Proc.devRef .tc main_v12) = W1 m ρ c (Proc.devRef .tc main_v12) :=
  (W6_keep m ρ c main_v12 (by decide)).trans (W5_main_v12 m ρ c)
theorem W7_main_v12 (c : Dev nD) : W7 m ρ c (Proc.devRef .tc main_v12) = W1 m ρ c (Proc.devRef .tc main_v12) :=
  (W7_in m ρ c 2 rfl).trans (W6_main_v12 m ρ c)
theorem W8_main_v12 (c : Dev nD) : W8 m ρ c (Proc.devRef .tc main_v12) = W1 m ρ c (Proc.devRef .tc main_v12) :=
  (W8_of_ne m ρ c main_v12 (by decide)).trans (W7_main_v12 m ρ c)
theorem W9_main_v12 (c : Dev nD) : W9 m ρ c (Proc.devRef .tc main_v12) = W1 m ρ c (Proc.devRef .tc main_v12) :=
  (W9_keep m ρ c main_v12 (by decide)).trans (W8_main_v12 m ρ c)
theorem W10_main_v12 (c : Dev nD) : W10 m ρ c (Proc.devRef .tc main_v12) = W1 m ρ c (Proc.devRef .tc main_v12) :=
  (W10_in m ρ c 2 rfl).trans (W9_main_v12 m ρ c)
theorem W11_main_v12 (c : Dev nD) : W11 m ρ c (Proc.devRef .tc main_v12) = W1 m ρ c (Proc.devRef .tc main_v12) :=
  (W11_keep m ρ c main_v12 (by decide)).trans (W10_main_v12 m ρ c)

theorem W2_main_v28 (c : Dev nD) : W2 m ρ c (Proc.devRef .tc main_v28) = W1 m ρ c (Proc.devRef .tc main_v28) :=
  (W2_of_ne m ρ c main_v28 (by decide))
theorem W3_main_v28 (c : Dev nD) : W3 m ρ c (Proc.devRef .tc main_v28) = W1 m ρ c (Proc.devRef .tc main_v28) :=
  (W3_keep m ρ c main_v28 (by decide)).trans (W2_main_v28 m ρ c)
theorem W4_main_v28 (c : Dev nD) : W4 m ρ c (Proc.devRef .tc main_v28) = W1 m ρ c (Proc.devRef .tc main_v28) :=
  (W4_of_ne m ρ c main_v28 (by decide)).trans (W3_main_v28 m ρ c)
theorem W5_main_v28 (c : Dev nD) : W5 m ρ c (Proc.devRef .tc main_v28) = W1 m ρ c (Proc.devRef .tc main_v28) :=
  (W5_of_ne m ρ c main_v28 (by decide)).trans (W4_main_v28 m ρ c)
theorem W6_main_v28 (c : Dev nD) : W6 m ρ c (Proc.devRef .tc main_v28) = W1 m ρ c (Proc.devRef .tc main_v28) :=
  (W6_keep m ρ c main_v28 (by decide)).trans (W5_main_v28 m ρ c)
theorem W7_main_v28 (c : Dev nD) : W7 m ρ c (Proc.devRef .tc main_v28) = W1 m ρ c (Proc.devRef .tc main_v28) :=
  (W7_of_ne m ρ c main_v28 (by decide)).trans (W6_main_v28 m ρ c)
theorem W8_main_v28 (c : Dev nD) : W8 m ρ c (Proc.devRef .tc main_v28) = W1 m ρ c (Proc.devRef .tc main_v28) :=
  (W8_of_ne m ρ c main_v28 (by decide)).trans (W7_main_v28 m ρ c)
theorem W9_main_v28 (c : Dev nD) : W9 m ρ c (Proc.devRef .tc main_v28) = W1 m ρ c (Proc.devRef .tc main_v28) :=
  (W9_keep m ρ c main_v28 (by decide)).trans (W8_main_v28 m ρ c)
theorem W10_main_v28 (c : Dev nD) : W10 m ρ c (Proc.devRef .tc main_v28) = W1 m ρ c (Proc.devRef .tc main_v28) :=
  (W10_of_ne m ρ c main_v28 (by decide)).trans (W9_main_v28 m ρ c)
theorem W11_main_v28 (c : Dev nD) : W11 m ρ c (Proc.devRef .tc main_v28) = W1 m ρ c (Proc.devRef .tc main_v28) :=
  (W11_keep m ρ c main_v28 (by decide)).trans (W10_main_v28 m ρ c)

/-! ## A projection's output across the stretch of host operations that follows it -/

theorem W3_main_v29 (c : Dev nD) : W3 m ρ c (Proc.devRef .tc main_v29) = W2 m ρ c (Proc.devRef .tc main_v29) := (W3_keep m ρ c main_v29 (by decide))
theorem W6_main_v44 (c : Dev nD) : W6 m ρ c (Proc.devRef .tc main_v44) = W5 m ρ c (Proc.devRef .tc main_v44) := (W6_keep m ρ c main_v44 (by decide))
theorem W9_main_v59 (c : Dev nD) : W9 m ρ c (Proc.devRef .tc main_v59) = W8 m ρ c (Proc.devRef .tc main_v59) := (W9_keep m ρ c main_v59 (by decide))

end Cert.KernelIdeal.Run

end
-- ==== Proof.KI.Val0.lean ====
/- REGION 0, read at the ideal instance: the output array after the whole pipeline is the product of the left
   array and the right array, entry by entry. Point `t` of the 25 writes rows 2000·t … 2000·t+1999 of the product: its
   left block is those rows of the left array, its right block the whole right array, and the body's payload is their
   product (narrowing to bf16 is the identity on ideal values; the accumulator starts at zero). The 25 row blocks tile
   the 50000 rows, so every entry is written by the point `r / 2000`. -/
import proofs.«131909_j56581899158174_1_alg».proof.Proof.KI.Reg0
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.RegVal

open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-! ## The body's product at an entry -/

/-- The left operand's index at output entry (p, q) and contraction index k: row p … -/
theorem lhs0_0 (i : S2000x256.Idx) (k : dot_S2000x128_S128x256_S2000x256_1_0_0_1_n_n.contr.Idx) : (dot_S2000x128_S128x256_S2000x256_1_0_0_1_n_n.lhsIdx i k 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- … column k; -/
theorem lhs0_1 (i : S2000x256.Idx) (k : dot_S2000x128_S128x256_S2000x256_1_0_0_1_n_n.contr.Idx) : (dot_S2000x128_S128x256_S2000x256_1_0_0_1_n_n.lhsIdx i k 1).val = (k ⟨0, by decide⟩).val :=
  dot_S2000x128_S128x256_S2000x256_1_0_0_1_n_n.lhsIdx_val_of_single rfl i k
/-- the right operand's: row k … -/
theorem rhs0_0 (i : S2000x256.Idx) (k : dot_S2000x128_S128x256_S2000x256_1_0_0_1_n_n.contr.Idx) : (dot_S2000x128_S128x256_S2000x256_1_0_0_1_n_n.rhsIdx i k 0).val = (k ⟨0, by decide⟩).val :=
  dot_S2000x128_S128x256_S2000x256_1_0_0_1_n_n.rhsIdx_val_of_single rfl i k
/-- … column q. -/
theorem rhs0_1 (i : S2000x256.Idx) (k : dot_S2000x128_S128x256_S2000x256_1_0_0_1_n_n.contr.Idx) : (dot_S2000x128_S128x256_S2000x256_1_0_0_1_n_n.rhsIdx i k 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The body's payload at entry (p, q): the sum over k of left(p, k) · right(k, q). -/
theorem pay0_apply (x0 : Vec Ideal S2000x128 .f32) (x1 : Vec Ideal S128x256 .f32) (p : Fin 2000) (q : Fin 256) :
    k0_pay1 (F := Ideal) x0 x1 (ix2 p q) = ∑ k : Fin 128, x0 (ix2 p k) * x1 (ix2 k q) := by
  unfold k0_pay1
  refine (Ideal.matmul_constant_zero_apply dot_S2000x128_S128x256_S2000x256_1_0_0_1_n_n none _ _ (ix2 p q)).trans ?_
  rw [← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs0_0 _ _
    | ⟨1, _⟩ => exact (lhs0_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs0_0 _ _).trans hk
    | ⟨1, _⟩ => exact rhs0_1 _ _)
  rw [el, er]
  rfl

/-! ## The blocks, as entries of the arrays -/

/-- The printed index maps over the 25 points: the left and the output window move down one row block per point; the
    right window stays at its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left block at point `t` is rows 2000·t … 2000·t+1999 of the left array. -/
theorem iblk0_0_apply (c : Dev nD) (t : Fin cfg0.N) (p : Fin 2000) (k : Fin 128) (hp : 2000 * t.val + p.val < 50000) :
    (iblk0 V c 0 t : Vec Ideal S2000x128 .f32) (ix2 p k) = (V c main_arg0 : S50000x128.Idx → EReal) (ix2 ⟨2000 * t.val + p.val, hp⟩ k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 2000 + 1 * p.val = 2000 * t.val + p.val; rw [e0]; omega
  | ⟨1, _⟩ => show win0_0.index t 1 * 128 + 1 * k.val = k.val; rw [e1]; omega

/-- The right block at every point is the whole right array. -/
theorem iblk0_1_apply (c : Dev nD) (t : Fin cfg0.N) (k : Fin 128) (q : Fin 256) :
    (iblk0 V c 1 t : Vec Ideal S128x256 .f32) (ix2 k q) = (V c main_arg5 : S128x256.Idx → EReal) (ix2 k q) := by
  obtain ⟨-, -, e0, e1, -⟩ := idx_facts0 t
  unfold iblk0
  rw [View.read_apply]
  show V c main_arg5 _ = V c main_arg5 _
  congr 1
  funext a
  apply Fin.ext
  match a with
  | ⟨0, _⟩ => show win0_1.index t 0 * 128 + 1 * k.val = k.val; rw [e0]; omega
  | ⟨1, _⟩ => show win0_1.index t 1 * 256 + 1 * q.val = q.val; rw [e1]; omega

/-! ## What each point writes back, and the array after the last -/

/-- The product of the two arrays, entry by entry. -/
def prod0 (A : S50000x128.Idx → EReal) (B : S128x256.Idx → EReal) : S50000x256.Idx → EReal :=
  fun i => ∑ k : Fin 128, A (ix2 (⟨(i 0).val, idx2_lt0 i⟩ : Fin 50000) k) * B (ix2 k (⟨(i 1).val, idx2_lt1 i⟩ : Fin 256))

/-- Point `t` writes back rows 2000·t … 2000·t+1999 of the product. -/
theorem flushed0_eq (c : Dev nD) (t : Fin cfg0.N) :
    (dat0 V c).flushed 2 t = ((cfg0.win 2).blk t).view.read (Elt Ideal) (prod0 (V c main_arg0) (V c main_arg5)) := by
  show (cfg0.win 2).cut (grid0.coords t) ((dat0 V c).after 2 t) = _
  rw [after0_2]
  unfold out0_2
  rw [View.canon_unit_zero hz0]
  simp only [View.ld_unit_zero (S := S2000x128) hz0, View.ld_unit_zero (S := S128x256) hz0]
  funext j
  obtain ⟨p, q, rfl⟩ : ∃ (p : Fin 2000) (q : Fin 256), j = ix2 p q := ⟨j 0, j 1, eq_ix2 j⟩
  obtain ⟨-, -, -, -, e0, e1⟩ := idx_facts0 t
  have hN : t.val < 25 := Nat.lt_of_lt_of_eq t.isLt N_0
  have hp : 2000 * t.val + p.val < 50000 := by have := p.isLt; omega
  have hi : ((cfg0.win 2).blk t).view.emb (ix2 p q) = (ix2 (⟨2000 * t.val + p.val, hp⟩ : Fin 50000) q : S50000x256.Idx) := by
    funext a
    apply Fin.ext
    match a with
    | ⟨0, _⟩ => show win0_2.index t 0 * 2000 + 1 * p.val = 2000 * t.val + p.val; rw [e0]; omega
    | ⟨1, _⟩ => show win0_2.index t 1 * 256 + 1 * q.val = q.val; rw [e1]; omega
  show k0_pay1 (iblk0 V c 0 t) (iblk0 V c 1 t) (ix2 p q) = prod0 (V c main_arg0) (V c main_arg5) (((cfg0.win 2).blk t).view.emb (ix2 p q))
  rw [hi]
  refine (pay0_apply _ _ p q).trans ?_
  unfold prod0
  refine Finset.sum_congr rfl fun k _ => ?_
  rw [iblk0_0_apply V c t p k hp, iblk0_1_apply V c t k q]

/-- An entry of the output array is in point `t`'s block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v29).slice (win0_2.rect t)).set ↔ _
  rw [View.set_slice_whole, Rect.mem_set_unit]
  exact Iff.rfl

/-- Every entry of the output array is written back by some point: row `r` by point `r / 2000`. -/
theorem cover0 (i : S50000x256.Idx) : ∃ t : Fin cfg0.N, (cfg0.win 2).flush t = true ∧ i ∈ ((cfg0.win 2).blk t).view.set := by
  have h0 : (i 0).val < 50000 := idx2_lt0 i
  have h1 : (i 1).val < 256 := idx2_lt1 i
  have ht : (i 0).val / 2000 < cfg0.N := Nat.lt_of_lt_of_eq (show (i 0).val / 2000 < 25 by omega) N_0.symm
  obtain ⟨-, -, -, -, e0, e1⟩ := idx_facts0 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ 0 * 2000 ≤ (i 0).val ∧ (i 0).val < win0_2.index ⟨(i 0).val / 2000, ht⟩ 0 * 2000 + 2000
    rw [e0]
    show (i 0).val / 2000 * 2000 ≤ (i 0).val ∧ (i 0).val < (i 0).val / 2000 * 2000 + 2000
    omega
  | ⟨1, _⟩ =>
    show win0_2.index ⟨(i 0).val / 2000, ht⟩ 1 * 256 ≤ (i 1).val ∧ (i 1).val < win0_2.index ⟨(i 0).val / 2000, ht⟩ 1 * 256 + 256
    rw [e1]
    omega

/-- The output array after the whole pipeline is the product of the two arrays. -/
theorem final0 (c : Dev nD) : (dat0 V c).arrAt 2 cfg0.N = prod0 (V c main_arg0) (V c main_arg5) :=
  (dat0 V c).arrAt_eq_of_cover 2 (prod0 (V c main_arg0) (V c main_arg5)) (fun t _ => flushed0_eq V c t) (cover0)

/-- The product at entry (r, q): the sum over k of left(r, k) · right(k, q). -/
theorem prod0_apply (A : S50000x128.Idx → EReal) (B : S128x256.Idx → EReal) (r : Fin 50000) (q : Fin 256) :
    prod0 A B (ValueIdx.ix2 r q) = ∑ k : Fin 128, A (ValueIdx.ix2 r k) * B (ValueIdx.ix2 k q) := rfl

/-- The two argument arrays of the region as it finds them, as functions into the extended reals: the left operand … -/
abbrev x0 (c : Dev nD) : S50000x128.Idx → EReal := V c main_arg0
/-- … and the weights. -/
abbrev w0 (c : Dev nD) : S128x256.Idx → EReal := V c main_arg5

/-- The output array after the whole pipeline, read at entry (r, q): the sum over k of left(r, k) · weights(k, q). -/
theorem final0_apply (c : Dev nD) (r : Fin 50000) (q : Fin 256) :
    (Cert.KernelIdeal.Gen.dat0 (F := Ideal) V c).arrAt 2 cfg0.N (ValueIdx.ix2 r q)
      = (∑ k : Fin 128, x0 V c (ValueIdx.ix2 r k) * w0 V c (ValueIdx.ix2 k q)) :=
  congrFun (final0 V c) (ValueIdx.ix2 r q)

end Cert.KernelIdeal.RegVal

end
-- ==== Proof.LibUnitAxes.lean ====
/-
  Three layout operations read at an index given by its coordinates, generic in the extents and the element type.
  • A shape cast that DROPS two leading unit axes, [1, 1, a, b] → [a, b], reads at (p, c) the operand at (0, 0, p, c); the
    cast that ADDS them, [a, b] → [1, 1, a, b], reads at (0, 0, p, c) the operand at (p, c): the row-major position of
    (0, 0, p, c) in [1, 1, a, b] is p·b + c, that of (p, c) in [a, b].
  • A column [a, 1] broadcast along the second axis to [a, b] reads at (p, c) the column's entry p, whatever c.
-/
import Idealize.ShloMosaic.Lib.ValueLayout

namespace Cert.LibUnitAxes

open Idealize.ShloMosaic Idealize.ShloMosaic.ValueIdx

variable {α : Type}

/-- [1, 1, a, b] cast to [a, b], at (p, c): the operand at (0, 0, p, c). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) :=
  shapeCast_apply x h (ix2 p c) (ix4 (0 : Fin 1) (0 : Fin 1) p c) (by
    rw [Shape.rowMajor_val_four, Shape.rowMajor_val_two]
    show (((0 * 1 + 0) * a + p.val) * b + c.val) = p.val * b + c.val
    simp only [Nat.zero_mul, Nat.zero_add])

/-- [a, b] cast to [1, 1, a, b], at (0, 0, p, c): the operand at (p, c). -/
theorem shapeCast_ab_11ab_apply {a b : ℕ} (x : (⟨2, ![a, b]⟩ : Shape).Idx → α)
    (h : (⟨2, ![a, b]⟩ : Shape).ShapeCasts ⟨4, ![1, 1, a, b]⟩) (p : Fin a) (c : Fin b) :
    shapeCast ⟨4, ![1, 1, a, b]⟩ x h (ix4 (0 : Fin 1) (0 : Fin 1) p c) = x (ix2 p c) :=
  shapeCast_apply x h (ix4 (0 : Fin 1) (0 : Fin 1) p c) (ix2 p c) (by
    rw [Shape.rowMajor_val_four, Shape.rowMajor_val_two]
    show p.val * b + c.val = (((0 * 1 + 0) * a + p.val) * b + c.val)
    simp only [Nat.zero_mul, Nat.zero_add])

/-- A column [a, 1] broadcast to [a, b], at (p, c): the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibUnitAxes
-- ==== Proof.KI.Val1.lean ====
import proofs.«131909_j56581899158174_1_alg».proof.Proof.KI.Reg1
import proofs.«131909_j56581899158174_1_alg».proof.Proof.LibUnitAxes
import Idealize.ShloMosaic.Lib.Pipeline.Value
import Idealize.ShloMosaic.Lib.ValueLayout
import Idealize.ShloMosaic.PureOps.Ideal.Laws

/-! # Region 1 at the ideal values: the output array as one function of the input arrays

On the extended reals the region's output array, after all 25 points, holds at row `r` and column `q`
`max((a(r,q) + h(r,q) · d(r,0)) + b(0,q), 0)`, where `a`, `h` are the two 50000×256 inputs, `d` the 50000×1 column and
`b` the 1×256 row, all as the region finds them. Point `t` writes rows `2000·t … 2000·t + 1999`; within a block the
body's value at `(p, q)` reads the input blocks at `(p, q)`, the column block at `(p, 0)` and the row at `(0, q)`;
row `r` of the array is written by point `r / 2000`, so the 25 blocks cover the array. -/

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx

-- the core's buffer contents when the region is entered, at the ideal values
variable (V : (c : Dev nD) → (b : Ref sig .tc) → Buf (Elt Ideal) ((c : Thread nD τ).loc b))

theorem hz1 : (![0, 0] : Fin 2 → Nat) = fun _ => 0 := funext fun a => by fin_cases a <;> rfl

/-! ## The four input arrays as the region finds them, as functions to the extended reals -/

abbrev agg1 (c : Dev nD) : S50000x256.Idx → EReal := V c main_v41
abbrev hw1 (c : Dev nD) : S50000x256.Idx → EReal := V c main_v29
abbrev dis1 (c : Dev nD) : S50000x1.Idx → EReal := V c main_v12
abbrev bias1 (c : Dev nD) : S1x256.Idx → EReal := V c main_v42

/-! ## The closed function and the body's value at an index -/

/-- The combine of whole arrays, index by index: `max((a + h · d) + b, 0)` with the column `d` read at the index's row
    and the row `b` at its column. -/
def G1 (a0 a1 : S50000x256.Idx → EReal) (a2 : S50000x1.Idx → EReal) (a3 : S1x256.Idx → EReal) : S50000x256.Idx → EReal :=
  fun i => max ((a0 i + a1 i * a2 (ix2 (i 0) (0 : Fin 1))) + a3 (ix2 (0 : Fin 1) (i 1))) 0

theorem G1_apply (a0 a1 : S50000x256.Idx → EReal) (a2 : S50000x1.Idx → EReal) (a3 : S1x256.Idx → EReal) (r : Fin 50000) (q : Fin 256) :
    G1 a0 a1 a2 a3 (ix2 r q) = max ((a0 (ix2 r q) + a1 (ix2 r q) * a2 (ix2 r (0 : Fin 1))) + a3 (ix2 (0 : Fin 1) q)) 0 := rfl

/-- The body's stored value at `(p, q)` of a block: the casts are of each operand to its own shape, the column is
    spread along its row and the row down its column, the constant is the real zero. -/
theorem pay1_apply (x0 x1 : Vec Ideal S2000x256 .f32) (x2 : Vec Ideal S2000x1 .f32) (x3 : Vec Ideal S1x256 .f32)
    (p : Fin 2000) (q : Fin 256) :
    k1_pay1 x0 x1 x2 x3 (ix2 p q)
      = max ((x0 (ix2 p q) + x1 (ix2 p q) * x2 (ix2 p (0 : Fin 1))) + x3 (ix2 (0 : Fin 1) q)) (0 : EReal) := by
  unfold k1_pay1
  simp only [shapeCast_self]
  rw [maximumf_apply, addf_apply, addf_apply, mulf_apply, broadcast_apply]
  rw [Cert.LibUnitAxes.broadcastTo_a1_ab_apply, broadcastTo_1b_ab_apply]
  exact congrArg (max _) Ideal.ofBits_zero_f32

/-- The body's value at `(p, q)` is the closed function at `(r, q)` when the four blocks, read where the body reads
    them, are the arrays at row `r`. -/
theorem point1 (x0 x1 : Vec Ideal S2000x256 .f32) (x2 : Vec Ideal S2000x1 .f32) (x3 : Vec Ideal S1x256 .f32)
    (a0 a1 : S50000x256.Idx → EReal) (a2 : S50000x1.Idx → EReal) (a3 : S1x256.Idx → EReal)
    (p : Fin 2000) (q : Fin 256) (r : Fin 50000)
    (h0 : x0 (ix2 p q) = a0 (ix2 r q)) (h1 : x1 (ix2 p q) = a1 (ix2 r q))
    (h2 : x2 (ix2 p (0 : Fin 1)) = a2 (ix2 r (0 : Fin 1))) (h3 : x3 (ix2 (0 : Fin 1) q) = a3 (ix2 (0 : Fin 1) q)) :
    k1_pay1 x0 x1 x2 x3 (ix2 p q) = G1 a0 a1 a2 a3 (ix2 r q) := by
  rw [pay1_apply, G1_apply, h0, h1, h2, h3]

/-! ## The index maps, and each input block as rows of its array -/

/-- The printed index maps, decided over the 25 points: the three row-blocked inputs move with the output, whose block
    index is the point's number; the row window stays at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point `t`, at `(p, q)`, is its array at row `2000·t + p`. -/
theorem iblk1_0_apply (c : Dev nD) (t : Fin cfg1.N) (p : Fin 2000) (q : Fin 256) (r : Fin 50000) (hr : r.val = t.val * 2000 + p.val) :
    (iblk1 V c 0 t : Vec Ideal S2000x256 .f32) (ix2 p q) = (V c main_v41 : S50000x256.Idx → EReal) (ix2 r q) := by
  obtain ⟨e00, e01, e10, e11, e20, e21, e30, e31, e40, e41⟩ := idx_facts1 t
  unfold iblk1
  rw [View.read_apply]
  show (V c main_v41 : S50000x256.Idx → EReal) _ = (V c main_v41 : S50000x256.Idx → EReal) _
  refine congrArg (V c main_v41 : S50000x256.Idx → EReal) (funext fun a => Fin.ext ?_)
  match a with
  | ⟨0, _⟩ => show win1_0.index t (0 : Fin 2) * 2000 + 1 * p.val = r.val; omega
  | ⟨1, _⟩ => show win1_0.index t (1 : Fin 2) * 256 + 1 * q.val = q.val; omega

/-- Window 1's block at point `t`, at `(p, q)`, is its array at row `2000·t + p`. -/
theorem iblk1_1_apply (c : Dev nD) (t : Fin cfg1.N) (p : Fin 2000) (q : Fin 256) (r : Fin 50000) (hr : r.val = t.val * 2000 + p.val) :
    (iblk1 V c 1 t : Vec Ideal S2000x256 .f32) (ix2 p q) = (V c main_v29 : S50000x256.Idx → EReal) (ix2 r q) := by
  obtain ⟨e00, e01, e10, e11, e20, e21, e30, e31, e40, e41⟩ := idx_facts1 t
  unfold iblk1
  rw [View.read_apply]
  show (V c main_v29 : S50000x256.Idx → EReal) _ = (V c main_v29 : S50000x256.Idx → EReal) _
  refine congrArg (V c main_v29 : S50000x256.Idx → EReal) (funext fun a => Fin.ext ?_)
  match a with
  | ⟨0, _⟩ => show win1_1.index t (0 : Fin 2) * 2000 + 1 * p.val = r.val; omega
  | ⟨1, _⟩ => show win1_1.index t (1 : Fin 2) * 256 + 1 * q.val = q.val; omega

/-- Window 2's block at point `t`, at `(p, 0)`, is the column at row `2000·t + p`. -/
theorem iblk1_2_apply (c : Dev nD) (t : Fin cfg1.N) (p : Fin 2000) (r : Fin 50000) (hr : r.val = t.val * 2000 + p.val) :
    (iblk1 V c 2 t : Vec Ideal S2000x1 .f32) (ix2 p (0 : Fin 1)) = (V c main_v12 : S50000x1.Idx → EReal) (ix2 r (0 : Fin 1)) := by
  obtain ⟨e00, e01, e10, e11, e20, e21, e30, e31, e40, e41⟩ := idx_facts1 t
  unfold iblk1
  rw [View.read_apply]
  show (V c main_v12 : S50000x1.Idx → EReal) _ = (V c main_v12 : S50000x1.Idx → EReal) _
  refine congrArg (V c main_v12 : S50000x1.Idx → EReal) (funext fun a => Fin.ext ?_)
  match a with
  | ⟨0, _⟩ => show win1_2.index t (0 : Fin 2) * 2000 + 1 * p.val = r.val; omega
  | ⟨1, _⟩ => show win1_2.index t (1 : Fin 2) * 1 + 1 * (0 : Fin 1).val = (0 : Fin 1).val; omega

/-- Window 3's block at any point is the whole row. -/
theorem iblk1_3_apply (c : Dev nD) (t : Fin cfg1.N) (q : Fin 256) :
    (iblk1 V c 3 t : Vec Ideal S1x256 .f32) (ix2 (0 : Fin 1) q) = (V c main_v42 : S1x256.Idx → EReal) (ix2 (0 : Fin 1) q) := by
  obtain ⟨e00, e01, e10, e11, e20, e21, e30, e31, e40, e41⟩ := idx_facts1 t
  unfold iblk1
  rw [View.read_apply]
  show (V c main_v42 : S1x256.Idx → EReal) _ = (V c main_v42 : S1x256.Idx → EReal) _
  refine congrArg (V c main_v42 : S1x256.Idx → EReal) (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 256 + 1 * q.val = q.val; omega

/-! ## What a point writes back, the cover, and the array -/

/-- What point `t` writes back is block `t` of the closed function of the arrays as the region finds them. -/
theorem flushed1_eq (c : Dev nD) (t : Fin cfg1.N) :
    (dat1 (F := Ideal) V c).flushed 4 t
      = ((cfg1.win 4).blk t).view.read (Elt Ideal) (G1 (V c main_v41) (V c main_v29) (V c main_v12) (V c main_v42)) := by
  show (cfg1.win 4).cut (grid1.coords t) ((dat1 V c).after 4 t) = _
  rw [after1_4]
  unfold out1_4
  rw [View.canon_unit_zero hz1]
  simp only [View.ld_unit_zero (S := S2000x256) hz1, View.ld_unit_zero (S := S2000x1) hz1, View.ld_unit_zero (S := S1x256) hz1]
  obtain ⟨e00, e01, e10, e11, e20, e21, e30, e31, e40, e41⟩ := idx_facts1 t
  have hN : cfg1.N = 25 := N_1
  funext j
  have hp : (j 0).val < 2000 := (j 0).isLt
  have hq : (j 1).val < 256 := (j 1).isLt
  have ht : t.val < 25 := hN ▸ t.isLt
  have hj : (j : S2000x256.Idx) = ix2 (⟨(j 0).val, hp⟩ : Fin 2000) (⟨(j 1).val, hq⟩ : Fin 256) :=
    funext fun a => match a with | ⟨0, _⟩ => rfl | ⟨1, _⟩ => rfl
  have he : ((cfg1.win 4).blk t).view.emb j
      = ix2 (⟨t.val * 2000 + (j 0).val, by omega⟩ : Fin 50000) (⟨(j 1).val, hq⟩ : Fin 256) :=
    funext fun a => Fin.ext (by
      match a with
      | ⟨0, _⟩ => show win1_4.index t (0 : Fin 2) * 2000 + 1 * (j 0).val = t.val * 2000 + (j 0).val; omega
      | ⟨1, _⟩ => show win1_4.index t (1 : Fin 2) * 256 + 1 * (j 1).val = (j 1).val; omega)
  show k1_pay1 (iblk1 V c 0 t) (iblk1 V c 1 t) (iblk1 V c 2 t) (iblk1 V c 3 t) j
    = G1 (V c main_v41) (V c main_v29) (V c main_v12) (V c main_v42) (((cfg1.win 4).blk t).view.emb j)
  rw [he]
  refine (congrArg (k1_pay1 (iblk1 V c 0 t) (iblk1 V c 1 t) (iblk1 V c 2 t) (iblk1 V c 3 t)) hj).trans ?_
  exact point1 (iblk1 V c 0 t) (iblk1 V c 1 t) (iblk1 V c 2 t) (iblk1 V c 3 t)
    (V c main_v41) (V c main_v29) (V c main_v12) (V c main_v42) ⟨(j 0).val, hp⟩ ⟨(j 1).val, hq⟩ ⟨t.val * 2000 + (j 0).val, by omega⟩
    (iblk1_0_apply V c t _ _ _ rfl) (iblk1_1_apply V c t _ _ _ rfl) (iblk1_2_apply V c t _ _ rfl) (iblk1_3_apply V c t _)

/-- An index of the array is in point `t`'s block iff each coordinate is in the block's range on its axis. -/
theorem mem_blk1 (t : Fin cfg1.N) (i : S50000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v43).slice (win1_4.rect t)).set ↔ _
  rw [View.set_slice_whole, Rect.mem_set_unit]
  exact Iff.rfl

/-- Row `r` of the array lies in the block of point `r / 2000`, which writes back: the 25 blocks cover the array. -/
theorem cover1 (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  have hN : cfg1.N = 25 := N_1
  have hlt : (i 0).val / 2000 < cfg1.N := by rw [hN]; omega
  refine ⟨⟨(i 0).val / 2000, hlt⟩, flush1_4 _, ?_⟩
  rw [mem_blk1]
  obtain ⟨e00, e01, e10, e11, e20, e21, e30, e31, e40, e41⟩ := idx_facts1 ⟨(i 0).val / 2000, hlt⟩
  have e40' : win1_4.index ⟨(i 0).val / 2000, hlt⟩ (0 : Fin 2) = (i 0).val / 2000 := e40
  intro a
  match a with
  | ⟨0, _⟩ =>
    show win1_4.index ⟨(i 0).val / 2000, hlt⟩ (0 : Fin 2) * 2000 ≤ (i 0).val
      ∧ (i 0).val < win1_4.index ⟨(i 0).val / 2000, hlt⟩ (0 : Fin 2) * 2000 + 2000
    omega
  | ⟨1, _⟩ =>
    show win1_4.index ⟨(i 0).val / 2000, hlt⟩ (1 : Fin 2) * 256 ≤ (i 1).val
      ∧ (i 1).val < win1_4.index ⟨(i 0).val / 2000, hlt⟩ (1 : Fin 2) * 256 + 256
    omega

/-- The output array after the whole pipeline is the closed function of the arrays as the region finds them. -/
theorem final1 (c : Dev nD) :
    (dat1 (F := Ideal) V c).arrAt 4 cfg1.N = G1 (V c main_v41) (V c main_v29) (V c main_v12) (V c main_v42) :=
  (dat1 (F := Ideal) V c).arrAt_eq_of_cover 4 (G1 (V c main_v41) (V c main_v29) (V c main_v12) (V c main_v42))
    (fun t _ => flushed1_eq V c t) cover1

/-- The output array read at row `r`, column `q`. -/
theorem final1_apply (c : Dev nD) (r : Fin 50000) (q : Fin 256) :
    (dat1 (F := Ideal) V c).arrAt 4 cfg1.N (ix2 r q)
      = (max ((agg1 V c (ix2 r q) + hw1 V c (ix2 r q) * dis1 V c (ix2 r (0 : Fin 1)))
              + bias1 V c (ix2 (0 : Fin 1) q)) (0 : EReal) : EReal) := by
  rw [final1]
  rfl

end Cert.KernelIdeal.RegVal

end
-- ==== Proof.KI.Val2.lean ====
/- REGION 2, read at the ideal instance: the output array after the whole pipeline is the product of the left
   array and the right array, entry by entry. Point `t` of the 25 writes rows 2000·t … 2000·t+1999 of the product: its
   left block is those rows of the left array, its right block the whole right array, and the body's payload is their
   product (narrowing to bf16 is the identity on ideal values; the accumulator starts at zero). The 25 row blocks tile
   the 50000 rows, so every entry is written by the point `r / 2000`. -/
import proofs.«131909_j56581899158174_1_alg».proof.Proof.KI.Reg2
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.RegVal

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-! ## The body's product at an entry -/

/-- The left operand's index at output entry (p, q) and contraction index k: row p … -/
theorem lhs2_0 (i : S2000x256.Idx) (k : dot_S2000x256_S256x256_S2000x256_1_0_0_1_n_n.contr.Idx) : (dot_S2000x256_S256x256_S2000x256_1_0_0_1_n_n.lhsIdx i k 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- … column k; -/
theorem lhs2_1 (i : S2000x256.Idx) (k : dot_S2000x256_S256x256_S2000x256_1_0_0_1_n_n.contr.Idx) : (dot_S2000x256_S256x256_S2000x256_1_0_0_1_n_n.lhsIdx i k 1).val = (k ⟨0, by decide⟩).val :=
  dot_S2000x256_S256x256_S2000x256_1_0_0_1_n_n.lhsIdx_val_of_single rfl i k
/-- the right operand's: row k … -/
theorem rhs2_0 (i : S2000x256.Idx) (k : dot_S2000x256_S256x256_S2000x256_1_0_0_1_n_n.contr.Idx) : (dot_S2000x256_S256x256_S2000x256_1_0_0_1_n_n.rhsIdx i k 0).val = (k ⟨0, by decide⟩).val :=
  dot_S2000x256_S256x256_S2000x256_1_0_0_1_n_n.rhsIdx_val_of_single rfl i k
/-- … column q. -/
theorem rhs2_1 (i : S2000x256.Idx) (k : dot_S2000x256_S256x256_S2000x256_1_0_0_1_n_n.contr.Idx) : (dot_S2000x256_S256x256_S2000x256_1_0_0_1_n_n.rhsIdx i k 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The body's payload at entry (p, q): the sum over k of left(p, k) · right(k, q). -/
theorem pay2_apply (x0 : Vec Ideal S2000x256 .f32) (x1 : Vec Ideal S256x256 .f32) (p : Fin 2000) (q : Fin 256) :
    k2_pay1 (F := Ideal) x0 x1 (ix2 p q) = ∑ k : Fin 256, x0 (ix2 p k) * x1 (ix2 k q) := by
  unfold k2_pay1
  refine (Ideal.matmul_constant_zero_apply dot_S2000x256_S256x256_S2000x256_1_0_0_1_n_n none _ _ (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs2_0 _ _
    | ⟨1, _⟩ => exact (lhs2_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs2_0 _ _).trans hk
    | ⟨1, _⟩ => exact rhs2_1 _ _)
  rw [el, er]
  rw [shapeCast_self]
  rfl

/-! ## The blocks, as entries of the arrays -/

/-- The printed index maps over the 25 points: the left and the output window move down one row block per point; the
    right window stays at its one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left block at point `t` is rows 2000·t … 2000·t+1999 of the left array. -/
theorem iblk2_0_apply (c : Dev nD) (t : Fin cfg2.N) (p : Fin 2000) (k : Fin 256) (hp : 2000 * t.val + p.val < 50000) :
    (iblk2 V c 0 t : Vec Ideal S2000x256 .f32) (ix2 p k) = (V c main_v43 : S50000x256.Idx → EReal) (ix2 ⟨2000 * t.val + p.val, hp⟩ k) := by
  obtain ⟨e0, e1, -⟩ := idx_facts2 t
  unfold iblk2
  rw [View.read_apply]
  show V c main_v43 _ = V c main_v43 _
  congr 1
  funext a
  apply Fin.ext
  match a with
  | ⟨0, _⟩ => show win2_0.index t 0 * 2000 + 1 * p.val = 2000 * t.val + p.val; rw [e0]; omega
  | ⟨1, _⟩ => show win2_0.index t 1 * 256 + 1 * k.val = k.val; rw [e1]; omega

/-- The right block at every point is the whole right array. -/
theorem iblk2_1_apply (c : Dev nD) (t : Fin cfg2.N) (k : Fin 256) (q : Fin 256) :
    (iblk2 V c 1 t : Vec Ideal S256x256 .f32) (ix2 k q) = (V c main_arg7 : S256x256.Idx → EReal) (ix2 k q) := by
  obtain ⟨-, -, e0, e1, -⟩ := idx_facts2 t
  unfold iblk2
  rw [View.read_apply]
  show V c main_arg7 _ = V c main_arg7 _
  congr 1
  funext a
  apply Fin.ext
  match a with
  | ⟨0, _⟩ => show win2_1.index t 0 * 256 + 1 * k.val = k.val; rw [e0]; omega
  | ⟨1, _⟩ => show win2_1.index t 1 * 256 + 1 * q.val = q.val; rw [e1]; omega

/-! ## What each point writes back, and the array after the last -/

/-- The product of the two arrays, entry by entry. -/
def prod2 (A : S50000x256.Idx → EReal) (B : S256x256.Idx → EReal) : S50000x256.Idx → EReal :=
  fun i => ∑ k : Fin 256, A (ix2 (⟨(i 0).val, idx2_lt0 i⟩ : Fin 50000) k) * B (ix2 k (⟨(i 1).val, idx2_lt1 i⟩ : Fin 256))

/-- Point `t` writes back rows 2000·t … 2000·t+1999 of the product. -/
theorem flushed2_eq (c : Dev nD) (t : Fin cfg2.N) :
    (dat2 V c).flushed 2 t = ((cfg2.win 2).blk t).view.read (Elt Ideal) (prod2 (V c main_v43) (V c main_arg7)) := by
  show (cfg2.win 2).cut (grid2.coords t) ((dat2 V c).after 2 t) = _
  rw [after2_2]
  unfold out2_2
  rw [View.canon_unit_zero hz2]
  simp only [View.ld_unit_zero (S := S2000x256) hz2, View.ld_unit_zero (S := S256x256) hz2]
  funext j
  obtain ⟨p, q, rfl⟩ : ∃ (p : Fin 2000) (q : Fin 256), j = ix2 p q := ⟨j 0, j 1, eq_ix2 j⟩
  obtain ⟨-, -, -, -, e0, e1⟩ := idx_facts2 t
  have hN : t.val < 25 := Nat.lt_of_lt_of_eq t.isLt N_2
  have hp : 2000 * t.val + p.val < 50000 := by have := p.isLt; omega
  have hi : ((cfg2.win 2).blk t).view.emb (ix2 p q) = (ix2 (⟨2000 * t.val + p.val, hp⟩ : Fin 50000) q : S50000x256.Idx) := by
    funext a
    apply Fin.ext
    match a with
    | ⟨0, _⟩ => show win2_2.index t 0 * 2000 + 1 * p.val = 2000 * t.val + p.val; rw [e0]; omega
    | ⟨1, _⟩ => show win2_2.index t 1 * 256 + 1 * q.val = q.val; rw [e1]; omega
  show k2_pay1 (iblk2 V c 0 t) (iblk2 V c 1 t) (ix2 p q) = prod2 (V c main_v43) (V c main_arg7) (((cfg2.win 2).blk t).view.emb (ix2 p q))
  rw [hi]
  refine (pay2_apply _ _ p q).trans ?_
  unfold prod2
  refine Finset.sum_congr rfl fun k _ => ?_
  rw [iblk2_0_apply V c t p k hp, iblk2_1_apply V c t k q]

/-- An entry of the output array is in point `t`'s block iff each coordinate is in the block's range on its axis. -/
theorem mem_blk2 (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v44).slice (win2_2.rect t)).set ↔ _
  rw [View.set_slice_whole, Rect.mem_set_unit]
  exact Iff.rfl

/-- Every entry of the output array is written back by some point: row `r` by point `r / 2000`. -/
theorem cover2 (i : S50000x256.Idx) : ∃ t : Fin cfg2.N, (cfg2.win 2).flush t = true ∧ i ∈ ((cfg2.win 2).blk t).view.set := by
  have h0 : (i 0).val < 50000 := idx2_lt0 i
  have h1 : (i 1).val < 256 := idx2_lt1 i
  have ht : (i 0).val / 2000 < cfg2.N := Nat.lt_of_lt_of_eq (show (i 0).val / 2000 < 25 by omega) N_2.symm
  obtain ⟨-, -, -, -, e0, e1⟩ := idx_facts2 ⟨(i 0).val / 2000, ht⟩
  refine ⟨⟨(i 0).val / 2000, ht⟩, flush2_2 _, ?_⟩
  rw [mem_blk2]
  intro a
  match a with
  | ⟨0, _⟩ =>
    show win2_2.index ⟨(i 0).val / 2000, ht⟩ 0 * 2000 ≤ (i 0).val ∧ (i 0).val < win2_2.index ⟨(i 0).val / 2000, ht⟩ 0 * 2000 + 2000
    rw [e0]
    show (i 0).val / 2000 * 2000 ≤ (i 0).val ∧ (i 0).val < (i 0).val / 2000 * 2000 + 2000
    omega
  | ⟨1, _⟩ =>
    show win2_2.index ⟨(i 0).val / 2000, ht⟩ 1 * 256 ≤ (i 1).val ∧ (i 1).val < win2_2.index ⟨(i 0).val / 2000, ht⟩ 1 * 256 + 256
    rw [e1]
    omega

/-- The output array after the whole pipeline is the product of the two arrays. -/
theorem final2 (c : Dev nD) : (dat2 V c).arrAt 2 cfg2.N = prod2 (V c main_v43) (V c main_arg7) :=
  (dat2 V c).arrAt_eq_of_cover 2 (prod2 (V c main_v43) (V c main_arg7)) (fun t _ => flushed2_eq V c t) (cover2)

/-- The product at entry (r, q): the sum over k of left(r, k) · right(k, q). -/
theorem prod2_apply (A : S50000x256.Idx → EReal) (B : S256x256.Idx → EReal) (r : Fin 50000) (q : Fin 256) :
    prod2 A B (ValueIdx.ix2 r q) = ∑ k : Fin 256, A (ValueIdx.ix2 r k) * B (ValueIdx.ix2 k q) := rfl

/-- The two argument arrays of the region as it finds them, as functions into the extended reals: the left operand … -/
abbrev x2 (c : Dev nD) : S50000x256.Idx → EReal := V c main_v43
/-- … and the weights. -/
abbrev w2 (c : Dev nD) : S256x256.Idx → EReal := V c main_arg7

/-- The output array after the whole pipeline, read at entry (r, q): the sum over k of left(r, k) · weights(k, q). -/
theorem final2_apply (c : Dev nD) (r : Fin 50000) (q : Fin 256) :
    (Cert.KernelIdeal.Gen.dat2 (F := Ideal) V c).arrAt 2 cfg2.N (ValueIdx.ix2 r q)
      = (∑ k : Fin 256, x2 V c (ValueIdx.ix2 r k) * w2 V c (ValueIdx.ix2 k q)) :=
  congrFun (final2 V c) (ValueIdx.ix2 r q)

end Cert.KernelIdeal.RegVal

end
-- ==== Proof.KI.Val3.lean ====
import proofs.«131909_j56581899158174_1_alg».proof.Proof.KI.Reg3
import proofs.«131909_j56581899158174_1_alg».proof.Proof.LibUnitAxes
import Idealize.ShloMosaic.Lib.Pipeline.Value
import Idealize.ShloMosaic.Lib.ValueLayout
import Idealize.ShloMosaic.PureOps.Ideal.Laws

/-! # Region 3 at the ideal values: the output array as one function of the input arrays

On the extended reals the region's output array, after all 25 points, holds at row `r` and column `q`
`max((a(r,q) + h(r,q) · d(r,0)) + b(0,q), 0)`, where `a`, `h` are the two 50000×256 inputs, `d` the 50000×1 column and
`b` the 1×256 row, all as the region finds them. Point `t` writes rows `2000·t … 2000·t + 1999`; within a block the
body's value at `(p, q)` reads the input blocks at `(p, q)`, the column block at `(p, 0)` and the row at `(0, q)`;
row `r` of the array is written by point `r / 2000`, so the 25 blocks cover the array. -/

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx

-- the core's buffer contents when the region is entered, at the ideal values
variable (V : (c : Dev nD) → (b : Ref sig .tc) → Buf (Elt Ideal) ((c : Thread nD τ).loc b))

theorem hz3 : (![0, 0] : Fin 2 → Nat) = fun _ => 0 := funext fun a => by fin_cases a <;> rfl

/-! ## The four input arrays as the region finds them, as functions to the extended reals -/

abbrev agg3 (c : Dev nD) : S50000x256.Idx → EReal := V c main_v56
abbrev hw3 (c : Dev nD) : S50000x256.Idx → EReal := V c main_v44
abbrev dis3 (c : Dev nD) : S50000x1.Idx → EReal := V c main_v12
abbrev bias3 (c : Dev nD) : S1x256.Idx → EReal := V c main_v57

/-! ## The closed function and the body's value at an index -/

/-- The combine of whole arrays, index by index: `max((a + h · d) + b, 0)` with the column `d` read at the index's row
    and the row `b` at its column. -/
def G3 (a0 a1 : S50000x256.Idx → EReal) (a2 : S50000x1.Idx → EReal) (a3 : S1x256.Idx → EReal) : S50000x256.Idx → EReal :=
  fun i => max ((a0 i + a1 i * a2 (ix2 (i 0) (0 : Fin 1))) + a3 (ix2 (0 : Fin 1) (i 1))) 0

theorem G3_apply (a0 a1 : S50000x256.Idx → EReal) (a2 : S50000x1.Idx → EReal) (a3 : S1x256.Idx → EReal) (r : Fin 50000) (q : Fin 256) :
    G3 a0 a1 a2 a3 (ix2 r q) = max ((a0 (ix2 r q) + a1 (ix2 r q) * a2 (ix2 r (0 : Fin 1))) + a3 (ix2 (0 : Fin 1) q)) 0 := rfl

/-- The body's stored value at `(p, q)` of a block: the casts are of each operand to its own shape, the column is
    spread along its row and the row down its column, the constant is the real zero. -/
theorem pay3_apply (x0 x1 : Vec Ideal S2000x256 .f32) (x2 : Vec Ideal S2000x1 .f32) (x3 : Vec Ideal S1x256 .f32)
    (p : Fin 2000) (q : Fin 256) :
    k3_pay1 x0 x1 x2 x3 (ix2 p q)
      = max ((x0 (ix2 p q) + x1 (ix2 p q) * x2 (ix2 p (0 : Fin 1))) + x3 (ix2 (0 : Fin 1) q)) (0 : EReal) := by
  unfold k3_pay1
  simp only [shapeCast_self]
  rw [maximumf_apply, addf_apply, addf_apply, mulf_apply, broadcast_apply]
  rw [Cert.LibUnitAxes.broadcastTo_a1_ab_apply, broadcastTo_1b_ab_apply]
  exact congrArg (max _) Ideal.ofBits_zero_f32

/-- The body's value at `(p, q)` is the closed function at `(r, q)` when the four blocks, read where the body reads
    them, are the arrays at row `r`. -/
theorem point3 (x0 x1 : Vec Ideal S2000x256 .f32) (x2 : Vec Ideal S2000x1 .f32) (x3 : Vec Ideal S1x256 .f32)
    (a0 a1 : S50000x256.Idx → EReal) (a2 : S50000x1.Idx → EReal) (a3 : S1x256.Idx → EReal)
    (p : Fin 2000) (q : Fin 256) (r : Fin 50000)
    (h0 : x0 (ix2 p q) = a0 (ix2 r q)) (h1 : x1 (ix2 p q) = a1 (ix2 r q))
    (h2 : x2 (ix2 p (0 : Fin 1)) = a2 (ix2 r (0 : Fin 1))) (h3 : x3 (ix2 (0 : Fin 1) q) = a3 (ix2 (0 : Fin 1) q)) :
    k3_pay1 x0 x1 x2 x3 (ix2 p q) = G3 a0 a1 a2 a3 (ix2 r q) := by
  rw [pay3_apply, G3_apply, h0, h1, h2, h3]

/-! ## The index maps, and each input block as rows of its array -/

/-- The printed index maps, decided over the 25 points: the three row-blocked inputs move with the output, whose block
    index is the point's number; the row window stays at block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Window 0's block at point `t`, at `(p, q)`, is its array at row `2000·t + p`. -/
theorem iblk3_0_apply (c : Dev nD) (t : Fin cfg3.N) (p : Fin 2000) (q : Fin 256) (r : Fin 50000) (hr : r.val = t.val * 2000 + p.val) :
    (iblk3 V c 0 t : Vec Ideal S2000x256 .f32) (ix2 p q) = (V c main_v56 : S50000x256.Idx → EReal) (ix2 r q) := by
  obtain ⟨e00, e01, e10, e11, e20, e21, e30, e31, e40, e41⟩ := idx_facts3 t
  unfold iblk3
  rw [View.read_apply]
  show (V c main_v56 : S50000x256.Idx → EReal) _ = (V c main_v56 : S50000x256.Idx → EReal) _
  refine congrArg (V c main_v56 : S50000x256.Idx → EReal) (funext fun a => Fin.ext ?_)
  match a with
  | ⟨0, _⟩ => show win3_0.index t (0 : Fin 2) * 2000 + 1 * p.val = r.val; omega
  | ⟨1, _⟩ => show win3_0.index t (1 : Fin 2) * 256 + 1 * q.val = q.val; omega

/-- Window 1's block at point `t`, at `(p, q)`, is its array at row `2000·t + p`. -/
theorem iblk3_1_apply (c : Dev nD) (t : Fin cfg3.N) (p : Fin 2000) (q : Fin 256) (r : Fin 50000) (hr : r.val = t.val * 2000 + p.val) :
    (iblk3 V c 1 t : Vec Ideal S2000x256 .f32) (ix2 p q) = (V c main_v44 : S50000x256.Idx → EReal) (ix2 r q) := by
  obtain ⟨e00, e01, e10, e11, e20, e21, e30, e31, e40, e41⟩ := idx_facts3 t
  unfold iblk3
  rw [View.read_apply]
  show (V c main_v44 : S50000x256.Idx → EReal) _ = (V c main_v44 : S50000x256.Idx → EReal) _
  refine congrArg (V c main_v44 : S50000x256.Idx → EReal) (funext fun a => Fin.ext ?_)
  match a with
  | ⟨0, _⟩ => show win3_1.index t (0 : Fin 2) * 2000 + 1 * p.val = r.val; omega
  | ⟨1, _⟩ => show win3_1.index t (1 : Fin 2) * 256 + 1 * q.val = q.val; omega

/-- Window 2's block at point `t`, at `(p, 0)`, is the column at row `2000·t + p`. -/
theorem iblk3_2_apply (c : Dev nD) (t : Fin cfg3.N) (p : Fin 2000) (r : Fin 50000) (hr : r.val = t.val * 2000 + p.val) :
    (iblk3 V c 2 t : Vec Ideal S2000x1 .f32) (ix2 p (0 : Fin 1)) = (V c main_v12 : S50000x1.Idx → EReal) (ix2 r (0 : Fin 1)) := by
  obtain ⟨e00, e01, e10, e11, e20, e21, e30, e31, e40, e41⟩ := idx_facts3 t
  unfold iblk3
  rw [View.read_apply]
  show (V c main_v12 : S50000x1.Idx → EReal) _ = (V c main_v12 : S50000x1.Idx → EReal) _
  refine congrArg (V c main_v12 : S50000x1.Idx → EReal) (funext fun a => Fin.ext ?_)
  match a with
  | ⟨0, _⟩ => show win3_2.index t (0 : Fin 2) * 2000 + 1 * p.val = r.val; omega
  | ⟨1, _⟩ => show win3_2.index t (1 : Fin 2) * 1 + 1 * (0 : Fin 1).val = (0 : Fin 1).val; omega

/-- Window 3's block at any point is the whole row. -/
theorem iblk3_3_apply (c : Dev nD) (t : Fin cfg3.N) (q : Fin 256) :
    (iblk3 V c 3 t : Vec Ideal S1x256 .f32) (ix2 (0 : Fin 1) q) = (V c main_v57 : S1x256.Idx → EReal) (ix2 (0 : Fin 1) q) := by
  obtain ⟨e00, e01, e10, e11, e20, e21, e30, e31, e40, e41⟩ := idx_facts3 t
  unfold iblk3
  rw [View.read_apply]
  show (V c main_v57 : S1x256.Idx → EReal) _ = (V c main_v57 : S1x256.Idx → EReal) _
  refine congrArg (V c main_v57 : S1x256.Idx → EReal) (funext fun a => Fin.ext ?_)
  match a with
  | ⟨0, _⟩ => show win3_3.index t (0 : Fin 2) * 1 + 1 * (0 : Fin 1).val = (0 : Fin 1).val; omega
  | ⟨1, _⟩ => show win3_3.index t (1 : Fin 2) * 256 + 1 * q.val = q.val; omega

/-! ## What a point writes back, the cover, and the array -/

/-- What point `t` writes back is block `t` of the closed function of the arrays as the region finds them. -/
theorem flushed3_eq (c : Dev nD) (t : Fin cfg3.N) :
    (dat3 (F := Ideal) V c).flushed 4 t
      = ((cfg3.win 4).blk t).view.read (Elt Ideal) (G3 (V c main_v56) (V c main_v44) (V c main_v12) (V c main_v57)) := by
  show (cfg3.win 4).cut (grid3.coords t) ((dat3 V c).after 4 t) = _
  rw [after3_4]
  unfold out3_4
  rw [View.canon_unit_zero hz3]
  simp only [View.ld_unit_zero (S := S2000x256) hz3, View.ld_unit_zero (S := S2000x1) hz3, View.ld_unit_zero (S := S1x256) hz3]
  obtain ⟨e00, e01, e10, e11, e20, e21, e30, e31, e40, e41⟩ := idx_facts3 t
  have hN : cfg3.N = 25 := N_3
  funext j
  have hp : (j 0).val < 2000 := (j 0).isLt
  have hq : (j 1).val < 256 := (j 1).isLt
  have ht : t.val < 25 := hN ▸ t.isLt
  have hj : (j : S2000x256.Idx) = ix2 (⟨(j 0).val, hp⟩ : Fin 2000) (⟨(j 1).val, hq⟩ : Fin 256) :=
    funext fun a => match a with | ⟨0, _⟩ => rfl | ⟨1, _⟩ => rfl
  have he : ((cfg3.win 4).blk t).view.emb j
      = ix2 (⟨t.val * 2000 + (j 0).val, by omega⟩ : Fin 50000) (⟨(j 1).val, hq⟩ : Fin 256) :=
    funext fun a => Fin.ext (by
      match a with
      | ⟨0, _⟩ => show win3_4.index t (0 : Fin 2) * 2000 + 1 * (j 0).val = t.val * 2000 + (j 0).val; omega
      | ⟨1, _⟩ => show win3_4.index t (1 : Fin 2) * 256 + 1 * (j 1).val = (j 1).val; omega)
  show k3_pay1 (iblk3 V c 0 t) (iblk3 V c 1 t) (iblk3 V c 2 t) (iblk3 V c 3 t) j
    = G3 (V c main_v56) (V c main_v44) (V c main_v12) (V c main_v57) (((cfg3.win 4).blk t).view.emb j)
  rw [he]
  refine (congrArg (k3_pay1 (iblk3 V c 0 t) (iblk3 V c 1 t) (iblk3 V c 2 t) (iblk3 V c 3 t)) hj).trans ?_
  exact point3 (iblk3 V c 0 t) (iblk3 V c 1 t) (iblk3 V c 2 t) (iblk3 V c 3 t)
    (V c main_v56) (V c main_v44) (V c main_v12) (V c main_v57) ⟨(j 0).val, hp⟩ ⟨(j 1).val, hq⟩ ⟨t.val * 2000 + (j 0).val, by omega⟩
    (iblk3_0_apply V c t _ _ _ rfl) (iblk3_1_apply V c t _ _ _ rfl) (iblk3_2_apply V c t _ _ rfl) (iblk3_3_apply V c t _)

/-- An index of the array is in point `t`'s block iff each coordinate is in the block's range on its axis. -/
theorem mem_blk3 (t : Fin cfg3.N) (i : S50000x256.Idx) :
    i ∈ ((cfg3.win 4).blk t).view.set ↔ ∀ a : Fin 2, win3_4.index t a * S2000x256.size a ≤ (i a).val ∧ (i a).val < win3_4.index t a * S2000x256.size a + S2000x256.size a := by
  show i ∈ ((View.whole main_v58).slice (win3_4.rect t)).set ↔ _
  rw [View.set_slice_whole, Rect.mem_set_unit]
  exact Iff.rfl

/-- Row `r` of the array lies in the block of point `r / 2000`, which writes back: the 25 blocks cover the array. -/
theorem cover3 (i : S50000x256.Idx) :
    ∃ t : Fin cfg3.N, (cfg3.win 4).flush t = true ∧ i ∈ ((cfg3.win 4).blk t).view.set := by
  have hi0 : (i 0).val < 50000 := (i 0).isLt
  have hi1 : (i 1).val < 256 := (i 1).isLt
  have hN : cfg3.N = 25 := N_3
  have hlt : (i 0).val / 2000 < cfg3.N := by rw [hN]; omega
  refine ⟨⟨(i 0).val / 2000, hlt⟩, flush3_4 _, ?_⟩
  rw [mem_blk3]
  obtain ⟨e00, e01, e10, e11, e20, e21, e30, e31, e40, e41⟩ := idx_facts3 ⟨(i 0).val / 2000, hlt⟩
  have e40' : win3_4.index ⟨(i 0).val / 2000, hlt⟩ (0 : Fin 2) = (i 0).val / 2000 := e40
  intro a
  match a with
  | ⟨0, _⟩ =>
    show win3_4.index ⟨(i 0).val / 2000, hlt⟩ (0 : Fin 2) * 2000 ≤ (i 0).val
      ∧ (i 0).val < win3_4.index ⟨(i 0).val / 2000, hlt⟩ (0 : Fin 2) * 2000 + 2000
    omega
  | ⟨1, _⟩ =>
    show win3_4.index ⟨(i 0).val / 2000, hlt⟩ (1 : Fin 2) * 256 ≤ (i 1).val
      ∧ (i 1).val < win3_4.index ⟨(i 0).val / 2000, hlt⟩ (1 : Fin 2) * 256 + 256
    omega

/-- The output array after the whole pipeline is the closed function of the arrays as the region finds them. -/
theorem final3 (c : Dev nD) :
    (dat3 (F := Ideal) V c).arrAt 4 cfg3.N = G3 (V c main_v56) (V c main_v44) (V c main_v12) (V c main_v57) :=
  (dat3 (F := Ideal) V c).arrAt_eq_of_cover 4 (G3 (V c main_v56) (V c main_v44) (V c main_v12) (V c main_v57))
    (fun t _ => flushed3_eq V c t) cover3

/-- The output array read at row `r`, column `q`. -/
theorem final3_apply (c : Dev nD) (r : Fin 50000) (q : Fin 256) :
    (dat3 (F := Ideal) V c).arrAt 4 cfg3.N (ix2 r q)
      = (max ((agg3 V c (ix2 r q) + hw3 V c (ix2 r q) * dis3 V c (ix2 r (0 : Fin 1)))
              + bias3 V c (ix2 (0 : Fin 1) q)) (0 : EReal) : EReal) := by
  rw [final3]
  rfl

end Cert.KernelIdeal.RegVal

end
-- ==== Proof.KI.Val4.lean ====
/- REGION 4, read at the ideal instance: the output array after the whole pipeline is the product of the left
   array and the right array, entry by entry. Point `t` of the 25 writes rows 2000·t … 2000·t+1999 of the product: its
   left block is those rows of the left array, its right block the whole right array, and the body's payload is their
   product (narrowing to bf16 is the identity on ideal values; the accumulator starts at zero). The 25 row blocks tile
   the 50000 rows, so every entry is written by the point `r / 2000`. -/
import proofs.«131909_j56581899158174_1_alg».proof.Proof.KI.Reg4
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.RegVal

open Cert.KernelIdeal Cert.KernelIdeal.Gen

variable (V : (c : Dev nD) → (b : Ref sig .tc) → Buf (Elt Ideal) ((c : Thread nD τ).loc b))

theorem hz4 : (![0, 0] : Fin 2 → Nat) = fun _ => 0 := funext fun a => by fin_cases a <;> rfl

/-! ## The body's product at an entry -/

/-- The left operand's index at output entry (p, q) and contraction index k: row p … -/
theorem lhs4_0 (i : S2000x256.Idx) (k : dot_S2000x256_S256x256_S2000x256_1_0_0_1_n_n.contr.Idx) : (dot_S2000x256_S256x256_S2000x256_1_0_0_1_n_n.lhsIdx i k 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- … column k; -/
theorem lhs4_1 (i : S2000x256.Idx) (k : dot_S2000x256_S256x256_S2000x256_1_0_0_1_n_n.contr.Idx) : (dot_S2000x256_S256x256_S2000x256_1_0_0_1_n_n.lhsIdx i k 1).val = (k ⟨0, by decide⟩).val :=
  dot_S2000x256_S256x256_S2000x256_1_0_0_1_n_n.lhsIdx_val_of_single rfl i k
/-- the right operand's: row k … -/
theorem rhs4_0 (i : S2000x256.Idx) (k : dot_S2000x256_S256x256_S2000x256_1_0_0_1_n_n.contr.Idx) : (dot_S2000x256_S256x256_S2000x256_1_0_0_1_n_n.rhsIdx i k 0).val = (k ⟨0, by decide⟩).val :=
  dot_S2000x256_S256x256_S2000x256_1_0_0_1_n_n.rhsIdx_val_of_single rfl i k
/-- … column q. -/
theorem rhs4_1 (i : S2000x256.Idx) (k : dot_S2000x256_S256x256_S2000x256_1_0_0_1_n_n.contr.Idx) : (dot_S2000x256_S256x256_S2000x256_1_0_0_1_n_n.rhsIdx i k 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The body's payload at entry (p, q): the sum over k of left(p, k) · right(k, q). -/
theorem pay4_apply (x0 : Vec Ideal S2000x256 .f32) (x1 : Vec Ideal S256x256 .f32) (p : Fin 2000) (q : Fin 256) :
    k4_pay1 (F := Ideal) x0 x1 (ix2 p q) = ∑ k : Fin 256, x0 (ix2 p k) * x1 (ix2 k q) := by
  unfold k4_pay1
  refine (Ideal.matmul_constant_zero_apply dot_S2000x256_S256x256_S2000x256_1_0_0_1_n_n none _ _ (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs4_0 _ _
    | ⟨1, _⟩ => exact (lhs4_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs4_0 _ _).trans hk
    | ⟨1, _⟩ => exact rhs4_1 _ _)
  rw [el, er]
  rw [shapeCast_self]
  rfl

/-! ## The blocks, as entries of the arrays -/

/-- The printed index maps over the 25 points: the left and the output window move down one row block per point; the
    right window stays at its one block. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left block at point `t` is rows 2000·t … 2000·t+1999 of the left array. -/
theorem iblk4_0_apply (c : Dev nD) (t : Fin cfg4.N) (p : Fin 2000) (k : Fin 256) (hp : 2000 * t.val + p.val < 50000) :
    (iblk4 V c 0 t : Vec Ideal S2000x256 .f32) (ix2 p k) = (V c main_v58 : S50000x256.Idx → EReal) (ix2 ⟨2000 * t.val + p.val, hp⟩ k) := by
  obtain ⟨e0, e1, -⟩ := idx_facts4 t
  unfold iblk4
  rw [View.read_apply]
  show V c main_v58 _ = V c main_v58 _
  congr 1
  funext a
  apply Fin.ext
  match a with
  | ⟨0, _⟩ => show win4_0.index t 0 * 2000 + 1 * p.val = 2000 * t.val + p.val; rw [e0]; omega
  | ⟨1, _⟩ => show win4_0.index t 1 * 256 + 1 * k.val = k.val; rw [e1]; omega

/-- The right block at every point is the whole right array. -/
theorem iblk4_1_apply (c : Dev nD) (t : Fin cfg4.N) (k : Fin 256) (q : Fin 256) :
    (iblk4 V c 1 t : Vec Ideal S256x256 .f32) (ix2 k q) = (V c main_arg9 : S256x256.Idx → EReal) (ix2 k q) := by
  obtain ⟨-, -, e0, e1, -⟩ := idx_facts4 t
  unfold iblk4
  rw [View.read_apply]
  show V c main_arg9 _ = V c main_arg9 _
  congr 1
  funext a
  apply Fin.ext
  match a with
  | ⟨0, _⟩ => show win4_1.index t 0 * 256 + 1 * k.val = k.val; rw [e0]; omega
  | ⟨1, _⟩ => show win4_1.index t 1 * 256 + 1 * q.val = q.val; rw [e1]; omega

/-! ## What each point writes back, and the array after the last -/

/-- The product of the two arrays, entry by entry. -/
def prod4 (A : S50000x256.Idx → EReal) (B : S256x256.Idx → EReal) : S50000x256.Idx → EReal :=
  fun i => ∑ k : Fin 256, A (ix2 (⟨(i 0).val, idx2_lt0 i⟩ : Fin 50000) k) * B (ix2 k (⟨(i 1).val, idx2_lt1 i⟩ : Fin 256))

/-- Point `t` writes back rows 2000·t … 2000·t+1999 of the product. -/
theorem flushed4_eq (c : Dev nD) (t : Fin cfg4.N) :
    (dat4 V c).flushed 2 t = ((cfg4.win 2).blk t).view.read (Elt Ideal) (prod4 (V c main_v58) (V c main_arg9)) := by
  show (cfg4.win 2).cut (grid4.coords t) ((dat4 V c).after 2 t) = _
  rw [after4_2]
  unfold out4_2
  rw [View.canon_unit_zero hz4]
  simp only [View.ld_unit_zero (S := S2000x256) hz4, View.ld_unit_zero (S := S256x256) hz4]
  funext j
  obtain ⟨p, q, rfl⟩ : ∃ (p : Fin 2000) (q : Fin 256), j = ix2 p q := ⟨j 0, j 1, eq_ix2 j⟩
  obtain ⟨-, -, -, -, e0, e1⟩ := idx_facts4 t
  have hN : t.val < 25 := Nat.lt_of_lt_of_eq t.isLt N_4
  have hp : 2000 * t.val + p.val < 50000 := by have := p.isLt; omega
  have hi : ((cfg4.win 2).blk t).view.emb (ix2 p q) = (ix2 (⟨2000 * t.val + p.val, hp⟩ : Fin 50000) q : S50000x256.Idx) := by
    funext a
    apply Fin.ext
    match a with
    | ⟨0, _⟩ => show win4_2.index t 0 * 2000 + 1 * p.val = 2000 * t.val + p.val; rw [e0]; omega
    | ⟨1, _⟩ => show win4_2.index t 1 * 256 + 1 * q.val = q.val; rw [e1]; omega
  show k4_pay1 (iblk4 V c 0 t) (iblk4 V c 1 t) (ix2 p q) = prod4 (V c main_v58) (V c main_arg9) (((cfg4.win 2).blk t).view.emb (ix2 p q))
  rw [hi]
  refine (pay4_apply _ _ p q).trans ?_
  unfold prod4
  refine Finset.sum_congr rfl fun k _ => ?_
  rw [iblk4_0_apply V c t p k hp, iblk4_1_apply V c t k q]

/-- An entry of the output array is in point `t`'s block iff each coordinate is in the block's range on its axis. -/
theorem mem_blk4 (t : Fin cfg4.N) (i : S50000x256.Idx) :
    i ∈ ((cfg4.win 2).blk t).view.set ↔ ∀ a : Fin 2, win4_2.index t a * S2000x256.size a ≤ (i a).val ∧ (i a).val < win4_2.index t a * S2000x256.size a + S2000x256.size a := by
  show i ∈ ((View.whole main_v59).slice (win4_2.rect t)).set ↔ _
  rw [View.set_slice_whole, Rect.mem_set_unit]
  exact Iff.rfl

/-- Every entry of the output array is written back by some point: row `r` by point `r / 2000`. -/
theorem cover4 (i : S50000x256.Idx) : ∃ t : Fin cfg4.N, (cfg4.win 2).flush t = true ∧ i ∈ ((cfg4.win 2).blk t).view.set := by
  have h0 : (i 0).val < 50000 := idx2_lt0 i
  have h1 : (i 1).val < 256 := idx2_lt1 i
  have ht : (i 0).val / 2000 < cfg4.N := Nat.lt_of_lt_of_eq (show (i 0).val / 2000 < 25 by omega) N_4.symm
  obtain ⟨-, -, -, -, e0, e1⟩ := idx_facts4 ⟨(i 0).val / 2000, ht⟩
  refine ⟨⟨(i 0).val / 2000, ht⟩, flush4_2 _, ?_⟩
  rw [mem_blk4]
  intro a
  match a with
  | ⟨0, _⟩ =>
    show win4_2.index ⟨(i 0).val / 2000, ht⟩ 0 * 2000 ≤ (i 0).val ∧ (i 0).val < win4_2.index ⟨(i 0).val / 2000, ht⟩ 0 * 2000 + 2000
    rw [e0]
    show (i 0).val / 2000 * 2000 ≤ (i 0).val ∧ (i 0).val < (i 0).val / 2000 * 2000 + 2000
    omega
  | ⟨1, _⟩ =>
    show win4_2.index ⟨(i 0).val / 2000, ht⟩ 1 * 256 ≤ (i 1).val ∧ (i 1).val < win4_2.index ⟨(i 0).val / 2000, ht⟩ 1 * 256 + 256
    rw [e1]
    omega

/-- The output array after the whole pipeline is the product of the two arrays. -/
theorem final4 (c : Dev nD) : (dat4 V c).arrAt 2 cfg4.N = prod4 (V c main_v58) (V c main_arg9) :=
  (dat4 V c).arrAt_eq_of_cover 2 (prod4 (V c main_v58) (V c main_arg9)) (fun t _ => flushed4_eq V c t) (cover4)

/-- The product at entry (r, q): the sum over k of left(r, k) · right(k, q). -/
theorem prod4_apply (A : S50000x256.Idx → EReal) (B : S256x256.Idx → EReal) (r : Fin 50000) (q : Fin 256) :
    prod4 A B (ValueIdx.ix2 r q) = ∑ k : Fin 256, A (ValueIdx.ix2 r k) * B (ValueIdx.ix2 k q) := rfl

/-- The two argument arrays of the region as it finds them, as functions into the extended reals: the left operand … -/
abbrev x4 (c : Dev nD) : S50000x256.Idx → EReal := V c main_v58
/-- … and the weights. -/
abbrev w4 (c : Dev nD) : S256x256.Idx → EReal := V c main_arg9

/-- The output array after the whole pipeline, read at entry (r, q): the sum over k of left(r, k) · weights(k, q). -/
theorem final4_apply (c : Dev nD) (r : Fin 50000) (q : Fin 256) :
    (Cert.KernelIdeal.Gen.dat4 (F := Ideal) V c).arrAt 2 cfg4.N (ValueIdx.ix2 r q)
      = (∑ k : Fin 256, x4 V c (ValueIdx.ix2 r k) * w4 V c (ValueIdx.ix2 k q)) :=
  congrFun (final4 V c) (ValueIdx.ix2 r q)

end Cert.KernelIdeal.RegVal

end
-- ==== Proof.KI.Val5.lean ====
import proofs.«131909_j56581899158174_1_alg».proof.Proof.KI.Reg5
import proofs.«131909_j56581899158174_1_alg».proof.Proof.LibUnitAxes
import Idealize.ShloMosaic.Lib.Pipeline.Value
import Idealize.ShloMosaic.Lib.ValueLayout
import Idealize.ShloMosaic.PureOps.Ideal.Laws

/-! # Region 5 at the ideal values: the output array as one function of the input arrays

On the extended reals the region's output array, after all 25 points, holds at row `r` and column `q`
`max((a(r,q) + h(r,q) · d(r,0)) + b(0,q), 0)`, where `a`, `h` are the two 50000×256 inputs, `d` the 50000×1 column and
`b` the 1×256 row, all as the region finds them. Point `t` writes rows `2000·t … 2000·t + 1999`; within a block the
body's value at `(p, q)` reads the input blocks at `(p, q)`, the column block at `(p, 0)` and the row at `(0, q)`;
row `r` of the array is written by point `r / 2000`, so the 25 blocks cover the array. -/

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx

-- the core's buffer contents when the region is entered, at the ideal values
variable (V : (c : Dev nD) → (b : Ref sig .tc) → Buf (Elt Ideal) ((c : Thread nD τ).loc b))

theorem hz5 : (![0, 0] : Fin 2 → Nat) = fun _ => 0 := funext fun a => by fin_cases a <;> rfl

/-! ## The four input arrays as the region finds them, as functions to the extended reals -/

abbrev agg5 (c : Dev nD) : S50000x256.Idx → EReal := V c main_v71
abbrev hw5 (c : Dev nD) : S50000x256.Idx → EReal := V c main_v59
abbrev dis5 (c : Dev nD) : S50000x1.Idx → EReal := V c main_v12
abbrev bias5 (c : Dev nD) : S1x256.Idx → EReal := V c main_v72

/-! ## The closed function and the body's value at an index -/

/-- The combine of whole arrays, index by index: `max((a + h · d) + b, 0)` with the column `d` read at the index's row
    and the row `b` at its column. -/
def G5 (a0 a1 : S50000x256.Idx → EReal) (a2 : S50000x1.Idx → EReal) (a3 : S1x256.Idx → EReal) : S50000x256.Idx → EReal :=
  fun i => max ((a0 i + a1 i * a2 (ix2 (i 0) (0 : Fin 1))) + a3 (ix2 (0 : Fin 1) (i 1))) 0

theorem G5_apply (a0 a1 : S50000x256.Idx → EReal) (a2 : S50000x1.Idx → EReal) (a3 : S1x256.Idx → EReal) (r : Fin 50000) (q : Fin 256) :
    G5 a0 a1 a2 a3 (ix2 r q) = max ((a0 (ix2 r q) + a1 (ix2 r q) * a2 (ix2 r (0 : Fin 1))) + a3 (ix2 (0 : Fin 1) q)) 0 := rfl

/-- The body's stored value at `(p, q)` of a block: the casts are of each operand to its own shape, the column is
    spread along its row and the row down its column, the constant is the real zero. -/
theorem pay5_apply (x0 x1 : Vec Ideal S2000x256 .f32) (x2 : Vec Ideal S2000x1 .f32) (x3 : Vec Ideal S1x256 .f32)
    (p : Fin 2000) (q : Fin 256) :
    k5_pay1 x0 x1 x2 x3 (ix2 p q)
      = max ((x0 (ix2 p q) + x1 (ix2 p q) * x2 (ix2 p (0 : Fin 1))) + x3 (ix2 (0 : Fin 1) q)) (0 : EReal) := by
  unfold k5_pay1
  simp only [shapeCast_self]
  rw [maximumf_apply, addf_apply, addf_apply, mulf_apply, broadcast_apply]
  rw [Cert.LibUnitAxes.broadcastTo_a1_ab_apply, broadcastTo_1b_ab_apply]
  exact congrArg (max _) Ideal.ofBits_zero_f32

/-- The body's value at `(p, q)` is the closed function at `(r, q)` when the four blocks, read where the body reads
    them, are the arrays at row `r`. -/
theorem point5 (x0 x1 : Vec Ideal S2000x256 .f32) (x2 : Vec Ideal S2000x1 .f32) (x3 : Vec Ideal S1x256 .f32)
    (a0 a1 : S50000x256.Idx → EReal) (a2 : S50000x1.Idx → EReal) (a3 : S1x256.Idx → EReal)
    (p : Fin 2000) (q : Fin 256) (r : Fin 50000)
    (h0 : x0 (ix2 p q) = a0 (ix2 r q)) (h1 : x1 (ix2 p q) = a1 (ix2 r q))
    (h2 : x2 (ix2 p (0 : Fin 1)) = a2 (ix2 r (0 : Fin 1))) (h3 : x3 (ix2 (0 : Fin 1) q) = a3 (ix2 (0 : Fin 1) q)) :
    k5_pay1 x0 x1 x2 x3 (ix2 p q) = G5 a0 a1 a2 a3 (ix2 r q) := by
  rw [pay5_apply, G5_apply, h0, h1, h2, h3]

/-! ## The index maps, and each input block as rows of its array -/

/-- The printed index maps, decided over the 25 points: the three row-blocked inputs move with the output, whose block
    index is the point's number; the row window stays at block 0. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Window 0's block at point `t`, at `(p, q)`, is its array at row `2000·t + p`. -/
theorem iblk5_0_apply (c : Dev nD) (t : Fin cfg5.N) (p : Fin 2000) (q : Fin 256) (r : Fin 50000) (hr : r.val = t.val * 2000 + p.val) :
    (iblk5 V c 0 t : Vec Ideal S2000x256 .f32) (ix2 p q) = (V c main_v71 : S50000x256.Idx → EReal) (ix2 r q) := by
  obtain ⟨e00, e01, e10, e11, e20, e21, e30, e31, e40, e41⟩ := idx_facts5 t
  unfold iblk5
  rw [View.read_apply]
  show (V c main_v71 : S50000x256.Idx → EReal) _ = (V c main_v71 : S50000x256.Idx → EReal) _
  refine congrArg (V c main_v71 : S50000x256.Idx → EReal) (funext fun a => Fin.ext ?_)
  match a with
  | ⟨0, _⟩ => show win5_0.index t (0 : Fin 2) * 2000 + 1 * p.val = r.val; omega
  | ⟨1, _⟩ => show win5_0.index t (1 : Fin 2) * 256 + 1 * q.val = q.val; omega

/-- Window 1's block at point `t`, at `(p, q)`, is its array at row `2000·t + p`. -/
theorem iblk5_1_apply (c : Dev nD) (t : Fin cfg5.N) (p : Fin 2000) (q : Fin 256) (r : Fin 50000) (hr : r.val = t.val * 2000 + p.val) :
    (iblk5 V c 1 t : Vec Ideal S2000x256 .f32) (ix2 p q) = (V c main_v59 : S50000x256.Idx → EReal) (ix2 r q) := by
  obtain ⟨e00, e01, e10, e11, e20, e21, e30, e31, e40, e41⟩ := idx_facts5 t
  unfold iblk5
  rw [View.read_apply]
  show (V c main_v59 : S50000x256.Idx → EReal) _ = (V c main_v59 : S50000x256.Idx → EReal) _
  refine congrArg (V c main_v59 : S50000x256.Idx → EReal) (funext fun a => Fin.ext ?_)
  match a with
  | ⟨0, _⟩ => show win5_1.index t (0 : Fin 2) * 2000 + 1 * p.val = r.val; omega
  | ⟨1, _⟩ => show win5_1.index t (1 : Fin 2) * 256 + 1 * q.val = q.val; omega

/-- Window 2's block at point `t`, at `(p, 0)`, is the column at row `2000·t + p`. -/
theorem iblk5_2_apply (c : Dev nD) (t : Fin cfg5.N) (p : Fin 2000) (r : Fin 50000) (hr : r.val = t.val * 2000 + p.val) :
    (iblk5 V c 2 t : Vec Ideal S2000x1 .f32) (ix2 p (0 : Fin 1)) = (V c main_v12 : S50000x1.Idx → EReal) (ix2 r (0 : Fin 1)) := by
  obtain ⟨e00, e01, e10, e11, e20, e21, e30, e31, e40, e41⟩ := idx_facts5 t
  unfold iblk5
  rw [View.read_apply]
  show (V c main_v12 : S50000x1.Idx → EReal) _ = (V c main_v12 : S50000x1.Idx → EReal) _
  refine congrArg (V c main_v12 : S50000x1.Idx → EReal) (funext fun a => Fin.ext ?_)
  match a with
  | ⟨0, _⟩ => show win5_2.index t (0 : Fin 2) * 2000 + 1 * p.val = r.val; omega
  | ⟨1, _⟩ => show win5_2.index t (1 : Fin 2) * 1 + 1 * (0 : Fin 1).val = (0 : Fin 1).val; omega

/-- Window 3's block at any point is the whole row. -/
theorem iblk5_3_apply (c : Dev nD) (t : Fin cfg5.N) (q : Fin 256) :
    (iblk5 V c 3 t : Vec Ideal S1x256 .f32) (ix2 (0 : Fin 1) q) = (V c main_v72 : S1x256.Idx → EReal) (ix2 (0 : Fin 1) q) := by
  obtain ⟨e00, e01, e10, e11, e20, e21, e30, e31, e40, e41⟩ := idx_facts5 t
  unfold iblk5
  rw [View.read_apply]
  show (V c main_v72 : S1x256.Idx → EReal) _ = (V c main_v72 : S1x256.Idx → EReal) _
  refine congrArg (V c main_v72 : S1x256.Idx → EReal) (funext fun a => Fin.ext ?_)
  match a with
  | ⟨0, _⟩ => show win5_3.index t (0 : Fin 2) * 1 + 1 * (0 : Fin 1).val = (0 : Fin 1).val; omega
  | ⟨1, _⟩ => show win5_3.index t (1 : Fin 2) * 256 + 1 * q.val = q.val; omega

/-! ## What a point writes back, the cover, and the array -/

/-- What point `t` writes back is block `t` of the closed function of the arrays as the region finds them. -/
theorem flushed5_eq (c : Dev nD) (t : Fin cfg5.N) :
    (dat5 (F := Ideal) V c).flushed 4 t
      = ((cfg5.win 4).blk t).view.read (Elt Ideal) (G5 (V c main_v71) (V c main_v59) (V c main_v12) (V c main_v72)) := by
  show (cfg5.win 4).cut (grid5.coords t) ((dat5 V c).after 4 t) = _
  rw [after5_4]
  unfold out5_4
  rw [View.canon_unit_zero hz5]
  simp only [View.ld_unit_zero (S := S2000x256) hz5, View.ld_unit_zero (S := S2000x1) hz5, View.ld_unit_zero (S := S1x256) hz5]
  obtain ⟨e00, e01, e10, e11, e20, e21, e30, e31, e40, e41⟩ := idx_facts5 t
  have hN : cfg5.N = 25 := N_5
  funext j
  have hp : (j 0).val < 2000 := (j 0).isLt
  have hq : (j 1).val < 256 := (j 1).isLt
  have ht : t.val < 25 := hN ▸ t.isLt
  have hj : (j : S2000x256.Idx) = ix2 (⟨(j 0).val, hp⟩ : Fin 2000) (⟨(j 1).val, hq⟩ : Fin 256) :=
    funext fun a => match a with | ⟨0, _⟩ => rfl | ⟨1, _⟩ => rfl
  have he : ((cfg5.win 4).blk t).view.emb j
      = ix2 (⟨t.val * 2000 + (j 0).val, by omega⟩ : Fin 50000) (⟨(j 1).val, hq⟩ : Fin 256) :=
    funext fun a => Fin.ext (by
      match a with
      | ⟨0, _⟩ => show win5_4.index t (0 : Fin 2) * 2000 + 1 * (j 0).val = t.val * 2000 + (j 0).val; omega
      | ⟨1, _⟩ => show win5_4.index t (1 : Fin 2) * 256 + 1 * (j 1).val = (j 1).val; omega)
  show k5_pay1 (iblk5 V c 0 t) (iblk5 V c 1 t) (iblk5 V c 2 t) (iblk5 V c 3 t) j
    = G5 (V c main_v71) (V c main_v59) (V c main_v12) (V c main_v72) (((cfg5.win 4).blk t).view.emb j)
  rw [he]
  refine (congrArg (k5_pay1 (iblk5 V c 0 t) (iblk5 V c 1 t) (iblk5 V c 2 t) (iblk5 V c 3 t)) hj).trans ?_
  exact point5 (iblk5 V c 0 t) (iblk5 V c 1 t) (iblk5 V c 2 t) (iblk5 V c 3 t)
    (V c main_v71) (V c main_v59) (V c main_v12) (V c main_v72) ⟨(j 0).val, hp⟩ ⟨(j 1).val, hq⟩ ⟨t.val * 2000 + (j 0).val, by omega⟩
    (iblk5_0_apply V c t _ _ _ rfl) (iblk5_1_apply V c t _ _ _ rfl) (iblk5_2_apply V c t _ _ rfl) (iblk5_3_apply V c t _)

/-- An index of the array is in point `t`'s block iff each coordinate is in the block's range on its axis. -/
theorem mem_blk5 (t : Fin cfg5.N) (i : S50000x256.Idx) :
    i ∈ ((cfg5.win 4).blk t).view.set ↔ ∀ a : Fin 2, win5_4.index t a * S2000x256.size a ≤ (i a).val ∧ (i a).val < win5_4.index t a * S2000x256.size a + S2000x256.size a := by
  show i ∈ ((View.whole main_v73).slice (win5_4.rect t)).set ↔ _
  rw [View.set_slice_whole, Rect.mem_set_unit]
  exact Iff.rfl

/-- Row `r` of the array lies in the block of point `r / 2000`, which writes back: the 25 blocks cover the array. -/
theorem cover5 (i : S50000x256.Idx) :
    ∃ t : Fin cfg5.N, (cfg5.win 4).flush t = true ∧ i ∈ ((cfg5.win 4).blk t).view.set := by
  have hi0 : (i 0).val < 50000 := (i 0).isLt
  have hi1 : (i 1).val < 256 := (i 1).isLt
  have hN : cfg5.N = 25 := N_5
  have hlt : (i 0).val / 2000 < cfg5.N := by rw [hN]; omega
  refine ⟨⟨(i 0).val / 2000, hlt⟩, flush5_4 _, ?_⟩
  rw [mem_blk5]
  obtain ⟨e00, e01, e10, e11, e20, e21, e30, e31, e40, e41⟩ := idx_facts5 ⟨(i 0).val / 2000, hlt⟩
  have e40' : win5_4.index ⟨(i 0).val / 2000, hlt⟩ (0 : Fin 2) = (i 0).val / 2000 := e40
  intro a
  match a with
  | ⟨0, _⟩ =>
    show win5_4.index ⟨(i 0).val / 2000, hlt⟩ (0 : Fin 2) * 2000 ≤ (i 0).val
      ∧ (i 0).val < win5_4.index ⟨(i 0).val / 2000, hlt⟩ (0 : Fin 2) * 2000 + 2000
    omega
  | ⟨1, _⟩ =>
    show win5_4.index ⟨(i 0).val / 2000, hlt⟩ (1 : Fin 2) * 256 ≤ (i 1).val
      ∧ (i 1).val < win5_4.index ⟨(i 0).val / 2000, hlt⟩ (1 : Fin 2) * 256 + 256
    omega

/-- The output array after the whole pipeline is the closed function of the arrays as the region finds them. -/
theorem final5 (c : Dev nD) :
    (dat5 (F := Ideal) V c).arrAt 4 cfg5.N = G5 (V c main_v71) (V c main_v59) (V c main_v12) (V c main_v72) :=
  (dat5 (F := Ideal) V c).arrAt_eq_of_cover 4 (G5 (V c main_v71) (V c main_v59) (V c main_v12) (V c main_v72))
    (fun t _ => flushed5_eq V c t) cover5

/-- The output array read at row `r`, column `q`. -/
theorem final5_apply (c : Dev nD) (r : Fin 50000) (q : Fin 256) :
    (dat5 (F := Ideal) V c).arrAt 4 cfg5.N (ix2 r q)
      = (max ((agg5 V c (ix2 r q) + hw5 V c (ix2 r q) * dis5 V c (ix2 r (0 : Fin 1)))
              + bias5 V c (ix2 (0 : Fin 1) q)) (0 : EReal) : EReal) := by
  rw [final5]
  rfl

end Cert.KernelIdeal.RegVal

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.LibPlainFields.lean ====
/-
  A kernel's matrix product whose dimension record is ANY record with the plain lists — contract the left
  operand's last axis with the right operand's first, no batch axis — accumulated into the zero block: its entry
  (a, b) is the sum over c of A(a, c) · B(c, b) on the extended reals.  A program's printed record carries its own
  proof of well-formedness; only the six lists matter, and they are compared here, not the records.
  Generic in the three extents, the operand formats and the precision key.
-/
import proofs.«131909_j56581899158174_1_alg».proof.Proof.LibPlainMatmul

noncomputable section

namespace Cert.LibPlainFields

open Idealize.ShloMosaic Idealize.ShloMosaic.ValueIdx

theorem matmul_plainFields_zero_apply {m k n : Nat} {φ₁ φ₂ : FTy} (D : DotDims ⟨2, ![m, k]⟩ ⟨2, ![k, n]⟩ ⟨2, ![m, n]⟩)
    (h1 : D.lhsContracting = [1]) (h2 : D.rhsContracting = [0]) (h3 : D.lhsNonContracting = [0]) (h4 : D.rhsNonContracting = [1])
    (h5 : D.lhsBatch = []) (h6 : D.rhsBatch = []) (prec : Option ContractPrecision)
    (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  obtain ⟨lc, rc, ln, rn, lb, rb, wf⟩ := D
  dsimp only at h1 h2 h3 h4 h5 h6
  subst h1 h2 h3 h4 h5 h6
  exact Cert.LibPlainMatmul.matmul_plain_zero_apply prec A B a b

end Cert.LibPlainFields

end
-- ==== Proof.KI.Val6.lean ====
/- The value of REGION 6 (the two-layer fully connected head) on the extended reals: the output array after the
   region's one grid point, entry by entry. The one point's blocks are the whole arrays, so the array ends holding the
   body's payload of the five input arrays as the region finds them; the payload at entry (r, q) is
   Σ_j max(Σ_k z(r,k)·W0(k,j) + b0(0,j), 0)·W1(j,q) + b1(0,q): the narrowings to bf16 are the identity on the extended
   reals, a matrix product into the zero accumulator is the plain sum of products, a row broadcast reads the one row. -/
import proofs.«131909_j56581899158174_1_alg».proof.Proof.KI.Reg6
import proofs.«131909_j56581899158174_1_alg».proof.Proof.LibPlainFields
import Idealize.ShloMosaic.Lib.Pipeline.Value
import Idealize.ShloMosaic.Lib.ValueIdx
import Idealize.ShloMosaic.Lib.ValueLayout
import Idealize.ShloMosaic.Lib.Tactic

noncomputable section

namespace Cert.KernelIdeal.RegVal

open Idealize.ShloMosaic Idealize.ShloMosaic.TcCoe Idealize.SL.Sem Idealize.ShloMosaic.ValueIdx
open Idealize.ShloMosaic.Pipeline (Dat)
open Cert.KernelIdeal Cert.KernelIdeal.Gen

/-! ## The body's payload at an entry -/

/-- The head's payload at entry (r, q): the hidden layer's entry (r, j) is the row-by-column sum of products of the
    input and the first weights plus the first bias row's entry j, cut below at zero; the output entry is the
    row-by-column sum of products of the hidden layer and the second weights plus the second bias row's entry q. -/
theorem pay6_apply (x0 : Vec Ideal S64x258 .f32) (x1 : Vec Ideal S258x256 .f32) (x2 : Vec Ideal S1x256 .f32)
    (x3 : Vec Ideal S256x128 .f32) (x4 : Vec Ideal S1x128 .f32) (r : Fin 64) (q : Fin 128) :
    k6_pay1 (F := Ideal) x0 x1 x2 x3 x4 (ix2 r q)
      = (∑ j : Fin 256, max ((∑ k : Fin 258, x0 (ix2 r k) * x1 (ix2 k j)) + x2 (ix2 (0 : Fin 1) j)) (0 : EReal) * x3 (ix2 j q))
        + x4 (ix2 (0 : Fin 1) q) := by
  unfold k6_pay1
  refine congrArg₂ (· + ·) ?_ ?_
  · refine (Cert.LibPlainFields.matmul_plainFields_zero_apply dot_S64x256_S256x128_S64x128_1_0_0_1_n_n rfl rfl rfl rfl rfl rfl none _ _ r q).trans ?_
    refine Finset.sum_congr rfl fun j _ => congrArg₂ (· * ·) ?_ rfl
    refine congrArg₂ max (congrArg₂ (· + ·) ?_ ?_) Ideal.ofBits_zero_f32
    · refine (Cert.LibPlainFields.matmul_plainFields_zero_apply dot_S64x258_S258x256_S64x256_1_0_0_1_n_n rfl rfl rfl rfl rfl rfl none _ _ r j).trans ?_
      exact Finset.sum_congr rfl fun k _ => congrArg₂ (· * ·) (congrFun (shapeCast_self x0 _) _) rfl
    · exact (broadcastTo_1b_ab_apply _ _ r j).trans (congrFun (shapeCast_self x2 _) _)
  · exact (broadcastTo_1b_ab_apply _ _ r q).trans (congrFun (shapeCast_self x4 _) _)

/-! ## From the one point's blocks to the array -/

section Arrays
-- the TensorCore's buffer contents when the region is entered
variable (V : (c : Dev nD) → (b : Ref sig .tc) → Buf (Elt Ideal) ((c : Thread nD τ).loc b))

theorem hz6 : (![0, 0] : Fin 2 → Nat) = fun _ => 0 := funext fun a => by fin_cases a <;> rfl

/-- Each input window's block at the one point is its whole array: the block index is zero on both axes and the
    block has the array's extents. -/
theorem iblk6_0 (c : Dev nD) : iblk6 V c 0 t6_0 = V c main_v86 := by
  have hz' : (fun a => win6_0.index t6_0 a * main_v86.ty.shape.size a) = fun _ => 0 := funext fun a => by fin_cases a <;> decide
  exact Memref.read_access_unit_zero (Elt Ideal) main_v86 hz' (fun a => by rw [congrFun hz' a]; simp) (V c main_v86)
theorem iblk6_1 (c : Dev nD) : iblk6 V c 1 t6_0 = V c main_arg11 := by
  have hz' : (fun a => win6_1.index t6_0 a * main_arg11.ty.shape.size a) = fun _ => 0 := funext fun a => by fin_cases a <;> decide
  exact Memref.read_access_unit_zero (Elt Ideal) main_arg11 hz' (fun a => by rw [congrFun hz' a]; simp) (V c main_arg11)
theorem iblk6_2 (c : Dev nD) : iblk6 V c 2 t6_0 = V c main_v87 := by
  have hz' : (fun a => win6_2.index t6_0 a * main_v87.ty.shape.size a) = fun _ => 0 := funext fun a => by fin_cases a <;> decide
  exact Memref.read_access_unit_zero (Elt Ideal) main_v87 hz' (fun a => by rw [congrFun hz' a]; simp) (V c main_v87)
theorem iblk6_3 (c : Dev nD) : iblk6 V c 3 t6_0 = V c main_arg13 := by
  have hz' : (fun a => win6_3.index t6_0 a * main_arg13.ty.shape.size a) = fun _ => 0 := funext fun a => by fin_cases a <;> decide
  exact Memref.read_access_unit_zero (Elt Ideal) main_arg13 hz' (fun a => by rw [congrFun hz' a]; simp) (V c main_arg13)
theorem iblk6_4 (c : Dev nD) : iblk6 V c 4 t6_0 = V c main_v88 := by
  have hz' : (fun a => win6_4.index t6_0 a * main_v88.ty.shape.size a) = fun _ => 0 := funext fun a => by fin_cases a <;> decide
  exact Memref.read_access_unit_zero (Elt Ideal) main_v88 hz' (fun a => by rw [congrFun hz' a]; simp) (V c main_v88)

/-- What the output array ends holding: the payload of the five input arrays as the region finds them. -/
def head6 (c : Dev nD) : Buf (Elt Ideal) ((c : Thread nD τ).loc main_v89) :=
  k6_pay1 (F := Ideal) (V c main_v86) (V c main_arg11) (V c main_v87) (V c main_arg13) (V c main_v88)

/-- The one write-back writes `head6`: the output's block at the one point is the whole array too. -/
theorem flushed6_eq (c : Dev nD) (t : Fin cfg6.N) :
    (dat6 V c).flushed 5 t = ((cfg6.win 5).blk t).view.read (Elt Ideal) (head6 V c) := by
  obtain rfl : t = t6_0 := fin_N6 t
  show (cfg6.win 5).cut (grid6.coords t6_0) ((dat6 V c).after 5 t6_0) = _
  rw [after6_5, iblk6_0, iblk6_1, iblk6_2, iblk6_3, iblk6_4]
  unfold out6_5
  rw [View.canon_unit_zero hz6]
  simp only [View.ld_unit_zero (S := S64x258) hz6, View.ld_unit_zero (S := S258x256) hz6, View.ld_unit_zero (S := S1x256) hz6,
    View.ld_unit_zero (S := S256x128) hz6, View.ld_unit_zero (S := S1x128) hz6]
  have hz' : (fun a => win6_5.index t6_0 a * main_v89.ty.shape.size a) = fun _ => 0 := funext fun a => by fin_cases a <;> decide
  exact (Memref.read_access_unit_zero (Elt Ideal) main_v89 hz' (fun a => by rw [congrFun hz' a]; simp) (head6 V c)).symm

/-- So the output array ends holding `head6`: the one point's block covers it. -/
theorem final6 (c : Dev nD) : (dat6 V c).arrAt 5 cfg6.N = head6 V c :=
  (dat6 V c).arrAt_eq_of_cover 5 (head6 V c) (fun t _ => flushed6_eq V c t) fun i =>
    ⟨t6_0, flush6_5 t6_0, by
      show i ∈ ((View.whole main_v89).slice (win6_5.rect t6_0)).set
      rw [View.set_slice_whole, Rect.mem_set_unit]
      intro a
      have h0 : (i 0 : Nat) < 64 := (i 0).isLt
      have h1 : (i 1 : Nat) < 128 := (i 1).isLt
      match a with
      | ⟨0, _⟩ => show win6_5.index t6_0 0 * win6_5.size 0 ≤ (i 0 : Nat) ∧ (i 0 : Nat) < win6_5.index t6_0 0 * win6_5.size 0 + win6_5.xsize (grid6.coords t6_0) 0
                  rw [show win6_5.index t6_0 0 * win6_5.size 0 = 0 from by decide +kernel, show win6_5.xsize (grid6.coords t6_0) 0 = 64 from by decide +kernel]; omega
      | ⟨1, _⟩ => show win6_5.index t6_0 1 * win6_5.size 1 ≤ (i 1 : Nat) ∧ (i 1 : Nat) < win6_5.index t6_0 1 * win6_5.size 1 + win6_5.xsize (grid6.coords t6_0) 1
                  rw [show win6_5.index t6_0 1 * win6_5.size 1 = 0 from by decide +kernel, show win6_5.xsize (grid6.coords t6_0) 1 = 128 from by decide +kernel]; omega⟩

/-- The five input arrays as the region finds them, as functions from literal index types to the extended reals. -/
abbrev z6 (c : Dev nD) : S64x258.Idx → EReal := V c main_v86
abbrev w6_0 (c : Dev nD) : S258x256.Idx → EReal := V c main_arg11
abbrev b6_0 (c : Dev nD) : S1x256.Idx → EReal := V c main_v87
abbrev w6_1 (c : Dev nD) : S256x128.Idx → EReal := V c main_arg13
abbrev b6_1 (c : Dev nD) : S1x128.Idx → EReal := V c main_v88

/-- THE OUTPUT ARRAY after the region, at entry (r, q). -/
theorem final6_apply (c : Dev nD) (r : Fin 64) (q : Fin 128) :
    (Cert.KernelIdeal.Gen.dat6 (F := Ideal) V c).arrAt 5 cfg6.N (ValueIdx.ix2 r q)
      = (∑ j : Fin 256, max ((∑ k : Fin 258, z6 V c (ValueIdx.ix2 r k) * w6_0 V c (ValueIdx.ix2 k j))
                             + b6_0 V c (ValueIdx.ix2 (0 : Fin 1) j)) (0 : EReal)
                        * w6_1 V c (ValueIdx.ix2 j q))
        + b6_1 V c (ValueIdx.ix2 (0 : Fin 1) q) :=
  (congrFun (final6 V c) (ix2 r q)).trans (pay6_apply (V c main_v86) (V c main_arg11) (V c main_v87) (V c main_arg13) (V c main_v88) r q)

end Arrays

end Cert.KernelIdeal.RegVal

end
-- ==== Proof.LibCastBroadcast.lean ====
/-
  A vector laid out as a column or as a row: the reshape and the broadcast are one function.

  A vector of N entries becomes an N×1 column either by a shape cast (the entries keep their row-major order) or by a
  broadcast that puts the vector's axis on axis 0; it becomes a 1×n row either by a shape cast or by a broadcast that puts
  its axis on axis 1. In each pair the two arrays have the same entries: the column's entry (r, 0) is the vector's entry r,
  the row's entry (0, q) is the vector's entry q. Generic in the extent and the element type (for the column the extent
  must not be the unit extent, so that the broadcast reads the row coordinate).
-/
import Idealize.ShloMosaic.Lib.Pipeline.Value
import Idealize.ShloMosaic.Lib.ValueIdx

namespace Cert.LibCastBroadcast

open Idealize.ShloMosaic Idealize.ShloMosaic.ValueIdx

variable {α : Type}

/-- [N] → [N, 1]: the cast is the broadcast along axis 0. -/
theorem colCast_eq {N : Nat} (hN : N ≠ 1) (v : (⟨1, ![N]⟩ : Shape).Idx → α)
    (h : (⟨1, ![N]⟩ : Shape).ShapeCasts ⟨2, ![N, 1]⟩) (h' : (⟨1, ![N]⟩ : Shape).BroadcastsInDim ⟨2, ![N, 1]⟩ ![0]) :
    shapeCast ⟨2, ![N, 1]⟩ v h = broadcastInDim ⟨2, ![N, 1]⟩ ![0] h' v := by
  funext i
  obtain ⟨r, z, rfl⟩ : ∃ (r : Fin N) (z : Fin 1), i = ix2 r z := ⟨i 0, i 1, eq_ix2 i⟩
  rw [broadcastInDim_apply ![0] h' v (ix2 r z) (ix1 r) (fun a => match a with
    | ⟨0, _⟩ => by show r.val = if N = 1 then 0 else r.val; rw [if_neg hN])]
  refine shapeCast_apply v h (ix2 r z) (ix1 r) ?_
  rw [Shape.rowMajor_val_one, Shape.rowMajor_val_two]
  show r.val = r.val * 1 + z.val
  have := z.isLt; omega

/-- [n] → [1, n]: the cast is the broadcast along axis 1. -/
theorem rowCast_eq {n : Nat} (v : (⟨1, ![n]⟩ : Shape).Idx → α)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ v h = broadcastInDim ⟨2, ![1, n]⟩ ![1] h' v := by
  funext i
  obtain ⟨z, q, rfl⟩ : ∃ (z : Fin 1) (q : Fin n), i = ix2 z q := ⟨i 0, i 1, eq_ix2 i⟩
  obtain rfl : z = 0 := Subsingleton.elim _ _
  rw [shapeCast_apply v h (ix2 (0 : Fin 1) q) (ix1 q) (by
      rw [Shape.rowMajor_val_one, Shape.rowMajor_val_two]; show q.val = 0 * n + q.val; omega),
    broadcastInDim_apply ![1] h' v (ix2 (0 : Fin 1) q) (ix1 q) (fun a => match a with
      | ⟨0, _⟩ => by
        show q.val = if n = 1 then 0 else q.val
        split
        · have := q.isLt; omega
        · rfl)]

end Cert.LibCastBroadcast
-- ==== Proof.KI.Bridge0.lean ====
/-
  The first stretch of host operations of the kernel's program, read at the buffers later segments use, against the
  reference's stages.  Both programs slice the edge list into sources and targets, count each node's incoming edges,
  add one and take the reciprocal square root (dis); the kernel then lays dis·dis out as a column by a reshape where
  the reference broadcasts the vector along axis 0, and likewise the per-edge factor dis[src]·dis[dst]: a reshape of a
  vector to a column and its broadcast along axis 0 are one array.
-/
import proofs.«131909_j56581899158174_1_alg».proof.Proof.Gen.KernelIdeal.Launch
import proofs.«131909_j56581899158174_1_alg».proof.Proof.Gen.ReferenceIdeal.Read
import proofs.«131909_j56581899158174_1_alg».proof.Proof.LibCastBroadcast
import Idealize.ShloMosaic.Lib.StableHlo.Run

set_option pp.maxSteps 20000
set_option pp.deepTerms false

noncomputable section

namespace Cert.KernelIdeal.Bridge

open Idealize.ShloMosaic Idealize.ShloMosaic.TcCoe Idealize.SL.Sem Idealize.ShloMosaic.StableHlo
open Cert.KernelIdeal Cert.KernelIdeal.Gen

variable (V : Valuation τ sig (Elt Ideal))

/-- The edge sources. -/
theorem host0_src : StableHlo.after (hostOps0 (F := Ideal)) V (Proc.devRef .tc main_v1)
    = Cert.ReferenceIdeal.Read.val_main_v1 (F := Ideal) (V (Proc.devRef .tc main_arg1)) := by
  after_results_simp
  rfl

/-- The edge targets. -/
theorem host0_dst : StableHlo.after (hostOps0 (F := Ideal)) V (Proc.devRef .tc main_v3)
    = Cert.ReferenceIdeal.Read.val_main_v3 (F := Ideal) (V (Proc.devRef .tc main_arg1)) := by
  after_results_simp
  rfl

/-- dis·dis as a column: the kernel's reshape is the reference's broadcast along axis 0. -/
theorem host0_dis2 : StableHlo.after (hostOps0 (F := Ideal)) V (Proc.devRef .tc main_v12)
    = Cert.ReferenceIdeal.Read.val_main_v41 (F := Ideal) (V (Proc.devRef .tc main_arg1)) := by
  after_results_simp
  show shapeCast _ _ shapeCasts_S50000_S50000x1 = _
  exact (Cert.LibCastBroadcast.colCast_eq (N := 50000) (by decide) _ shapeCasts_S50000_S50000x1 bcast_S50000_S50000x1_0).trans rfl

/-- The per-edge factor dis[src]·dis[dst] as a column: again the kernel's reshape is the reference's broadcast. -/
theorem host0_norm : StableHlo.after (hostOps0 (F := Ideal)) V (Proc.devRef .tc main_v28)
    = Cert.ReferenceIdeal.Read.val_main_v34 (F := Ideal) (V (Proc.devRef .tc main_arg1)) := by
  after_results_simp
  show shapeCast _ _ shapeCasts_S800000_S800000x1 = _
  exact (Cert.LibCastBroadcast.colCast_eq (N := 800000) (by decide) _ shapeCasts_S800000_S800000x1 bcast_S800000_S800000x1_0).trans rfl

end Cert.KernelIdeal.Bridge

end
-- ==== Proof.KI.Bridge135.lean ====
/-
  The three stretches of host operations between a projection region and its combine region, read against the
  reference's stages.  Each gathers the projected rows at the edges' sources (an index below zero wrapped by the row
  count), scales each gathered row by the edge's factor dis[src]·dis[dst] broadcast along the row, and adds the scaled
  rows into their edges' targets; and each lays the layer's bias vector out as one row by a reshape, where the
  reference broadcasts it along axis 1.  The operations are the reference's own, so once the buffers the stretch reads
  are the reference's stages, so is the sum it writes.
-/
import proofs.«131909_j56581899158174_1_alg».proof.Proof.Gen.KernelIdeal.Launch
import proofs.«131909_j56581899158174_1_alg».proof.Proof.Gen.ReferenceIdeal.Read
import proofs.«131909_j56581899158174_1_alg».proof.Proof.LibCastBroadcast
import Idealize.ShloMosaic.Lib.StableHlo.Run

set_option pp.maxSteps 20000
set_option pp.deepTerms false

noncomputable section

namespace Cert.KernelIdeal.Bridge

open Idealize.ShloMosaic Idealize.ShloMosaic.TcCoe Idealize.SL.Sem Idealize.ShloMosaic.StableHlo
open Cert.KernelIdeal Cert.KernelIdeal.Gen

abbrev R0 : Type := (⟨Cert.ReferenceIdeal.S50000x128, .f32⟩ : BufTy).Contents (Elt Ideal)
abbrev R1 : Type := (⟨Cert.ReferenceIdeal.S2x800000, .i32⟩ : BufTy).Contents (Elt Ideal)
abbrev R5 : Type := (⟨Cert.ReferenceIdeal.S128x256, .f32⟩ : BufTy).Contents (Elt Ideal)
abbrev RB : Type := (⟨Cert.ReferenceIdeal.S256, .f32⟩ : BufTy).Contents (Elt Ideal)
abbrev RW : Type := (⟨Cert.ReferenceIdeal.S256x256, .f32⟩ : BufTy).Contents (Elt Ideal)

variable (V : Valuation τ sig (Elt Ideal))
variable (x0 : R0) (x1 : R1) (x5 : R5) (x6 : RB) (x7 : RW) (x8 : RB) (x9 : RW) (x10 : RB)

/-- Layer 0: the sum over incoming edges of the scaled projected rows. -/
theorem host1_agg
    (h1 : V (Proc.devRef .tc main_v1) = Cert.ReferenceIdeal.Read.val_main_v1 (F := Ideal) x1)
    (h3 : V (Proc.devRef .tc main_v3) = Cert.ReferenceIdeal.Read.val_main_v3 (F := Ideal) x1)
    (h28 : V (Proc.devRef .tc main_v28) = Cert.ReferenceIdeal.Read.val_main_v34 (F := Ideal) x1)
    (hw : V (Proc.devRef .tc main_v29) = Cert.ReferenceIdeal.Read.val_main_v11 (F := Ideal) x0 x5) :
    StableHlo.after (hostOps1 (F := Ideal)) V (Proc.devRef .tc main_v41)
      = Cert.ReferenceIdeal.Read.val_main_v39 (F := Ideal) x0 x1 x5 := by
  after_results_simp
  rw [h1, h3, h28, hw]
  rfl

/-- Layer 0's bias as a row: the kernel's reshape is the reference's broadcast along axis 1. -/
theorem host1_bias : StableHlo.after (hostOps1 (F := Ideal)) V (Proc.devRef .tc main_v42)
    = Cert.ReferenceIdeal.Read.val_main_v45 (F := Ideal) (V (Proc.devRef .tc main_arg6)) := by
  after_results_simp
  show shapeCast _ _ shapeCasts_S256_S1x256 = _
  exact (Cert.LibCastBroadcast.rowCast_eq (n := 256) _ shapeCasts_S256_S1x256 Cert.ReferenceIdeal.Facts₀.bcast_S256_S1x256_1).trans rfl

/-- Layer 1: the sum over incoming edges of the scaled projected rows. -/
theorem host3_agg
    (h1 : V (Proc.devRef .tc main_v1) = Cert.ReferenceIdeal.Read.val_main_v1 (F := Ideal) x1)
    (h3 : V (Proc.devRef .tc main_v3) = Cert.ReferenceIdeal.Read.val_main_v3 (F := Ideal) x1)
    (h28 : V (Proc.devRef .tc main_v28) = Cert.ReferenceIdeal.Read.val_main_v34 (F := Ideal) x1)
    (hw : V (Proc.devRef .tc main_v44) = Cert.ReferenceIdeal.Read.val_main_v49 (F := Ideal) x0 x1 x5 x6 x7) :
    StableHlo.after (hostOps3 (F := Ideal)) V (Proc.devRef .tc main_v56)
      = Cert.ReferenceIdeal.Read.val_main_v77 (F := Ideal) x0 x1 x5 x6 x7 := by
  after_results_simp
  rw [h1, h3, h28, hw]
  rfl

/-- Layer 1's bias as a row. -/
theorem host3_bias : StableHlo.after (hostOps3 (F := Ideal)) V (Proc.devRef .tc main_v57)
    = Cert.ReferenceIdeal.Read.val_main_v83 (F := Ideal) (V (Proc.devRef .tc main_arg8)) := by
  after_results_simp
  show shapeCast _ _ shapeCasts_S256_S1x256 = _
  exact (Cert.LibCastBroadcast.rowCast_eq (n := 256) _ shapeCasts_S256_S1x256 Cert.ReferenceIdeal.Facts₀.bcast_S256_S1x256_1).trans rfl

/-- Layer 2: the sum over incoming edges of the scaled projected rows. -/
theorem host5_agg
    (h1 : V (Proc.devRef .tc main_v1) = Cert.ReferenceIdeal.Read.val_main_v1 (F := Ideal) x1)
    (h3 : V (Proc.devRef .tc main_v3) = Cert.ReferenceIdeal.Read.val_main_v3 (F := Ideal) x1)
    (h28 : V (Proc.devRef .tc main_v28) = Cert.ReferenceIdeal.Read.val_main_v34 (F := Ideal) x1)
    (hw : V (Proc.devRef .tc main_v59) = Cert.ReferenceIdeal.Read.val_main_v87 (F := Ideal) x0 x1 x5 x6 x7 x8 x9) :
    StableHlo.after (hostOps5 (F := Ideal)) V (Proc.devRef .tc main_v71)
      = Cert.ReferenceIdeal.Read.val_main_v115 (F := Ideal) x0 x1 x5 x6 x7 x8 x9 := by
  after_results_simp
  rw [h1, h3, h28, hw]
  rfl

/-- Layer 2's bias as a row. -/
theorem host5_bias : StableHlo.after (hostOps5 (F := Ideal)) V (Proc.devRef .tc main_v72)
    = Cert.ReferenceIdeal.Read.val_main_v121 (F := Ideal) (V (Proc.devRef .tc main_arg10)) := by
  after_results_simp
  show shapeCast _ _ shapeCasts_S256_S1x256 = _
  exact (Cert.LibCastBroadcast.rowCast_eq (n := 256) _ shapeCasts_S256_S1x256 Cert.ReferenceIdeal.Facts₀.bcast_S256_S1x256_1).trans rfl

end Cert.KernelIdeal.Bridge

end
-- ==== Proof.LibNary3.lean ====
/-
  A host operation over a literal family of THREE references (a concatenate of three operands), read at its own
  result buffer: its function applied to the three operands' contents, each read at its own reference.

  With the operands under a binder, `fun k => F (![a, b, c] k)`, the reference `![a, b, c] k` is no literal, so the
  lemmas that read an earlier operation's result at a literal reference cannot go on into the operands.  Stating the
  result over `Fin.cons (F a) (Fin.cons (F b) (Fin.cons (F c) _))` keeps every reference literal; the two forms agree
  at the three indices.  `after_results_simp3` is the one-pass reading of a list of host operations with this lemma
  for the three-operand form.
-/
import Idealize.ShloMosaic.Lib.StableHlo.Run

namespace Idealize.ShloMosaic.StableHlo

variable {nD : Nat} {τ : Topo} {sig : RefSig} {Val : EltTy → Type}
variable {x a b y : Ref sig .tc}

/-- The three-operand operation at its own result: its function of the operands' contents at their references. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference left out of the index, so that a simplifier pass finds it. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- One simplifier pass reading a literal list of host operations at a reference, three-operand operations included. -/
macro "after_results_simp3" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.KI.Bridge6.lean ====
/- The bridge at the fully connected head: the reference's last stages read at an entry, in the formula of the
   kernel's head, and the kernel's last host stretch read as the reference's stages. -/
import proofs.«131909_j56581899158174_1_alg».proof.Proof.Gen.KernelIdeal.Launch
import proofs.«131909_j56581899158174_1_alg».proof.Proof.Gen.ReferenceIdeal.Read
import proofs.«131909_j56581899158174_1_alg».proof.Proof.LibCastBroadcast
import proofs.«131909_j56581899158174_1_alg».proof.Proof.LibNary3
import proofs.«131909_j56581899158174_1_alg».proof.Proof.LibHostReads
import Idealize.ShloMosaic.Lib.StableHlo.Run

noncomputable section

namespace Cert.KernelIdeal.Bridge

open Idealize.ShloMosaic Idealize.ShloMosaic.TcCoe Idealize.SL.Sem Idealize.ShloMosaic.ValueIdx
open Cert.KernelIdeal Cert.KernelIdeal.Gen

/-! ## The reference's head at an entry -/

/-- The reference's hidden layer at entry (r, j): the row-by-column sum of products of the pooled features and the
    first weights, plus the first bias's entry j, cut below at zero. -/
theorem ref_hidden_apply (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S50000, .i32⟩ : BufTy).Contents (Elt Ideal)) (x3 : (⟨Cert.ReferenceIdeal.S64x1, .f32⟩ : BufTy).Contents (Elt Ideal)) (x4 : (⟨Cert.ReferenceIdeal.S64x1, .f32⟩ : BufTy).Contents (Elt Ideal)) (x5 : (⟨Cert.ReferenceIdeal.S128x256, .f32⟩ : BufTy).Contents (Elt Ideal)) (x6 : (⟨Cert.ReferenceIdeal.S256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S256x256, .f32⟩ : BufTy).Contents (Elt Ideal)) (x10 : (⟨Cert.ReferenceIdeal.S256, .f32⟩ : BufTy).Contents (Elt Ideal)) (x11 : (⟨Cert.ReferenceIdeal.S258x256, .f32⟩ : BufTy).Contents (Elt Ideal)) (x12 : (⟨Cert.ReferenceIdeal.S256, .f32⟩ : BufTy).Contents (Elt Ideal)) (r : Fin 64) (j : Fin 256) :
    Cert.ReferenceIdeal.Read.val_main_v142 (F := Ideal) x0 x1 x2 x3 x4 x5 x6 x7 x8 x9 x10 x11 x12 (ix2 r j)
      = max ((∑ k : Fin 258, Cert.ReferenceIdeal.Read.val_main_v137 (F := Ideal) x0 x1 x2 x3 x4 x5 x6 x7 x8 x9 x10 (ix2 r k) * x11 (ix2 k j))
              + Cert.ReferenceIdeal.Read.val_main_v139 (F := Ideal) x12 (ix2 (0 : Fin 1) j)) (0 : EReal) := by
  have e1 : ∀ k : Fin 258, Cert.ReferenceIdeal.Read.lidx_main_v138 (ix2 r j) k = ix2 r k := fun k =>
    funext fun a => Fin.ext (by match a with | ⟨0, _⟩ => rfl | ⟨1, _⟩ => rfl)
  have e2 : ∀ k : Fin 258, Cert.ReferenceIdeal.Read.ridx_main_v138 (ix2 r j) k = ix2 k j := fun k =>
    funext fun a => Fin.ext (by match a with | ⟨0, _⟩ => rfl | ⟨1, _⟩ => rfl)
  have e3 : Cert.ReferenceIdeal.Read.idx_main_v140 (ix2 r j) = ix2 (0 : Fin 1) j :=
    funext fun a => Fin.ext (by match a with | ⟨0, _⟩ => rfl | ⟨1, _⟩ => rfl)
  rw [Cert.ReferenceIdeal.Read.val_main_v142_apply, Cert.ReferenceIdeal.Read.val_main_v141_apply, Cert.ReferenceIdeal.Read.val_main_v138_apply, Cert.ReferenceIdeal.Read.val_main_v140_apply,
    Cert.ReferenceIdeal.Read.val_main_call3_v0_apply, Cert.ReferenceIdeal.Read.val_main_call3_cst_apply]
  simp only [e1, e2, e3]
  exact congrArg₂ max rfl Ideal.ofBits_zero_f32

/-- The reference's result at entry (r, q): the row-by-column sum of products of the hidden layer and the second
    weights, plus the second bias's entry q. -/
theorem ref_fc_apply (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S50000, .i32⟩ : BufTy).Contents (Elt Ideal)) (x3 : (⟨Cert.ReferenceIdeal.S64x1, .f32⟩ : BufTy).Contents (Elt Ideal)) (x4 : (⟨Cert.ReferenceIdeal.S64x1, .f32⟩ : BufTy).Contents (Elt Ideal)) (x5 : (⟨Cert.ReferenceIdeal.S128x256, .f32⟩ : BufTy).Contents (Elt Ideal)) (x6 : (⟨Cert.ReferenceIdeal.S256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S256x256, .f32⟩ : BufTy).Contents (Elt Ideal)) (x10 : (⟨Cert.ReferenceIdeal.S256, .f32⟩ : BufTy).Contents (Elt Ideal)) (x11 : (⟨Cert.ReferenceIdeal.S258x256, .f32⟩ : BufTy).Contents (Elt Ideal)) (x12 : (⟨Cert.ReferenceIdeal.S256, .f32⟩ : BufTy).Contents (Elt Ideal)) (x13 : (⟨Cert.ReferenceIdeal.S256x128, .f32⟩ : BufTy).Contents (Elt Ideal)) (x14 : (⟨Cert.ReferenceIdeal.S128, .f32⟩ : BufTy).Contents (Elt Ideal)) (r : Fin 64) (q : Fin 128) :
    Cert.ReferenceIdeal.Read.val_main_v146 (F := Ideal) x0 x1 x2 x3 x4 x5 x6 x7 x8 x9 x10 x11 x12 x13 x14 (ix2 r q)
      = (∑ j : Fin 256, max ((∑ k : Fin 258, Cert.ReferenceIdeal.Read.val_main_v137 (F := Ideal) x0 x1 x2 x3 x4 x5 x6 x7 x8 x9 x10 (ix2 r k) * x11 (ix2 k j))
                              + Cert.ReferenceIdeal.Read.val_main_v139 (F := Ideal) x12 (ix2 (0 : Fin 1) j)) (0 : EReal)
                        * x13 (ix2 j q))
        + Cert.ReferenceIdeal.Read.val_main_v144 (F := Ideal) x14 (ix2 (0 : Fin 1) q) := by
  have e1 : ∀ j : Fin 256, Cert.ReferenceIdeal.Read.lidx_main_v143 (ix2 r q) j = ix2 r j := fun j =>
    funext fun a => Fin.ext (by match a with | ⟨0, _⟩ => rfl | ⟨1, _⟩ => rfl)
  have e2 : ∀ j : Fin 256, Cert.ReferenceIdeal.Read.ridx_main_v143 (ix2 r q) j = ix2 j q := fun j =>
    funext fun a => Fin.ext (by match a with | ⟨0, _⟩ => rfl | ⟨1, _⟩ => rfl)
  have e3 : Cert.ReferenceIdeal.Read.idx_main_v145 (ix2 r q) = ix2 (0 : Fin 1) q :=
    funext fun a => Fin.ext (by match a with | ⟨0, _⟩ => rfl | ⟨1, _⟩ => rfl)
  rw [Cert.ReferenceIdeal.Read.val_main_v146_apply, Cert.ReferenceIdeal.Read.val_main_v143_apply, Cert.ReferenceIdeal.Read.val_main_v145_apply]
  simp only [e1, e2, e3]
  refine congrArg₂ (· + ·) (Finset.sum_congr rfl fun j _ => congrArg₂ (· * ·) ?_ rfl) rfl
  exact ref_hidden_apply x0 x1 x2 x3 x4 x5 x6 x7 x8 x9 x10 x11 x12 r j

/-! ## The kernel's last host stretch as the reference's stages -/

/-- Running a list of host operations is running an initial part and then the rest from where that leaves. -/
theorem after_take_drop {τ : Topo} {sig : RefSig} {Val : EltTy → Type} (n : Nat) (l : List (HloOp τ sig Val))
    (V : Valuation τ sig Val) : StableHlo.after l V = StableHlo.after (l.drop n) (StableHlo.after (l.take n) V) := by
  have happ : ∀ (l₁ l₂ : List (HloOp τ sig Val)) (V : Valuation τ sig Val),
      StableHlo.after (l₁ ++ l₂) V = StableHlo.after l₂ (StableHlo.after l₁ V) := by
    intro l₁
    induction l₁ with
    | nil => intro l₂ V; rfl
    | cons op ops ih => intro l₂ V; exact ih l₂ (op.result V)
  rw [← happ, List.take_append_drop]

/-- The first bias as one row: the kernel's program reshapes the vector [256] to [1, 256], the reference broadcasts it
    along axis 1; the two rows have the same entries. -/
theorem host6_b0 (V : Valuation τ sig (Elt Ideal)) :
    StableHlo.after (hostOps6 (F := Ideal)) V (Proc.devRef .tc main_v87)
      = Cert.ReferenceIdeal.Read.val_main_v139 (F := Ideal) (V (Proc.devRef .tc main_arg12)) := by
  after_results_simp3
  show shapeCast _ _ shapeCasts_S256_S1x256 = _
  unfold Cert.ReferenceIdeal.Read.val_main_v139
  exact Cert.LibCastBroadcast.rowCast_eq _ _ _

/-- The second bias as one row, in the same way. -/
theorem host6_b1 (V : Valuation τ sig (Elt Ideal)) :
    StableHlo.after (hostOps6 (F := Ideal)) V (Proc.devRef .tc main_v88)
      = Cert.ReferenceIdeal.Read.val_main_v144 (F := Ideal) (V (Proc.devRef .tc main_arg14)) := by
  after_results_simp3
  show shapeCast _ _ shapeCasts_S128_S1x128 = _
  unfold Cert.ReferenceIdeal.Read.val_main_v144
  exact Cert.LibCastBroadcast.rowCast_eq _ _ _

/-- The head's input: the per-graph mean of the last layer's node features (the scattered sum divided by the node
    count, at least one) joined with the two extra feature columns — the kernel's program and the reference apply the
    same operations to the same arrays. The first sixteen operations make the mean; the join reads it and the two
    columns where those sixteen leave them. -/
theorem host6_z (V : Valuation τ sig (Elt Ideal)) (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S50000, .i32⟩ : BufTy).Contents (Elt Ideal)) (x3 : (⟨Cert.ReferenceIdeal.S64x1, .f32⟩ : BufTy).Contents (Elt Ideal)) (x4 : (⟨Cert.ReferenceIdeal.S64x1, .f32⟩ : BufTy).Contents (Elt Ideal)) (x5 : (⟨Cert.ReferenceIdeal.S128x256, .f32⟩ : BufTy).Contents (Elt Ideal)) (x6 : (⟨Cert.ReferenceIdeal.S256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S256x256, .f32⟩ : BufTy).Contents (Elt Ideal)) (x10 : (⟨Cert.ReferenceIdeal.S256, .f32⟩ : BufTy).Contents (Elt Ideal))
    (h73 : V (Proc.devRef .tc main_v73) = Cert.ReferenceIdeal.Read.val_main_v124 (F := Ideal) x0 x1 x5 x6 x7 x8 x9 x10)
    (h2 : V (Proc.devRef .tc main_arg2) = x2) (h3 : V (Proc.devRef .tc main_arg3) = x3) (h4 : V (Proc.devRef .tc main_arg4) = x4) :
    StableHlo.after (hostOps6 (F := Ideal)) V (Proc.devRef .tc main_v86)
      = Cert.ReferenceIdeal.Read.val_main_v137 (F := Ideal) x0 x1 x2 x3 x4 x5 x6 x7 x8 x9 x10 := by
  rw [after_take_drop 16]
  have hW85 : StableHlo.after ((hostOps6 (F := Ideal)).take 16) V (Proc.devRef .tc main_v85)
      = Cert.ReferenceIdeal.Read.val_main_v136 (F := Ideal) x0 x1 x2 x5 x6 x7 x8 x9 x10 := by
    simp only [List.take_succ_cons, List.take_zero]
    after_results_simp
    rw [h73, h2]
    rfl
  have hW3 : StableHlo.after ((hostOps6 (F := Ideal)).take 16) V (Proc.devRef .tc main_arg3) = x3 := by
    simp only [List.take_succ_cons, List.take_zero]
    after_results_simp
    exact h3
  have hW4 : StableHlo.after ((hostOps6 (F := Ideal)).take 16) V (Proc.devRef .tc main_arg4) = x4 := by
    simp only [List.take_succ_cons, List.take_zero]
    after_results_simp
    exact h4
  generalize StableHlo.after ((hostOps6 (F := Ideal)).take 16) V = W at hW85 hW3 hW4 ⊢
  simp only [List.drop_succ_cons, List.drop_zero]
  after_results_simp3
  show concatenate S64x258 1 [⟨S64x256, W (Proc.devRef .tc main_v85)⟩, ⟨S64x1, W (Proc.devRef .tc main_arg3)⟩,
    ⟨S64x1, W (Proc.devRef .tc main_arg4)⟩] _ = _
  rw [hW85, hW3, hW4]
  rfl

end Cert.KernelIdeal.Bridge

end
-- ==== Proof.KI.RefDots.lean ====
/- The reference's three projections read at an entry: each `dot_general` of a [50000, K] array with a [K, 256] array,
   contracting the one shared axis, is at entry (r, q) the sum over k of left(r, k) · right(k, q). -/
import proofs.«131909_j56581899158174_1_alg».proof.Proof.Gen.ReferenceIdeal.Read
import Idealize.ShloMosaic.Lib.ValueIdx
import Idealize.ShloMosaic.PureOps.Ideal.Laws

noncomputable section

open Idealize.ShloMosaic
open scoped BigOperators

namespace Cert.KernelIdeal.Bridge

/-- The stage's operand indices at entry (r, q) and contraction index k are (r, k) and (k, q). -/
theorem lidx_v11_ix2 (r : Fin 50000) (q : Fin 256) (k : Fin 128) : Cert.ReferenceIdeal.Read.lidx_main_v11 (ValueIdx.ix2 r q) k = ValueIdx.ix2 r k :=
  funext fun a => Fin.ext (by match a with | ⟨0, _⟩ => rfl | ⟨1, _⟩ => rfl)
theorem ridx_v11_ix2 (r : Fin 50000) (q : Fin 256) (k : Fin 128) : Cert.ReferenceIdeal.Read.ridx_main_v11 (ValueIdx.ix2 r q) k = ValueIdx.ix2 k q :=
  funext fun a => Fin.ext (by match a with | ⟨0, _⟩ => rfl | ⟨1, _⟩ => rfl)

/-- The first projection: the node features times the first layer's weights. -/
theorem ref_dot0_apply (x0 : (⟨Cert.ReferenceIdeal.S50000x128, .f32⟩ : BufTy).Contents (Elt Ideal)) (x5 : (⟨Cert.ReferenceIdeal.S128x256, .f32⟩ : BufTy).Contents (Elt Ideal)) (r : Fin 50000) (q : Fin 256) :
    Cert.ReferenceIdeal.Read.val_main_v11 (F := Ideal) x0 x5 (ValueIdx.ix2 r q) = ∑ k : Fin 128, x0 (ValueIdx.ix2 r k) * x5 (ValueIdx.ix2 k q) :=
  (Cert.ReferenceIdeal.Read.val_main_v11_apply x0 x5 (ValueIdx.ix2 r q)).trans
    (Finset.sum_congr rfl fun k _ => by rw [lidx_v11_ix2 r q k, ridx_v11_ix2 r q k])

/-- The stage's operand indices at entry (r, q) and contraction index k are (r, k) and (k, q). -/
theorem lidx_v49_ix2 (r : Fin 50000) (q : Fin 256) (k : Fin 256) : Cert.ReferenceIdeal.Read.lidx_main_v49 (ValueIdx.ix2 r q) k = ValueIdx.ix2 r k :=
  funext fun a => Fin.ext (by match a with | ⟨0, _⟩ => rfl | ⟨1, _⟩ => rfl)
theorem ridx_v49_ix2 (r : Fin 50000) (q : Fin 256) (k : Fin 256) : Cert.ReferenceIdeal.Read.ridx_main_v49 (ValueIdx.ix2 r q) k = ValueIdx.ix2 k q :=
  funext fun a => Fin.ext (by match a with | ⟨0, _⟩ => rfl | ⟨1, _⟩ => rfl)

/-- The second projection: the first layer's output times the second layer's weights. -/
theorem ref_dot1_apply (x0 : (⟨Cert.ReferenceIdeal.S50000x128, .f32⟩ : BufTy).Contents (Elt Ideal)) (x1 : (⟨Cert.ReferenceIdeal.S2x800000, .i32⟩ : BufTy).Contents (Elt Ideal)) (x5 : (⟨Cert.ReferenceIdeal.S128x256, .f32⟩ : BufTy).Contents (Elt Ideal)) (x6 : (⟨Cert.ReferenceIdeal.S256, .f32⟩ : BufTy).Contents (Elt Ideal)) (x7 : (⟨Cert.ReferenceIdeal.S256x256, .f32⟩ : BufTy).Contents (Elt Ideal)) (r : Fin 50000) (q : Fin 256) :
    Cert.ReferenceIdeal.Read.val_main_v49 (F := Ideal) x0 x1 x5 x6 x7 (ValueIdx.ix2 r q)
      = ∑ k : Fin 256, Cert.ReferenceIdeal.Read.val_main_v48 (F := Ideal) x0 x1 x5 x6 (ValueIdx.ix2 r k) * x7 (ValueIdx.ix2 k q) :=
  (Cert.ReferenceIdeal.Read.val_main_v49_apply x0 x1 x5 x6 x7 (ValueIdx.ix2 r q)).trans
    (Finset.sum_congr rfl fun k _ => by rw [lidx_v49_ix2 r q k, ridx_v49_ix2 r q k])

/-- The stage's operand indices at entry (r, q) and contraction index k are (r, k) and (k, q). -/
theorem lidx_v87_ix2 (r : Fin 50000) (q : Fin 256) (k : Fin 256) : Cert.ReferenceIdeal.Read.lidx_main_v87 (ValueIdx.ix2 r q) k = ValueIdx.ix2 r k :=
  funext fun a => Fin.ext (by match a with | ⟨0, _⟩ => rfl | ⟨1, _⟩ => rfl)
theorem ridx_v87_ix2 (r : Fin 50000) (q : Fin 256) (k : Fin 256) : Cert.ReferenceIdeal.Read.ridx_main_v87 (ValueIdx.ix2 r q) k = ValueIdx.ix2 k q :=
  funext fun a => Fin.ext (by match a with | ⟨0, _⟩ => rfl | ⟨1, _⟩ => rfl)

/-- The third projection: the second layer's output times the third layer's weights. -/
theorem ref_dot2_apply (x0 : (⟨Cert.ReferenceIdeal.S50000x128, .f32⟩ : BufTy).Contents (Elt Ideal)) (x1 : (⟨Cert.ReferenceIdeal.S2x800000, .i32⟩ : BufTy).Contents (Elt Ideal)) (x5 : (⟨Cert.ReferenceIdeal.S128x256, .f32⟩ : BufTy).Contents (Elt Ideal)) (x6 : (⟨Cert.ReferenceIdeal.S256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S256x256, .f32⟩ : BufTy).Contents (Elt Ideal)) (r : Fin 50000) (q : Fin 256) :
    Cert.ReferenceIdeal.Read.val_main_v87 (F := Ideal) x0 x1 x5 x6 x7 x8 x9 (ValueIdx.ix2 r q)
      = ∑ k : Fin 256, Cert.ReferenceIdeal.Read.val_main_v86 (F := Ideal) x0 x1 x5 x6 x7 x8 (ValueIdx.ix2 r k) * x9 (ValueIdx.ix2 k q) :=
  (Cert.ReferenceIdeal.Read.val_main_v87_apply x0 x1 x5 x6 x7 x8 x9 (ValueIdx.ix2 r q)).trans
    (Finset.sum_congr rfl fun k _ => by rw [lidx_v87_ix2 r q k, ridx_v87_ix2 r q k])

end Cert.KernelIdeal.Bridge

end
-- ==== Proof.KI.RefCombines.lean ====
import proofs.«131909_j56581899158174_1_alg».proof.Proof.Gen.ReferenceIdeal.Read
import Idealize.ShloMosaic.Lib.ValueIdx
import Idealize.ShloMosaic.PureOps.Ideal.Laws

/-! # The reference's three layer outputs read at an index

Each of the reference's three layers ends in `max((s + p · d) + b, 0)` on 50000×256 arrays, where `s` is the result
of the layer's scatter, `p` the layer's matrix product, `d` a 50000×1 column spread along each row, and `b` the
layer's 256-entry vector made a 1×256 row and spread down each column; the zero is a constant spread over the whole
array. Read at `(r, q)` on the extended reals this is `max((s(r,q) + p(r,q) · d(r,0)) + b(0,q), 0)`. The column `d` is,
in every layer, the same per-row vector (a function of the integer input alone) multiplied by itself and made a
column by the same operations, so the three columns are one function. -/

noncomputable section

namespace Cert.KernelIdeal.Bridge

open Cert.ReferenceIdeal Cert.ReferenceIdeal.Read Idealize.ShloMosaic Idealize.ShloMosaic.ValueIdx

/-- Layer 0's output at row `r`, column `q`: the maximum with zero of (scatter result + matrix product · column at
    `(r, 0)`) + row at `(0, q)`. The column reaches the full shape by one broadcast along each row and the 1×256 row by one
    down each column; both are read here at the index's coordinates. -/
theorem ref_comb0_apply (x0 : (⟨S50000x128, .f32⟩ : BufTy).Contents (Elt Ideal)) (x1 : (⟨S2x800000, .i32⟩ : BufTy).Contents (Elt Ideal)) (x5 : (⟨S128x256, .f32⟩ : BufTy).Contents (Elt Ideal)) (x6 : (⟨S256, .f32⟩ : BufTy).Contents (Elt Ideal)) (r : Fin 50000) (q : Fin 256) :
    val_main_v48 (F := Ideal) x0 x1 x5 x6 (ix2 r q)
      = max ((val_main_v39 (F := Ideal) x0 x1 x5 (ix2 r q)
              + val_main_v11 (F := Ideal) x0 x5 (ix2 r q) * val_main_v41 (F := Ideal) x1 (ix2 r (0 : Fin 1)))
             + val_main_v45 (F := Ideal) x6 (ix2 (0 : Fin 1) q)) (0 : EReal) := by
  rw [val_main_v48_apply, val_main_v47_apply, val_main_v44_apply, val_main_v43_apply, val_main_v42_apply,
    val_main_v46_apply, val_main_call0_v0_apply, val_main_call0_cst_apply]
  rw [show idx_main_v42 (ix2 r q) = ix2 r (0 : Fin 1) from funext fun a => match a with | ⟨0, _⟩ => rfl | ⟨1, _⟩ => rfl,
    show idx_main_v46 (ix2 r q) = ix2 (0 : Fin 1) q from funext fun a => match a with | ⟨0, _⟩ => rfl | ⟨1, _⟩ => rfl]
  exact congrArg (max _) Ideal.ofBits_zero_f32

/-- Layer 1's output at row `r`, column `q`: the maximum with zero of (scatter result + matrix product · column at
    `(r, 0)`) + row at `(0, q)`. The column reaches the full shape by one broadcast along each row and the 1×256 row by one
    down each column; both are read here at the index's coordinates. -/
theorem ref_comb1_apply (x0 : (⟨S50000x128, .f32⟩ : BufTy).Contents (Elt Ideal)) (x1 : (⟨S2x800000, .i32⟩ : BufTy).Contents (Elt Ideal)) (x5 : (⟨S128x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (r : Fin 50000) (q : Fin 256) :
    val_main_v86 (F := Ideal) x0 x1 x5 x6 x7 x8 (ix2 r q)
      = max ((val_main_v77 (F := Ideal) x0 x1 x5 x6 x7 (ix2 r q)
              + val_main_v49 (F := Ideal) x0 x1 x5 x6 x7 (ix2 r q) * val_main_v79 (F := Ideal) x1 (ix2 r (0 : Fin 1)))
             + val_main_v83 (F := Ideal) x8 (ix2 (0 : Fin 1) q)) (0 : EReal) := by
  rw [val_main_v86_apply, val_main_v85_apply, val_main_v82_apply, val_main_v81_apply, val_main_v80_apply,
    val_main_v84_apply, val_main_call1_v0_apply, val_main_call1_cst_apply]
  rw [show idx_main_v80 (ix2 r q) = ix2 r (0 : Fin 1) from funext fun a => match a with | ⟨0, _⟩ => rfl | ⟨1, _⟩ => rfl,
    show idx_main_v84 (ix2 r q) = ix2 (0 : Fin 1) q from funext fun a => match a with | ⟨0, _⟩ => rfl | ⟨1, _⟩ => rfl]
  exact congrArg (max _) Ideal.ofBits_zero_f32

/-- Layer 2's output at row `r`, column `q`: the maximum with zero of (scatter result + matrix product · column at
    `(r, 0)`) + row at `(0, q)`. The column reaches the full shape by one broadcast along each row and the 1×256 row by one
    down each column; both are read here at the index's coordinates. -/
theorem ref_comb2_apply (x0 : (⟨S50000x128, .f32⟩ : BufTy).Contents (Elt Ideal)) (x1 : (⟨S2x800000, .i32⟩ : BufTy).Contents (Elt Ideal)) (x5 : (⟨S128x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (r : Fin 50000) (q : Fin 256) :
    val_main_v124 (F := Ideal) x0 x1 x5 x6 x7 x8 x9 x10 (ix2 r q)
      = max ((val_main_v115 (F := Ideal) x0 x1 x5 x6 x7 x8 x9 (ix2 r q)
              + val_main_v87 (F := Ideal) x0 x1 x5 x6 x7 x8 x9 (ix2 r q) * val_main_v117 (F := Ideal) x1 (ix2 r (0 : Fin 1)))
             + val_main_v121 (F := Ideal) x10 (ix2 (0 : Fin 1) q)) (0 : EReal) := by
  rw [val_main_v124_apply, val_main_v123_apply, val_main_v120_apply, val_main_v119_apply, val_main_v118_apply,
    val_main_v122_apply, val_main_call2_v0_apply, val_main_call2_cst_apply]
  rw [show idx_main_v118 (ix2 r q) = ix2 r (0 : Fin 1) from funext fun a => match a with | ⟨0, _⟩ => rfl | ⟨1, _⟩ => rfl,
    show idx_main_v122 (ix2 r q) = ix2 (0 : Fin 1) q from funext fun a => match a with | ⟨0, _⟩ => rfl | ⟨1, _⟩ => rfl]
  exact congrArg (max _) Ideal.ofBits_zero_f32

/-- The column is the same function of the integer input in all three layers. -/
theorem ref_dis2_eq (x1 : (⟨S2x800000, .i32⟩ : BufTy).Contents (Elt Ideal)) :
    val_main_v79 (F := Ideal) x1 = val_main_v41 (F := Ideal) x1 ∧ val_main_v117 (F := Ideal) x1 = val_main_v41 (F := Ideal) x1 :=
  ⟨rfl, rfl⟩

end Cert.KernelIdeal.Bridge

end
-- ==== Proof.KI.Chain.lean ====
/-
  The kernel's program and the reference, buffer by buffer.  Through the kernel's twelve segments, each buffer a later
  segment reads holds, at the boundary where it is read, the reference's corresponding stage of the same arguments:
  the edge sources and targets, the column dis·dis and the per-edge factors after the first stretch of host operations;
  each projection region's output, the reference's matrix product (a row block of a product is the block of the whole
  product); each gather-scale-scatter stretch's sum, the reference's; each combine region's output, the reference's
  max((sum + product·dis²) + bias, 0) entry by entry; the pooled and concatenated features; and the head's output, the
  reference's result.
-/
import proofs.«131909_j56581899158174_1_alg».proof.Proof.KI.Run
import proofs.«131909_j56581899158174_1_alg».proof.Proof.KI.Carry
import proofs.«131909_j56581899158174_1_alg».proof.Proof.KI.Val0
import proofs.«131909_j56581899158174_1_alg».proof.Proof.KI.Val1
import proofs.«131909_j56581899158174_1_alg».proof.Proof.KI.Val2
import proofs.«131909_j56581899158174_1_alg».proof.Proof.KI.Val3
import proofs.«131909_j56581899158174_1_alg».proof.Proof.KI.Val4
import proofs.«131909_j56581899158174_1_alg».proof.Proof.KI.Val5
import proofs.«131909_j56581899158174_1_alg».proof.Proof.KI.Val6
import proofs.«131909_j56581899158174_1_alg».proof.Proof.KI.Bridge0
import proofs.«131909_j56581899158174_1_alg».proof.Proof.KI.Bridge135
import proofs.«131909_j56581899158174_1_alg».proof.Proof.KI.Bridge6
import proofs.«131909_j56581899158174_1_alg».proof.Proof.KI.RefDots
import proofs.«131909_j56581899158174_1_alg».proof.Proof.KI.RefCombines
import proofs.«131909_j56581899158174_1_alg».proof.Proof.Gen.ReferenceIdeal.Read
import Idealize.ShloMosaic.Lib.ValueIdx

set_option maxRecDepth 16384
set_option pp.maxSteps 20000
set_option pp.deepTerms false

noncomputable section

namespace Cert.KernelIdeal.Chain

open Idealize.ShloMosaic Idealize.ShloMosaic.TcCoe Idealize.SL.Sem
open Cert.KernelIdeal Cert.KernelIdeal.Gen Cert.KernelIdeal.Run Cert.KernelIdeal.Bridge Cert.KernelIdeal.RegVal

variable (m : (ℓ : Loc nD τ sig) → Buf (Elt Ideal) ℓ) (ρ : Dev nD → PrngReg) (c : Dev nD)

/-! ## The arguments, typed as the reference's stages take them -/

abbrev A0 : (⟨Cert.ReferenceIdeal.S50000x128, .f32⟩ : BufTy).Contents (Elt Ideal) := m ((c : Thread nD τ).loc main_arg0)
abbrev A1 : (⟨Cert.ReferenceIdeal.S2x800000, .i32⟩ : BufTy).Contents (Elt Ideal) := m ((c : Thread nD τ).loc main_arg1)
abbrev A2 : (⟨Cert.ReferenceIdeal.S50000, .i32⟩ : BufTy).Contents (Elt Ideal) := m ((c : Thread nD τ).loc main_arg2)
abbrev A3 : (⟨Cert.ReferenceIdeal.S64x1, .f32⟩ : BufTy).Contents (Elt Ideal) := m ((c : Thread nD τ).loc main_arg3)
abbrev A4 : (⟨Cert.ReferenceIdeal.S64x1, .f32⟩ : BufTy).Contents (Elt Ideal) := m ((c : Thread nD τ).loc main_arg4)
abbrev A5 : (⟨Cert.ReferenceIdeal.S128x256, .f32⟩ : BufTy).Contents (Elt Ideal) := m ((c : Thread nD τ).loc main_arg5)
abbrev A6 : (⟨Cert.ReferenceIdeal.S256, .f32⟩ : BufTy).Contents (Elt Ideal) := m ((c : Thread nD τ).loc main_arg6)
abbrev A7 : (⟨Cert.ReferenceIdeal.S256x256, .f32⟩ : BufTy).Contents (Elt Ideal) := m ((c : Thread nD τ).loc main_arg7)
abbrev A8 : (⟨Cert.ReferenceIdeal.S256, .f32⟩ : BufTy).Contents (Elt Ideal) := m ((c : Thread nD τ).loc main_arg8)
abbrev A9 : (⟨Cert.ReferenceIdeal.S256x256, .f32⟩ : BufTy).Contents (Elt Ideal) := m ((c : Thread nD τ).loc main_arg9)
abbrev A10 : (⟨Cert.ReferenceIdeal.S256, .f32⟩ : BufTy).Contents (Elt Ideal) := m ((c : Thread nD τ).loc main_arg10)
abbrev A11 : (⟨Cert.ReferenceIdeal.S258x256, .f32⟩ : BufTy).Contents (Elt Ideal) := m ((c : Thread nD τ).loc main_arg11)
abbrev A12 : (⟨Cert.ReferenceIdeal.S256, .f32⟩ : BufTy).Contents (Elt Ideal) := m ((c : Thread nD τ).loc main_arg12)
abbrev A13 : (⟨Cert.ReferenceIdeal.S256x128, .f32⟩ : BufTy).Contents (Elt Ideal) := m ((c : Thread nD τ).loc main_arg13)
abbrev A14 : (⟨Cert.ReferenceIdeal.S128, .f32⟩ : BufTy).Contents (Elt Ideal) := m ((c : Thread nD τ).loc main_arg14)

/-! ## The first stretch of host operations -/

theorem e1 : W1 m ρ c (Proc.devRef .tc main_v1) = Cert.ReferenceIdeal.Read.val_main_v1 (F := Ideal) (A1 m c) := host0_src (W0 m ρ c)
theorem e3 : W1 m ρ c (Proc.devRef .tc main_v3) = Cert.ReferenceIdeal.Read.val_main_v3 (F := Ideal) (A1 m c) := host0_dst (W0 m ρ c)
theorem e12 : W1 m ρ c (Proc.devRef .tc main_v12) = Cert.ReferenceIdeal.Read.val_main_v41 (F := Ideal) (A1 m c) := host0_dis2 (W0 m ρ c)
theorem e28 : W1 m ρ c (Proc.devRef .tc main_v28) = Cert.ReferenceIdeal.Read.val_main_v34 (F := Ideal) (A1 m c) := host0_norm (W0 m ρ c)

/-! ## Layer 0 -/

/-- The projection region's output is the reference's product. -/
theorem e29 : W2 m ρ c (Proc.devRef .tc main_v29) = Cert.ReferenceIdeal.Read.val_main_v11 (F := Ideal) (A0 m c) (A5 m c) := by
  rw [show W2 m ρ c (Proc.devRef .tc main_v29) = (dat0 (F := Ideal) (U1 m ρ) c).arrAt 2 cfg0.N from W2_arr m ρ c 2]
  funext i
  obtain ⟨r, q, rfl⟩ : ∃ (r : Fin 50000) (q : Fin 256), i = ValueIdx.ix2 r q := ⟨i 0, i 1, ValueIdx.eq_ix2 i⟩
  rw [final0_apply, ref_dot0_apply]
  have hx : x0 (U1 m ρ) c = A0 m c := W1_main_arg0 m ρ c
  have hw : w0 (U1 m ρ) c = A5 m c := W1_main_arg5 m ρ c
  rw [hx, hw]

/-- The sum over incoming edges of the scaled projected rows is the reference's. -/
theorem e41 : W3 m ρ c (Proc.devRef .tc main_v41) = Cert.ReferenceIdeal.Read.val_main_v39 (F := Ideal) (A0 m c) (A1 m c) (A5 m c) :=
  host1_agg (W2 m ρ c) (A0 m c) (A1 m c) (A5 m c)
    ((W2_main_v1 m ρ c).trans (e1 m ρ c)) ((W2_main_v3 m ρ c).trans (e3 m ρ c)) ((W2_main_v28 m ρ c).trans (e28 m ρ c))
    (e29 m ρ c)

/-- The layer's bias as a row is the reference's. -/
theorem e42 : W3 m ρ c (Proc.devRef .tc main_v42) = Cert.ReferenceIdeal.Read.val_main_v45 (F := Ideal) (A6 m c) :=
  (host1_bias (W2 m ρ c)).trans (congrArg _ (W2_main_arg6 m ρ c))

/-- The combine region's output is the reference's layer output. -/
theorem e43 : W4 m ρ c (Proc.devRef .tc main_v43) = Cert.ReferenceIdeal.Read.val_main_v48 (F := Ideal) (A0 m c) (A1 m c) (A5 m c) (A6 m c) := by
  rw [show W4 m ρ c (Proc.devRef .tc main_v43) = (dat1 (F := Ideal) (U3 m ρ) c).arrAt 4 cfg1.N from W4_arr m ρ c 4]
  funext i
  obtain ⟨r, q, rfl⟩ : ∃ (r : Fin 50000) (q : Fin 256), i = ValueIdx.ix2 r q := ⟨i 0, i 1, ValueIdx.eq_ix2 i⟩
  rw [final1_apply, ref_comb0_apply]
  have ha : agg1 (U3 m ρ) c = Cert.ReferenceIdeal.Read.val_main_v39 (F := Ideal) (A0 m c) (A1 m c) (A5 m c) := e41 m ρ c
  have hh : hw1 (U3 m ρ) c = Cert.ReferenceIdeal.Read.val_main_v11 (F := Ideal) (A0 m c) (A5 m c) := (W3_main_v29 m ρ c).trans (e29 m ρ c)
  have hd : dis1 (U3 m ρ) c = Cert.ReferenceIdeal.Read.val_main_v41 (F := Ideal) (A1 m c) := ((W3_main_v12 m ρ c).trans (e12 m ρ c))
  have hb : bias1 (U3 m ρ) c = Cert.ReferenceIdeal.Read.val_main_v45 (F := Ideal) (A6 m c) := e42 m ρ c
  rw [ha, hh, hd, hb]

/-! ## Layer 1 -/

/-- The projection region's output is the reference's product. -/
theorem e44 : W5 m ρ c (Proc.devRef .tc main_v44) = Cert.ReferenceIdeal.Read.val_main_v49 (F := Ideal) (A0 m c) (A1 m c) (A5 m c) (A6 m c) (A7 m c) := by
  rw [show W5 m ρ c (Proc.devRef .tc main_v44) = (dat2 (F := Ideal) (U4 m ρ) c).arrAt 2 cfg2.N from W5_arr m ρ c 2]
  funext i
  obtain ⟨r, q, rfl⟩ : ∃ (r : Fin 50000) (q : Fin 256), i = ValueIdx.ix2 r q := ⟨i 0, i 1, ValueIdx.eq_ix2 i⟩
  rw [final2_apply, ref_dot1_apply]
  have hx : x2 (U4 m ρ) c = Cert.ReferenceIdeal.Read.val_main_v48 (F := Ideal) (A0 m c) (A1 m c) (A5 m c) (A6 m c) := e43 m ρ c
  have hw : w2 (U4 m ρ) c = A7 m c := W4_main_arg7 m ρ c
  rw [hx, hw]

/-- The sum over incoming edges of the scaled projected rows is the reference's. -/
theorem e56 : W6 m ρ c (Proc.devRef .tc main_v56) = Cert.ReferenceIdeal.Read.val_main_v77 (F := Ideal) (A0 m c) (A1 m c) (A5 m c) (A6 m c) (A7 m c) :=
  host3_agg (W5 m ρ c) (A0 m c) (A1 m c) (A5 m c) (A6 m c) (A7 m c)
    ((W5_main_v1 m ρ c).trans (e1 m ρ c)) ((W5_main_v3 m ρ c).trans (e3 m ρ c)) ((W5_main_v28 m ρ c).trans (e28 m ρ c))
    (e44 m ρ c)

/-- The layer's bias as a row is the reference's. -/
theorem e57 : W6 m ρ c (Proc.devRef .tc main_v57) = Cert.ReferenceIdeal.Read.val_main_v83 (F := Ideal) (A8 m c) :=
  (host3_bias (W5 m ρ c)).trans (congrArg _ (W5_main_arg8 m ρ c))

/-- The combine region's output is the reference's layer output. -/
theorem e58 : W7 m ρ c (Proc.devRef .tc main_v58) = Cert.ReferenceIdeal.Read.val_main_v86 (F := Ideal) (A0 m c) (A1 m c) (A5 m c) (A6 m c) (A7 m c) (A8 m c) := by
  rw [show W7 m ρ c (Proc.devRef .tc main_v58) = (dat3 (F := Ideal) (U6 m ρ) c).arrAt 4 cfg3.N from W7_arr m ρ c 4]
  funext i
  obtain ⟨r, q, rfl⟩ : ∃ (r : Fin 50000) (q : Fin 256), i = ValueIdx.ix2 r q := ⟨i 0, i 1, ValueIdx.eq_ix2 i⟩
  rw [final3_apply, ref_comb1_apply]
  have ha : agg3 (U6 m ρ) c = Cert.ReferenceIdeal.Read.val_main_v77 (F := Ideal) (A0 m c) (A1 m c) (A5 m c) (A6 m c) (A7 m c) := e56 m ρ c
  have hh : hw3 (U6 m ρ) c = Cert.ReferenceIdeal.Read.val_main_v49 (F := Ideal) (A0 m c) (A1 m c) (A5 m c) (A6 m c) (A7 m c) := (W6_main_v44 m ρ c).trans (e44 m ρ c)
  have hd : dis3 (U6 m ρ) c = Cert.ReferenceIdeal.Read.val_main_v79 (F := Ideal) (A1 m c) := ((W6_main_v12 m ρ c).trans (e12 m ρ c)).trans (ref_dis2_eq (A1 m c)).1.symm
  have hb : bias3 (U6 m ρ) c = Cert.ReferenceIdeal.Read.val_main_v83 (F := Ideal) (A8 m c) := e57 m ρ c
  rw [ha, hh, hd, hb]

/-! ## Layer 2 -/

/-- The projection region's output is the reference's product. -/
theorem e59 : W8 m ρ c (Proc.devRef .tc main_v59) = Cert.ReferenceIdeal.Read.val_main_v87 (F := Ideal) (A0 m c) (A1 m c) (A5 m c) (A6 m c) (A7 m c) (A8 m c) (A9 m c) := by
  rw [show W8 m ρ c (Proc.devRef .tc main_v59) = (dat4 (F := Ideal) (U7 m ρ) c).arrAt 2 cfg4.N from W8_arr m ρ c 2]
  funext i
  obtain ⟨r, q, rfl⟩ : ∃ (r : Fin 50000) (q : Fin 256), i = ValueIdx.ix2 r q := ⟨i 0, i 1, ValueIdx.eq_ix2 i⟩
  rw [final4_apply, ref_dot2_apply]
  have hx : x4 (U7 m ρ) c = Cert.ReferenceIdeal.Read.val_main_v86 (F := Ideal) (A0 m c) (A1 m c) (A5 m c) (A6 m c) (A7 m c) (A8 m c) := e58 m ρ c
  have hw : w4 (U7 m ρ) c = A9 m c := W7_main_arg9 m ρ c
  rw [hx, hw]

/-- The sum over incoming edges of the scaled projected rows is the reference's. -/
theorem e71 : W9 m ρ c (Proc.devRef .tc main_v71) = Cert.ReferenceIdeal.Read.val_main_v115 (F := Ideal) (A0 m c) (A1 m c) (A5 m c) (A6 m c) (A7 m c) (A8 m c) (A9 m c) :=
  host5_agg (W8 m ρ c) (A0 m c) (A1 m c) (A5 m c) (A6 m c) (A7 m c) (A8 m c) (A9 m c)
    ((W8_main_v1 m ρ c).trans (e1 m ρ c)) ((W8_main_v3 m ρ c).trans (e3 m ρ c)) ((W8_main_v28 m ρ c).trans (e28 m ρ c))
    (e59 m ρ c)

/-- The layer's bias as a row is the reference's. -/
theorem e72 : W9 m ρ c (Proc.devRef .tc main_v72) = Cert.ReferenceIdeal.Read.val_main_v121 (F := Ideal) (A10 m c) :=
  (host5_bias (W8 m ρ c)).trans (congrArg _ (W8_main_arg10 m ρ c))

/-- The combine region's output is the reference's layer output. -/
theorem e73 : W10 m ρ c (Proc.devRef .tc main_v73) = Cert.ReferenceIdeal.Read.val_main_v124 (F := Ideal) (A0 m c) (A1 m c) (A5 m c) (A6 m c) (A7 m c) (A8 m c) (A9 m c) (A10 m c) := by
  rw [show W10 m ρ c (Proc.devRef .tc main_v73) = (dat5 (F := Ideal) (U9 m ρ) c).arrAt 4 cfg5.N from W10_arr m ρ c 4]
  funext i
  obtain ⟨r, q, rfl⟩ : ∃ (r : Fin 50000) (q : Fin 256), i = ValueIdx.ix2 r q := ⟨i 0, i 1, ValueIdx.eq_ix2 i⟩
  rw [final5_apply, ref_comb2_apply]
  have ha : agg5 (U9 m ρ) c = Cert.ReferenceIdeal.Read.val_main_v115 (F := Ideal) (A0 m c) (A1 m c) (A5 m c) (A6 m c) (A7 m c) (A8 m c) (A9 m c) := e71 m ρ c
  have hh : hw5 (U9 m ρ) c = Cert.ReferenceIdeal.Read.val_main_v87 (F := Ideal) (A0 m c) (A1 m c) (A5 m c) (A6 m c) (A7 m c) (A8 m c) (A9 m c) := (W9_main_v59 m ρ c).trans (e59 m ρ c)
  have hd : dis5 (U9 m ρ) c = Cert.ReferenceIdeal.Read.val_main_v117 (F := Ideal) (A1 m c) := ((W9_main_v12 m ρ c).trans (e12 m ρ c)).trans (ref_dis2_eq (A1 m c)).2.symm
  have hb : bias5 (U9 m ρ) c = Cert.ReferenceIdeal.Read.val_main_v121 (F := Ideal) (A10 m c) := e72 m ρ c
  rw [ha, hh, hd, hb]

/-! ## The pooled features and the head -/

/-- The concatenated features [pooled | hlr | std] are the reference's. -/
theorem e86 : W11 m ρ c (Proc.devRef .tc main_v86) = Cert.ReferenceIdeal.Read.val_main_v137 (F := Ideal) (A0 m c) (A1 m c) (A2 m c) (A3 m c) (A4 m c) (A5 m c) (A6 m c) (A7 m c) (A8 m c) (A9 m c) (A10 m c) :=
  host6_z (W10 m ρ c) (A0 m c) (A1 m c) (A2 m c) (A3 m c) (A4 m c) (A5 m c) (A6 m c) (A7 m c) (A8 m c) (A9 m c) (A10 m c) (e73 m ρ c) (W10_main_arg2 m ρ c) (W10_main_arg3 m ρ c) (W10_main_arg4 m ρ c)

/-- The head's two bias rows are the reference's. -/
theorem e87 : W11 m ρ c (Proc.devRef .tc main_v87) = Cert.ReferenceIdeal.Read.val_main_v139 (F := Ideal) (A12 m c) :=
  (host6_b0 (W10 m ρ c)).trans (congrArg _ (W10_main_arg12 m ρ c))
theorem e88 : W11 m ρ c (Proc.devRef .tc main_v88) = Cert.ReferenceIdeal.Read.val_main_v144 (F := Ideal) (A14 m c) :=
  (host6_b1 (W10 m ρ c)).trans (congrArg _ (W10_main_arg14 m ρ c))

/-- The head region's output, the kernel program's result, is the reference's result. -/
theorem result : W12 m ρ c (Proc.devRef .tc main_v89) = Cert.ReferenceIdeal.Read.val_main_v146 (F := Ideal) (A0 m c) (A1 m c) (A2 m c) (A3 m c) (A4 m c) (A5 m c) (A6 m c) (A7 m c) (A8 m c) (A9 m c) (A10 m c) (A11 m c) (A12 m c) (A13 m c) (A14 m c) := by
  rw [show W12 m ρ c (Proc.devRef .tc main_v89) = (dat6 (F := Ideal) (U11 m ρ) c).arrAt 5 cfg6.N from W12_arr m ρ c 5]
  funext i
  obtain ⟨r, q, rfl⟩ : ∃ (r : Fin 64) (q : Fin 128), i = ValueIdx.ix2 r q := ⟨i 0, i 1, ValueIdx.eq_ix2 i⟩
  rw [final6_apply, ref_fc_apply]
  have hz : z6 (U11 m ρ) c = Cert.ReferenceIdeal.Read.val_main_v137 (F := Ideal) (A0 m c) (A1 m c) (A2 m c) (A3 m c) (A4 m c) (A5 m c) (A6 m c) (A7 m c) (A8 m c) (A9 m c) (A10 m c) := e86 m ρ c
  have hw0 : w6_0 (U11 m ρ) c = A11 m c := W11_main_arg11 m ρ c
  have hb0 : b6_0 (U11 m ρ) c = Cert.ReferenceIdeal.Read.val_main_v139 (F := Ideal) (A12 m c) := e87 m ρ c
  have hw1 : w6_1 (U11 m ρ) c = A13 m c := W11_main_arg13 m ρ c
  have hb1 : b6_1 (U11 m ρ) c = Cert.ReferenceIdeal.Read.val_main_v144 (F := Ideal) (A14 m c) := e88 m ρ c
  rw [hz, hw0, hb0, hw1, hb1]

end Cert.KernelIdeal.Chain

end
-- ==== Proof.Claims.lean ====
/- THE FIVE CLAIMS. Each program runs and leaves its argument arrays unchanged; the idealization rewrote nothing; and at
   the ideal instance the kernel program and the reference, started on memories that agree on the fifteen arguments,
   end with equal result arrays: both are the reference's composed term of the arguments. -/
import proofs.«131909_j56581899158174_1_alg».proof.Defs
import proofs.«131909_j56581899158174_1_alg».proof.Proof.Gen.Pre_finite_inputs
import proofs.«131909_j56581899158174_1_alg».proof.Proof.Gen.ReferenceIdeal.Run
import proofs.«131909_j56581899158174_1_alg».proof.Proof.Gen.ReferenceIdeal.Read
import proofs.«131909_j56581899158174_1_alg».proof.Proof.K.Run
import proofs.«131909_j56581899158174_1_alg».proof.Proof.KI.Run
import proofs.«131909_j56581899158174_1_alg».proof.Proof.KI.Chain

noncomputable section

open Idealize.ShloMosaic Idealize.ShloMosaic.TcCoe Idealize.SL.Sem

namespace Cert.Proof.Claims

/-- The word-level program runs and leaves its fifteen argument arrays as launched. -/
theorem frame_kernel : Cert.frame_Kernel := fun m ρ _ => Cert.Kernel.Run.frame m ρ

/-- So does the program read at the ideal instance. -/
theorem frame_kernelIdeal : Cert.frame_KernelIdeal := fun m ρ _ => Cert.KernelIdeal.Run.frame m ρ

/-- The reference runs and leaves its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- At the ideal instance, from memories that agree on the fifteen arguments, both programs run, leave their arguments
    unchanged, and end with the same result array: the kernel program's is the last boundary's contents of its result
    buffer, which is the reference's composed term of the arguments; the reference's run ends at that term of its own
    arguments, which are the kernel's. -/
theorem algebraic :
    Cert.algebraic_KernelIdeal_ReferenceIdeal := by
  intro m ρ m' ρ' _ hagree
  refine ⟨fun c => Cert.KernelIdeal.Run.W12 m ρ c (Proc.devRef .tc Cert.KernelIdeal.main_v89), ?_, ?_⟩
  · exact (θ_run Cert.KernelIdeal.defs _ _).mono (fun r h c =>
      ⟨h c _ (Cert.KernelIdeal.Run.mem_uc Cert.KernelIdeal.main_v89 (by decide)),
       (h c _ (Cert.KernelIdeal.Run.mem_uc Cert.KernelIdeal.main_arg0 (by decide))).trans (Cert.KernelIdeal.Run.W12_main_arg0 m ρ c),
       (h c _ (Cert.KernelIdeal.Run.mem_uc Cert.KernelIdeal.main_arg1 (by decide))).trans (Cert.KernelIdeal.Run.W12_main_arg1 m ρ c),
       (h c _ (Cert.KernelIdeal.Run.mem_uc Cert.KernelIdeal.main_arg2 (by decide))).trans (Cert.KernelIdeal.Run.W12_main_arg2 m ρ c),
       (h c _ (Cert.KernelIdeal.Run.mem_uc Cert.KernelIdeal.main_arg3 (by decide))).trans (Cert.KernelIdeal.Run.W12_main_arg3 m ρ c),
       (h c _ (Cert.KernelIdeal.Run.mem_uc Cert.KernelIdeal.main_arg4 (by decide))).trans (Cert.KernelIdeal.Run.W12_main_arg4 m ρ c),
       (h c _ (Cert.KernelIdeal.Run.mem_uc Cert.KernelIdeal.main_arg5 (by decide))).trans (Cert.KernelIdeal.Run.W12_main_arg5 m ρ c),
       (h c _ (Cert.KernelIdeal.Run.mem_uc Cert.KernelIdeal.main_arg6 (by decide))).trans (Cert.KernelIdeal.Run.W12_main_arg6 m ρ c),
       (h c _ (Cert.KernelIdeal.Run.mem_uc Cert.KernelIdeal.main_arg7 (by decide))).trans (Cert.KernelIdeal.Run.W12_main_arg7 m ρ c),
       (h c _ (Cert.KernelIdeal.Run.mem_uc Cert.KernelIdeal.main_arg8 (by decide))).trans (Cert.KernelIdeal.Run.W12_main_arg8 m ρ c),
       (h c _ (Cert.KernelIdeal.Run.mem_uc Cert.KernelIdeal.main_arg9 (by decide))).trans (Cert.KernelIdeal.Run.W12_main_arg9 m ρ c),
       (h c _ (Cert.KernelIdeal.Run.mem_uc Cert.KernelIdeal.main_arg10 (by decide))).trans (Cert.KernelIdeal.Run.W12_main_arg10 m ρ c),
       (h c _ (Cert.KernelIdeal.Run.mem_uc Cert.KernelIdeal.main_arg11 (by decide))).trans (Cert.KernelIdeal.Run.W12_main_arg11 m ρ c),
       (h c _ (Cert.KernelIdeal.Run.mem_uc Cert.KernelIdeal.main_arg12 (by decide))).trans (Cert.KernelIdeal.Run.W12_main_arg12 m ρ c),
       (h c _ (Cert.KernelIdeal.Run.mem_uc Cert.KernelIdeal.main_arg13 (by decide))).trans (Cert.KernelIdeal.Run.W12_main_arg13 m ρ c),
       (h c _ (Cert.KernelIdeal.Run.mem_uc Cert.KernelIdeal.main_arg14 (by decide))).trans (Cert.KernelIdeal.Run.W12_main_arg14 m ρ c)⟩)
      (Cert.KernelIdeal.Run.run_all m ρ)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v146_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
    exact (Cert.KernelIdeal.Chain.result m ρ c).symm

end Cert.Proof.Claims

end
-- ==== Proof.lean ====
/-
  A three-layer graph convolution network with mean pooling and a two-layer head, as a program of seven kernel regions
  among stretches of host operations, against its plain array reference, over the extended reals.

  Both programs compute, from the node features x, the edge list (src, dst) and the graph assignment: the degree
  deg = (number of incoming edges) + 1 and dis = deg^(-1/2); three times h ← max((Σ_{edges j→i} dis_j·dis_i·(hW)_j
  + dis_i²·(hW)_i) + b, 0); the per-graph mean of the rows of h (divided by max(count, 1)); the concatenation with two
  per-graph scalars; and max(z·W₀ + b₀, 0)·W₁ + b₁.  The kernel's program computes each product hW in a region tiled over
  blocks of 2000 rows (a row block of a product is the block of the whole product; the narrowing of the factors to a
  shorter float format is the identity on the extended reals), the gather / scale / scatter-add on the host with the
  reference's own operations, each "add the self term and the bias, clamp at zero" in a region tiled the same way with
  the column dis² and the bias row broadcast inside the body where the reference broadcasts them on the host (a reshape
  of a vector to a column, or to a row, is its broadcast along that axis), and the head in one region.  No law of
  arithmetic beyond these layout identities joins the two sides, so the precondition on the inputs is never opened.

  The frames: each region's body loads its input blocks whole and stores one whole block, so its run is read off its
  skeleton (Proof/KI/Reg0–6 and, for the word-level program, Proof/K/Reg0–6); the program's run is the chain of its
  twelve segments over the thread state "every unscoped buffer at the boundary's contents" (Proof/KI/Run, Proof/K/Run).
  The values: each region's output array at an entry (Proof/KI/Val0–6), the host stretches against the reference's
  stages (Proof/KI/Bridge0, Bridge135, Bridge6), the reference's stages at an entry (Proof/KI/RefDots, RefCombines),
  buffer by buffer through the program (Proof/KI/Carry, Chain), and the claims (Proof/Claims).
-/
import proofs.«131909_j56581899158174_1_alg».proof.Defs
import proofs.«131909_j56581899158174_1_alg».proof.Proof.Gen.Kernel
import proofs.«131909_j56581899158174_1_alg».proof.Proof.Gen.KernelIdeal
import proofs.«131909_j56581899158174_1_alg».proof.Proof.Gen.ReferenceIdeal
import proofs.«131909_j56581899158174_1_alg».proof.Proof.Gen.Pre_finite_inputs
import proofs.«131909_j56581899158174_1_alg».proof.Proof.Claims

noncomputable section

namespace Cert.Proof

/-- Everything the certificate claims, under the witnesses of the programs' stated side conditions. -/
theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
